-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v325) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_arg15 : FVec F S32x32 .f32) (main_arg16 : FVec F S32 .f32) (main_v63 : IVec S_ 1) (main_v67 : IVec S_ 1) : IVec S_ 1 :=
  let main_v68 : IVec S_ 1 := andi main_v63 main_v67
  let main_v69 : FVec F S32x32 .f32 := Host.absf main_arg15
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg12 : FVec F S32 .f32) (main_arg13 : FVec F S32x32 .f32) (main_arg14 : FVec F S32 .f32) (main_arg15 : FVec F S32x32 .f32) (main_arg16 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S64 .f32) (main_arg9 : FVec F S64x64 .f32) (main_arg10 : FVec F S64 .f32) (main_arg11 : FVec F S64x32 .f32) (main_arg12 : FVec F S32 .f32) (main_arg13 : FVec F S32x32 .f32) (main_arg14 : FVec F S32 .f32) (main_arg15 : FVec F S32x32 .f32) (main_arg16 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_arg13 main_arg14 main_arg15 main_arg16 main_v48 main_v49 main_v50

def fn_part1 {F : FTy → Type} [FloatOps F] (main_arg5 : FVec F S256x128 .f32) (main_arg6 : FVec F S128 .f32) (main_arg7 : FVec F S128x64 .f32) (main_arg8 : FVec F S64 .f32) (main_arg9 : FVec F S64x64 .f32) (main_arg10 : FVec F S64 .f32) (main_arg11 : FVec F S64x32 .f32) (main_arg12 : FVec F S32 .f32) (main_arg13 : FVec F S32x32 .f32) (main_arg14 : FVec F S32 .f32) (main_arg15 : FVec F S32x32 .f32) (main_arg16 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S256x128 .f32) (main_arg6 : FVec F S128 .f32) (main_arg7 : FVec F S128x64 .f32) (main_arg8 : FVec F S64 .f32) (main_arg9 : FVec F S64x64 .f32) (main_arg10 : FVec F S64 .f32) (main_arg11 : FVec F S64x32 .f32) (main_arg12 : FVec F S32 .f32) (main_arg13 : FVec F S32x32 .f32) (main_arg14 : FVec F S32 .f32) (main_arg15 : FVec F S32x32 .f32) (main_arg16 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 192
  | .vmem => 70
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S1x800000, .i32⟩
  | 18 => ⟨S800000, .i32⟩
  | 19 => ⟨S1x800000, .i32⟩
  | 20 => ⟨S800000, .i32⟩
  | 21 => ⟨S50000, .i32⟩
  | 22 => ⟨S850000, .i32⟩
  | 23 => ⟨S850000, .i32⟩
  | 24 => ⟨S_, .f32⟩
  | 25 => ⟨S50000, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x256, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x256, .f32⟩
  | 69 => ⟨S850000x1, .f32⟩
  | 70 => ⟨S850000x256, .f32⟩
  | 71 => ⟨S850000x256, .f32⟩
  | 72 => ⟨S_, .f32⟩
  | 73 => ⟨S50000x256, .f32⟩
  | 74 => ⟨S850000x1, .i32⟩
  | 75 => ⟨S50000x256, .f32⟩
  | 76 => ⟨S1x256, .f32⟩
  | 77 => ⟨S50000x256, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S50000x64, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x64, .f32⟩
  | 107 => ⟨S850000x1, .f32⟩
  | 108 => ⟨S850000x64, .f32⟩
  | 109 => ⟨S850000x64, .f32⟩
  | 110 => ⟨S_, .f32⟩
  | 111 => ⟨S50000x64, .f32⟩
  | 112 => ⟨S850000x1, .i32⟩
  | 113 => ⟨S50000x64, .f32⟩
  | 114 => ⟨S1x64, .f32⟩
  | 115 => ⟨S50000x64, .f32⟩
  | 116 => ⟨S50000x64, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .f32⟩
  | 126 => ⟨S850000x1, .f32⟩
  | 127 => ⟨S850000x64, .f32⟩
  | _ => ⟨S50000x128, .f32⟩

abbrev hbmTy0_1 (i : Nat) : BufTy := match i % 128 with
  | 0 => ⟨S850000x64, .f32⟩
  | 1 => ⟨S_, .f32⟩
  | 2 => ⟨S50000x64, .f32⟩
  | 3 => ⟨S850000x1, .i32⟩
  | 4 => ⟨S50000x64, .f32⟩
  | 5 => ⟨S1x64, .f32⟩
  | 6 => ⟨S50000x64, .f32⟩
  | 7 => ⟨S50000x32, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x32, .f32⟩
  | 17 => ⟨S850000x1, .f32⟩
  | 18 => ⟨S850000x32, .f32⟩
  | 19 => ⟨S850000x32, .f32⟩
  | 20 => ⟨S_, .f32⟩
  | 21 => ⟨S50000x32, .f32⟩
  | 22 => ⟨S850000x1, .i32⟩
  | 23 => ⟨S50000x32, .f32⟩
  | 24 => ⟨S1x32, .f32⟩
  | 25 => ⟨S50000x32, .f32⟩
  | 26 => ⟨S50000x32, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x32, .f32⟩
  | 36 => ⟨S850000x1, .f32⟩
  | 37 => ⟨S850000x32, .f32⟩
  | 38 => ⟨S850000x32, .f32⟩
  | 39 => ⟨S_, .f32⟩
  | 40 => ⟨S50000x32, .f32⟩
  | 41 => ⟨S850000x1, .i32⟩
  | 42 => ⟨S50000x32, .f32⟩
  | 43 => ⟨S1x32, .f32⟩
  | 44 => ⟨S50000x32, .f32⟩
  | 45 => ⟨S50000x32, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x32, .f32⟩
  | 55 => ⟨S850000x1, .f32⟩
  | 56 => ⟨S850000x32, .f32⟩
  | 57 => ⟨S850000x32, .f32⟩
  | 58 => ⟨S_, .f32⟩
  | 59 => ⟨S50000x32, .f32⟩
  | 60 => ⟨S850000x1, .i32⟩
  | 61 => ⟨S50000x32, .f32⟩
  | 62 => ⟨S1x32, .f32⟩
  | 63 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x32, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S1x32, .f32⟩
  | .local _ .vmem, ⟨48, _⟩ => ⟨S5000x32, .f32⟩
  | .local _ .vmem, ⟨49, _⟩ => ⟨S5000x32, .f32⟩
  | .local _ .vmem, ⟨50, _⟩ => ⟨S5000x32, .f32⟩
  | .local _ .vmem, ⟨51, _⟩ => ⟨S5000x32, .f32⟩
  | .local _ .vmem, ⟨52, _⟩ => ⟨S32x32, .f32⟩
  | .local _ .vmem, ⟨53, _⟩ => ⟨S5000x32, .f32⟩
  | .local _ .vmem, ⟨54, _⟩ => ⟨S5000x32, .f32⟩
  | .local _ .vmem, ⟨55, _⟩ => ⟨S5000x32, .f32⟩
  | .local _ .vmem, ⟨56, _⟩ => ⟨S5000x32, .f32⟩
  | .local _ .vmem, ⟨57, _⟩ => ⟨S1x32, .f32⟩
  | .local _ .vmem, ⟨58, _⟩ => ⟨S5000x32, .f32⟩
  | .local _ .vmem, ⟨59, _⟩ => ⟨S5000x32, .f32⟩
  | .local _ .vmem, ⟨60, _⟩ => ⟨S5000x32, .f32⟩
  | .local _ .vmem, ⟨61, _⟩ => ⟨S5000x32, .f32⟩
  | .local _ .vmem, ⟨62, _⟩ => ⟨S32x32, .f32⟩
  | .local _ .vmem, ⟨63, _⟩ => ⟨S5000x32, .f32⟩
  | .local _ .vmem, ⟨64, _⟩ => ⟨S5000x32, .f32⟩
  | .local _ .vmem, ⟨65, _⟩ => ⟨S5000x32, .f32⟩
  | .local _ .vmem, ⟨66, _⟩ => ⟨S5000x32, .f32⟩
  | .local _ .vmem, ⟨67, _⟩ => ⟨S1x32, .f32⟩
  | .local _ .vmem, ⟨68, _⟩ => ⟨S5000x32, .f32⟩
  | .local _ .vmem, ⟨69, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_15 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_18 : Ref sig .tc := ⟨.hbm, 136, rfl⟩
abbrev main_v97 : Ref sig .tc := ⟨.hbm, 137, rfl⟩
abbrev main_v98 : Ref sig .tc := ⟨.hbm, 138, rfl⟩
abbrev main_c_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_20 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_21 : Ref sig .tc := ⟨.hbm, 155, rfl⟩
abbrev main_v113 : Ref sig .tc := ⟨.hbm, 156, rfl⟩
abbrev main_v114 : Ref sig .tc := ⟨.hbm, 157, rfl⟩
abbrev main_c_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_23 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_c_24 : Ref sig .tc := ⟨.hbm, 174, rfl⟩
abbrev main_v129 : Ref sig .tc := ⟨.hbm, 175, rfl⟩
abbrev main_v130 : Ref sig .tc := ⟨.hbm, 176, rfl⟩
abbrev main_c_25 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_26 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg2_0 : Ref sig .tc := ⟨.vmem, 63, rfl⟩
abbrev cc12_stg2_1 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg2_0 : Ref sig .tc := ⟨.vmem, 68, rfl⟩
abbrev cc13_stg2_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64
abbrev cc13_sem0_0 : DmaSem sig := 65
abbrev cc13_sem0_1 : DmaSem sig := 66
abbrev cc13_sem1_0 : DmaSem sig := 67
abbrev cc13_sem2_0 : DmaSem sig := 68
abbrev cc13_sem2_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x32 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x32 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S32x32 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x32 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x32 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x32.size a ≤ S50000x32.size a
  hwx8_2 : ∀ i : grid8.Coords, EltTy.bits .f32 = 32 ∨ (Rect.block (s := S50000x32) S5000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x32.size a ≤ S50000x32.size a
  hwx9_0 : ∀ i : grid9.Coords, EltTy.bits .f32 = 32 ∨ (Rect.block (s := S50000x32) S5000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x32.size a ≤ S1x32.size a
  hwx9_1 : ∀ i : grid9.Coords, EltTy.bits .f32 = 32 ∨ (Rect.block (s := S1x32) S1x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x32.size a ≤ S50000x32.size a
  hwx9_2 : ∀ i : grid9.Coords, EltTy.bits .f32 = 32 ∨ (Rect.block (s := S50000x32) S5000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S50000x32.size a
  hwx10_0 : ∀ i : grid10.Coords, EltTy.bits .f32 = 32 ∨ (Rect.block (s := S50000x32) S5000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x32.size a ≤ S32x32.size a
  hwx10_1 : ∀ i : grid10.Coords, EltTy.bits .f32 = 32 ∨ (Rect.block (s := S32x32) S32x32.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x32.size a ≤ S50000x32.size a
  hwx10_2 : ∀ i : grid10.Coords, EltTy.bits .f32 = 32 ∨ (Rect.block (s := S50000x32) S5000x32.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x32.size a ≤ S50000x32.size a
  hwx11_0 : ∀ i : grid11.Coords, EltTy.bits .f32 = 32 ∨ (Rect.block (s := S50000x32) S5000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x32.size a ≤ S1x32.size a
  hwx11_1 : ∀ i : grid11.Coords, EltTy.bits .f32 = 32 ∨ (Rect.block (s := S1x32) S1x32.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x32.size a ≤ S50000x32.size a
  hwx11_2 : ∀ i : grid11.Coords, EltTy.bits .f32 = 32 ∨ (Rect.block (s := S50000x32) S5000x32.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x32.size a ≤ S50000x32.size a
  hwx12_0 : ∀ i : grid12.Coords, EltTy.bits .f32 = 32 ∨ (Rect.block (s := S50000x32) S5000x32.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S32x32.size a ≤ S32x32.size a
  hwx12_1 : ∀ i : grid12.Coords, EltTy.bits .f32 = 32 ∨ (Rect.block (s := S32x32) S32x32.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x32.size a ≤ S50000x32.size a
  hwx12_2 : ∀ i : grid12.Coords, EltTy.bits .f32 = 32 ∨ (Rect.block (s := S50000x32) S5000x32.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x32.size a ≤ S50000x32.size a
  hwx13_0 : ∀ i : grid13.Coords, EltTy.bits .f32 = 32 ∨ (Rect.block (s := S50000x32) S5000x32.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x32.size a ≤ S1x32.size a
  hwx13_1 : ∀ i : grid13.Coords, EltTy.bits .f32 = 32 ∨ (Rect.block (s := S1x32) S1x32.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x32.size a ≤ S50000x32.size a
  hwx13_2 : ∀ i : grid13.Coords, EltTy.bits .f32 = 32 ∨ (Rect.block (s := S50000x32) S5000x32.size (cc13_transform_2 i) (hinb13_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v95) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v96) S5000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v109) S5000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v110) S1x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v111) S5000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v111) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S32x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v112) S5000x32.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v125) S5000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S1x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v127) S5000x32.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v127) S5000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg15) S32x32.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v128) S5000x32.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v141) S5000x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v142) S1x32.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v143) S5000x32.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 448
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S1x800000, .i32⟩
  | 18 => ⟨S800000, .i32⟩
  | 19 => ⟨S1x800000, .i32⟩
  | 20 => ⟨S800000, .i32⟩
  | 21 => ⟨S50000, .i32⟩
  | 22 => ⟨S850000, .i32⟩
  | 23 => ⟨S850000, .i32⟩
  | 24 => ⟨S_, .f32⟩
  | 25 => ⟨S50000, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x256, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x256, .f32⟩
  | 69 => ⟨S850000x1, .f32⟩
  | 70 => ⟨S850000x256, .f32⟩
  | 71 => ⟨S850000x256, .f32⟩
  | 72 => ⟨S_, .f32⟩
  | 73 => ⟨S50000x256, .f32⟩
  | 74 => ⟨S850000x1, .i32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S50000, .i32⟩
  | 83 => ⟨S850000, .i32⟩
  | 84 => ⟨S850000, .i32⟩
  | 85 => ⟨S_, .f32⟩
  | 86 => ⟨S50000, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .i1⟩
  | 95 => ⟨S50000, .f32⟩
  | 96 => ⟨S_, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S850000, .f32⟩
  | 120 => ⟨S50000x128, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x128, .f32⟩
  | 2 => ⟨S850000x1, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000, .i32⟩
  | 77 => ⟨S850000, .i32⟩
  | 78 => ⟨S850000, .i32⟩
  | 79 => ⟨S_, .f32⟩
  | 80 => ⟨S50000, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S50000x64, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x64, .f32⟩
  | 124 => ⟨S850000x1, .f32⟩
  | 125 => ⟨S850000x64, .f32⟩
  | 126 => ⟨S850000x64, .f32⟩
  | 127 => ⟨S_, .f32⟩
  | _ => ⟨S50000x128, .f32⟩

abbrev hbmTy0_2 (i : Nat) : BufTy := match i % 128 with
  | 0 => ⟨S50000x64, .f32⟩
  | 1 => ⟨S850000x1, .i32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000, .i32⟩
  | 10 => ⟨S850000, .i32⟩
  | 11 => ⟨S850000, .i32⟩
  | 12 => ⟨S_, .f32⟩
  | 13 => ⟨S50000, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x32, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x32, .f32⟩
  | 57 => ⟨S850000x1, .f32⟩
  | 58 => ⟨S850000x32, .f32⟩
  | 59 => ⟨S850000x32, .f32⟩
  | 60 => ⟨S_, .f32⟩
  | 61 => ⟨S50000x32, .f32⟩
  | 62 => ⟨S850000x1, .i32⟩
  | 63 => ⟨S50000x32, .f32⟩
  | 64 => ⟨S1x32, .f32⟩
  | 65 => ⟨S50000x32, .f32⟩
  | 66 => ⟨S50000x32, .f32⟩
  | 67 => ⟨S_, .f32⟩
  | 68 => ⟨S50000x32, .f32⟩
  | 69 => ⟨S50000x32, .f32⟩
  | 70 => ⟨S50000, .i32⟩
  | 71 => ⟨S850000, .i32⟩
  | 72 => ⟨S850000, .i32⟩
  | 73 => ⟨S_, .f32⟩
  | 74 => ⟨S50000, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S50000x32, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x32, .f32⟩
  | 118 => ⟨S850000x1, .f32⟩
  | 119 => ⟨S850000x32, .f32⟩
  | 120 => ⟨S850000x32, .f32⟩
  | 121 => ⟨S_, .f32⟩
  | 122 => ⟨S50000x32, .f32⟩
  | 123 => ⟨S850000x1, .i32⟩
  | 124 => ⟨S50000x32, .f32⟩
  | 125 => ⟨S1x32, .f32⟩
  | 126 => ⟨S50000x32, .f32⟩
  | 127 => ⟨S50000x32, .f32⟩
  | _ => ⟨S50000x128, .f32⟩

abbrev hbmTy0_3 (i : Nat) : BufTy := match i % 128 with
  | 0 => ⟨S_, .f32⟩
  | 1 => ⟨S50000x32, .f32⟩
  | 2 => ⟨S50000x32, .f32⟩
  | 3 => ⟨S50000, .i32⟩
  | 4 => ⟨S850000, .i32⟩
  | 5 => ⟨S850000, .i32⟩
  | 6 => ⟨S_, .f32⟩
  | 7 => ⟨S50000, .f32⟩
  | 8 => ⟨S850000, .f32⟩
  | 9 => ⟨S_, .f32⟩
  | 10 => ⟨S50000, .f32⟩
  | 11 => ⟨S850000x1, .i32⟩
  | 12 => ⟨S50000, .f32⟩
  | 13 => ⟨S_, .f32⟩
  | 14 => ⟨S50000, .f32⟩
  | 15 => ⟨S50000, .i1⟩
  | 16 => ⟨S50000, .f32⟩
  | 17 => ⟨S_, .f32⟩
  | 18 => ⟨S_, .f32⟩
  | 19 => ⟨S50000, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S50000x32, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x32, .f32⟩
  | 51 => ⟨S850000x1, .f32⟩
  | 52 => ⟨S850000x32, .f32⟩
  | 53 => ⟨S850000x32, .f32⟩
  | 54 => ⟨S_, .f32⟩
  | 55 => ⟨S50000x32, .f32⟩
  | 56 => ⟨S850000x1, .i32⟩
  | 57 => ⟨S50000x32, .f32⟩
  | 58 => ⟨S1x32, .f32⟩
  | 59 => ⟨S50000x32, .f32⟩
  | 60 => ⟨S50000x32, .f32⟩
  | 61 => ⟨S_, .f32⟩
  | 62 => ⟨S50000x32, .f32⟩
  | 63 => ⟨S50000x32, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v61 : Ref sig .tc := ⟨.hbm, 99, rfl⟩
abbrev main_c_13 : Ref sig .tc := ⟨.hbm, 100, rfl⟩
abbrev main_v62 : Ref sig .tc := ⟨.hbm, 101, rfl⟩
abbrev main_v63 : Ref sig .tc := ⟨.hbm, 102, rfl⟩
abbrev main_c_14 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_15 : Ref sig .tc := ⟨.hbm, 110, rfl⟩
abbrev main_v70 : Ref sig .tc := ⟨.hbm, 111, rfl⟩
abbrev main_v71 : Ref sig .tc := ⟨.hbm, 112, rfl⟩
abbrev main_c_16 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_17 : Ref sig .tc := ⟨.hbm, 121, rfl⟩
abbrev main_v79 : Ref sig .tc := ⟨.hbm, 122, rfl⟩
abbrev main_v80 : Ref sig .tc := ⟨.hbm, 123, rfl⟩
abbrev main_c_18 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call3_cst : Ref sig .tc := ⟨.hbm, 140, rfl⟩
abbrev main_call3_v0 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_20 : Ref sig .tc := ⟨.hbm, 146, rfl⟩
abbrev main_v99 : Ref sig .tc := ⟨.hbm, 147, rfl⟩
abbrev main_v100 : Ref sig .tc := ⟨.hbm, 148, rfl⟩
abbrev main_cst_21 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_22 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_23 : Ref sig .tc := ⟨.hbm, 157, rfl⟩
abbrev main_call4_v0 : Ref sig .tc := ⟨.hbm, 158, rfl⟩
abbrev main_call4_v1 : Ref sig .tc := ⟨.hbm, 159, rfl⟩
abbrev main_v107 : Ref sig .tc := ⟨.hbm, 160, rfl⟩
abbrev main_c_24 : Ref sig .tc := ⟨.hbm, 161, rfl⟩
abbrev main_v108 : Ref sig .tc := ⟨.hbm, 162, rfl⟩
abbrev main_v109 : Ref sig .tc := ⟨.hbm, 163, rfl⟩
abbrev main_c_25 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_c_26 : Ref sig .tc := ⟨.hbm, 171, rfl⟩
abbrev main_v116 : Ref sig .tc := ⟨.hbm, 172, rfl⟩
abbrev main_v117 : Ref sig .tc := ⟨.hbm, 173, rfl⟩
abbrev main_c_27 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_c_28 : Ref sig .tc := ⟨.hbm, 182, rfl⟩
abbrev main_v125 : Ref sig .tc := ⟨.hbm, 183, rfl⟩
abbrev main_v126 : Ref sig .tc := ⟨.hbm, 184, rfl⟩
abbrev main_c_29 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_30 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_call5_cst : Ref sig .tc := ⟨.hbm, 201, rfl⟩
abbrev main_call5_v0 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_31 : Ref sig .tc := ⟨.hbm, 207, rfl⟩
abbrev main_v145 : Ref sig .tc := ⟨.hbm, 208, rfl⟩
abbrev main_v146 : Ref sig .tc := ⟨.hbm, 209, rfl⟩
abbrev main_cst_32 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_33 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_cst_34 : Ref sig .tc := ⟨.hbm, 218, rfl⟩
abbrev main_call6_v0 : Ref sig .tc := ⟨.hbm, 219, rfl⟩
abbrev main_call6_v1 : Ref sig .tc := ⟨.hbm, 220, rfl⟩
abbrev main_v153 : Ref sig .tc := ⟨.hbm, 221, rfl⟩
abbrev main_c_35 : Ref sig .tc := ⟨.hbm, 222, rfl⟩
abbrev main_v154 : Ref sig .tc := ⟨.hbm, 223, rfl⟩
abbrev main_v155 : Ref sig .tc := ⟨.hbm, 224, rfl⟩
abbrev main_c_36 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_c_37 : Ref sig .tc := ⟨.hbm, 232, rfl⟩
abbrev main_v162 : Ref sig .tc := ⟨.hbm, 233, rfl⟩
abbrev main_v163 : Ref sig .tc := ⟨.hbm, 234, rfl⟩
abbrev main_c_38 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_c_39 : Ref sig .tc := ⟨.hbm, 243, rfl⟩
abbrev main_v171 : Ref sig .tc := ⟨.hbm, 244, rfl⟩
abbrev main_v172 : Ref sig .tc := ⟨.hbm, 245, rfl⟩
abbrev main_c_40 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_cst_41 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_call7_cst : Ref sig .tc := ⟨.hbm, 262, rfl⟩
abbrev main_call7_v0 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_cst_42 : Ref sig .tc := ⟨.hbm, 268, rfl⟩
abbrev main_v191 : Ref sig .tc := ⟨.hbm, 269, rfl⟩
abbrev main_v192 : Ref sig .tc := ⟨.hbm, 270, rfl⟩
abbrev main_cst_43 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_cst_44 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_cst_45 : Ref sig .tc := ⟨.hbm, 279, rfl⟩
abbrev main_call8_v0 : Ref sig .tc := ⟨.hbm, 280, rfl⟩
abbrev main_call8_v1 : Ref sig .tc := ⟨.hbm, 281, rfl⟩
abbrev main_v199 : Ref sig .tc := ⟨.hbm, 282, rfl⟩
abbrev main_c_46 : Ref sig .tc := ⟨.hbm, 283, rfl⟩
abbrev main_v200 : Ref sig .tc := ⟨.hbm, 284, rfl⟩
abbrev main_v201 : Ref sig .tc := ⟨.hbm, 285, rfl⟩
abbrev main_c_47 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_c_48 : Ref sig .tc := ⟨.hbm, 293, rfl⟩
abbrev main_v208 : Ref sig .tc := ⟨.hbm, 294, rfl⟩
abbrev main_v209 : Ref sig .tc := ⟨.hbm, 295, rfl⟩
abbrev main_c_49 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_c_50 : Ref sig .tc := ⟨.hbm, 304, rfl⟩
abbrev main_v217 : Ref sig .tc := ⟨.hbm, 305, rfl⟩
abbrev main_v218 : Ref sig .tc := ⟨.hbm, 306, rfl⟩
abbrev main_c_51 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_cst_52 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_call9_cst : Ref sig .tc := ⟨.hbm, 323, rfl⟩
abbrev main_call9_v0 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_cst_53 : Ref sig .tc := ⟨.hbm, 329, rfl⟩
abbrev main_v237 : Ref sig .tc := ⟨.hbm, 330, rfl⟩
abbrev main_v238 : Ref sig .tc := ⟨.hbm, 331, rfl⟩
abbrev main_cst_54 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_cst_55 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_cst_56 : Ref sig .tc := ⟨.hbm, 340, rfl⟩
abbrev main_call10_v0 : Ref sig .tc := ⟨.hbm, 341, rfl⟩
abbrev main_call10_v1 : Ref sig .tc := ⟨.hbm, 342, rfl⟩
abbrev main_v245 : Ref sig .tc := ⟨.hbm, 343, rfl⟩
abbrev main_c_57 : Ref sig .tc := ⟨.hbm, 344, rfl⟩
abbrev main_v246 : Ref sig .tc := ⟨.hbm, 345, rfl⟩
abbrev main_v247 : Ref sig .tc := ⟨.hbm, 346, rfl⟩
abbrev main_c_58 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_c_59 : Ref sig .tc := ⟨.hbm, 354, rfl⟩
abbrev main_v254 : Ref sig .tc := ⟨.hbm, 355, rfl⟩
abbrev main_v255 : Ref sig .tc := ⟨.hbm, 356, rfl⟩
abbrev main_c_60 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_v261 : Ref sig .tc := ⟨.hbm, 363, rfl⟩
abbrev main_v262 : Ref sig .tc := ⟨.hbm, 364, rfl⟩
abbrev main_c_61 : Ref sig .tc := ⟨.hbm, 365, rfl⟩
abbrev main_v263 : Ref sig .tc := ⟨.hbm, 366, rfl⟩
abbrev main_v264 : Ref sig .tc := ⟨.hbm, 367, rfl⟩
abbrev main_c_62 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_cst_63 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_call11_cst : Ref sig .tc := ⟨.hbm, 384, rfl⟩
abbrev main_call11_v0 : Ref sig .tc := ⟨.hbm, 385, rfl⟩
abbrev main_v279 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_cst_64 : Ref sig .tc := ⟨.hbm, 390, rfl⟩
abbrev main_v283 : Ref sig .tc := ⟨.hbm, 391, rfl⟩
abbrev main_v284 : Ref sig .tc := ⟨.hbm, 392, rfl⟩
abbrev main_cst_65 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_cst_66 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_cst_67 : Ref sig .tc := ⟨.hbm, 401, rfl⟩
abbrev main_call12_v0 : Ref sig .tc := ⟨.hbm, 402, rfl⟩
abbrev main_call12_v1 : Ref sig .tc := ⟨.hbm, 403, rfl⟩
abbrev main_v291 : Ref sig .tc := ⟨.hbm, 404, rfl⟩
abbrev main_c_68 : Ref sig .tc := ⟨.hbm, 405, rfl⟩
abbrev main_v292 : Ref sig .tc := ⟨.hbm, 406, rfl⟩
abbrev main_v293 : Ref sig .tc := ⟨.hbm, 407, rfl⟩
abbrev main_c_69 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_c_70 : Ref sig .tc := ⟨.hbm, 415, rfl⟩
abbrev main_v300 : Ref sig .tc := ⟨.hbm, 416, rfl⟩
abbrev main_v301 : Ref sig .tc := ⟨.hbm, 417, rfl⟩
abbrev main_c_71 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_c_72 : Ref sig .tc := ⟨.hbm, 426, rfl⟩
abbrev main_v309 : Ref sig .tc := ⟨.hbm, 427, rfl⟩
abbrev main_v310 : Ref sig .tc := ⟨.hbm, 428, rfl⟩
abbrev main_c_73 : Ref sig .tc := ⟨.hbm, 429, rfl⟩
abbrev main_v311 : Ref sig .tc := ⟨.hbm, 430, rfl⟩
abbrev main_v312 : Ref sig .tc := ⟨.hbm, 431, rfl⟩
abbrev main_v313 : Ref sig .tc := ⟨.hbm, 432, rfl⟩
abbrev main_v314 : Ref sig .tc := ⟨.hbm, 433, rfl⟩
abbrev main_v315 : Ref sig .tc := ⟨.hbm, 434, rfl⟩
abbrev main_v316 : Ref sig .tc := ⟨.hbm, 435, rfl⟩
abbrev main_v317 : Ref sig .tc := ⟨.hbm, 436, rfl⟩
abbrev main_v318 : Ref sig .tc := ⟨.hbm, 437, rfl⟩
abbrev main_cst_74 : Ref sig .tc := ⟨.hbm, 438, rfl⟩
abbrev main_v319 : Ref sig .tc := ⟨.hbm, 439, rfl⟩
abbrev main_v320 : Ref sig .tc := ⟨.hbm, 440, rfl⟩
abbrev main_v321 : Ref sig .tc := ⟨.hbm, 441, rfl⟩
abbrev main_v322 : Ref sig .tc := ⟨.hbm, 442, rfl⟩
abbrev main_v323 : Ref sig .tc := ⟨.hbm, 443, rfl⟩
abbrev main_v324 : Ref sig .tc := ⟨.hbm, 444, rfl⟩
abbrev main_call13_cst : Ref sig .tc := ⟨.hbm, 445, rfl⟩
abbrev main_call13_v0 : Ref sig .tc := ⟨.hbm, 446, rfl⟩
abbrev main_v325 : Ref sig .tc := ⟨.hbm, 447, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x32_S50000x32_1_0_0_1_n_n_wf : DotDims.WF S50000x32 S32x32 S50000x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf

class Facts : Prop extends Facts₀ where

variable [Facts]
-- ==== Proof.KernelRun.lean ====
/-
  The idealized kernel's run with its result named.

  The kernel's @main is a chain of host stretches and pipelined regions. Along that chain the contents of the
  TensorCore's buffers are known at every boundary between two segments: a host stretch leaves each buffer it writes
  at its operation's value of the buffers before it, a region leaves each output array at what its grid points wrote
  back, and every other buffer as it was. Every weakly fair execution ends in a memory whose unscoped buffers hold the
  contents of the last boundary; read there, the result buffer holds the last region's output array, and each
  argument buffer what it held at launch. This is the same run as the one that shows the arguments unchanged, read at
  one more buffer.
-/
import proofs.«114307_j63015760166989_1_alg».proof.Proof.Gen.KernelIdeal.Frame

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding
-- plain definitions in a metavariable's type
set_option backward.isDefEq.respectTransparency.types false in
/-- Every weakly fair execution of the kernel's @main terminates without a fault, its result buffer at the contents
    of the last boundary of the chain, its argument buffers as launched. -/
theorem run_result : θ_run defs (onTc (τ := τ) (main (F := F))) ⟨m, fun _ => 0, ρ⟩ (fun r => ∀ c : Dev nD,
      r.2.mem ((c.tc : Thread nD τ).loc main_v143) = W24 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v143 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c)⟩)

end Cert.KernelIdeal.Rows

end
-- ==== Proof.Boundary0.lean ====
/-
  The contents of the TensorCore's buffers when the first region is entered.

  Before the first matrix product the host computes, from the edge list and the edge weights alone, three arrays that
  every layer reads: the source index of each edge followed by the self-loops (s), the target index likewise (d), and
  the symmetric normalisation dinv[s] · w · dinv[d] of each edge (n), where dinv is the inverse square root of the
  weighted in-degree, zero where the degree is not positive. The reference computes the same three arrays by the same
  operations, so each is the reference's own stage of the arguments; the argument arrays are untouched.
-/
import proofs.«114307_j63015760166989_1_alg».proof.Proof.Gen.KernelIdeal.Frame
import proofs.«114307_j63015760166989_1_alg».proof.Proof.ReferenceStages
import Idealize.ShloMosaic.Lib.StableHlo.Run
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- At the first region's entry `main_v5` holds the reference's stage of the same name: the same operations of the same arguments. -/
theorem at3_main_v5 : W3 m ρ c (Proc.devRef .tc main_v5) = (val_main_v5 (F := F) (m ((c.tc : Thread nD τ).loc main_arg1))) := by
  show StableHlo.after hostOps0_2 (StableHlo.after hostOps0_1 (StableHlo.after hostOps0 (W0 m ρ c))) (Proc.devRef .tc main_v5) = _
  dsimp only [hostOps0_2, hostOps0_1, hostOps0]
  after_results_simp <;> rfl

/-- At the first region's entry `main_v6` holds the reference's stage of the same name: the same operations of the same arguments. -/
theorem at3_main_v6 : W3 m ρ c (Proc.devRef .tc main_v6) = (val_main_v6 (F := F) (m ((c.tc : Thread nD τ).loc main_arg1))) := by
  show StableHlo.after hostOps0_2 (StableHlo.after hostOps0_1 (StableHlo.after hostOps0 (W0 m ρ c))) (Proc.devRef .tc main_v6) = _
  dsimp only [hostOps0_2, hostOps0_1, hostOps0]
  after_results_simp <;> rfl

/-! ### The normalisation array, one host stretch at a time

The first stretch ends with the weighted in-degree's two readings (is it positive; its inverse square root) and the
edge weights followed by the self-loops' ones; the second selects between them (zero where the degree is not
positive); the third gathers that array at the sources and at the targets and multiplies the three factors. -/

theorem at1_main_v5 : W1 m ρ c (Proc.devRef .tc main_v5) = (val_main_v5 (F := F) (m ((c.tc : Thread nD τ).loc main_arg1))) := by
  show StableHlo.after hostOps0 (W0 m ρ c) (Proc.devRef .tc main_v5) = _
  dsimp only [hostOps0]
  after_results_simp <;> rfl
theorem at1_main_v6 : W1 m ρ c (Proc.devRef .tc main_v6) = (val_main_v6 (F := F) (m ((c.tc : Thread nD τ).loc main_arg1))) := by
  show StableHlo.after hostOps0 (W0 m ρ c) (Proc.devRef .tc main_v6) = _
  dsimp only [hostOps0]
  after_results_simp <;> rfl
theorem at1_main_v8 : W1 m ρ c (Proc.devRef .tc main_v8) = (val_main_v8 (F := F) (m ((c.tc : Thread nD τ).loc main_arg2))) := by
  show StableHlo.after hostOps0 (W0 m ρ c) (Proc.devRef .tc main_v8) = _
  dsimp only [hostOps0]
  after_results_simp <;> rfl
theorem at1_main_v13 : W1 m ρ c (Proc.devRef .tc main_v13) = (val_main_v13 (F := F) (m ((c.tc : Thread nD τ).loc main_arg1)) (m ((c.tc : Thread nD τ).loc main_arg2))) := by
  show StableHlo.after hostOps0 (W0 m ρ c) (Proc.devRef .tc main_v13) = _
  dsimp only [hostOps0]
  after_results_simp <;> rfl
theorem at1_main_v14 : W1 m ρ c (Proc.devRef .tc main_v14) = (val_main_v14 (F := F) (m ((c.tc : Thread nD τ).loc main_arg1)) (m ((c.tc : Thread nD τ).loc main_arg2))) := by
  show StableHlo.after hostOps0 (W0 m ρ c) (Proc.devRef .tc main_v14) = _
  dsimp only [hostOps0]
  after_results_simp <;> rfl
theorem at1_main_cst_2 : W1 m ρ c (Proc.devRef .tc main_cst_2) = (val_main_cst_2 (F := F)) := by
  show StableHlo.after hostOps0 (W0 m ρ c) (Proc.devRef .tc main_cst_2) = _
  dsimp only [hostOps0]
  after_results_simp <;> rfl

theorem at2_main_v5 : W2 m ρ c (Proc.devRef .tc main_v5) = (val_main_v5 (F := F) (m ((c.tc : Thread nD τ).loc main_arg1))) :=
  (StableHlo.after_of_forall_not_mem (b := Proc.devRef .tc main_v5) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at1_main_v5 m ρ c)
theorem at2_main_v6 : W2 m ρ c (Proc.devRef .tc main_v6) = (val_main_v6 (F := F) (m ((c.tc : Thread nD τ).loc main_arg1))) :=
  (StableHlo.after_of_forall_not_mem (b := Proc.devRef .tc main_v6) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at1_main_v6 m ρ c)
theorem at2_main_v8 : W2 m ρ c (Proc.devRef .tc main_v8) = (val_main_v8 (F := F) (m ((c.tc : Thread nD τ).loc main_arg2))) :=
  (StableHlo.after_of_forall_not_mem (b := Proc.devRef .tc main_v8) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at1_main_v8 m ρ c)

/-- The inverse square root of the degree where it is positive, zero elsewhere. -/
theorem at2_main_v15 : W2 m ρ c (Proc.devRef .tc main_v15) = (val_main_v15 (F := F) (m ((c.tc : Thread nD τ).loc main_arg1)) (m ((c.tc : Thread nD τ).loc main_arg2))) := by
  have h13 := at1_main_v13 m ρ c
  have h14 := at1_main_v14 m ρ c
  have hc := at1_main_cst_2 m ρ c
  show StableHlo.after hostOps0_1 (W1 m ρ c) (Proc.devRef .tc main_v15) = _
  generalize W1 m ρ c = V at h13 h14 hc ⊢
  dsimp only [hostOps0_1]
  after_results_simp
  rw [h13, h14, hc]
  rfl

/-- At the first region's entry `main_v31` holds the reference's stage of the same name: the same operations of the same arguments. -/
theorem at3_main_v31 : W3 m ρ c (Proc.devRef .tc main_v31) = (val_main_v31 (F := F) (m ((c.tc : Thread nD τ).loc main_arg1)) (m ((c.tc : Thread nD τ).loc main_arg2))) := by
  have h5 := at2_main_v5 m ρ c
  have h6 := at2_main_v6 m ρ c
  have h8 := at2_main_v8 m ρ c
  have h15 := at2_main_v15 m ρ c
  show StableHlo.after hostOps0_2 (W2 m ρ c) (Proc.devRef .tc main_v31) = _
  generalize W2 m ρ c = V at h5 h6 h8 h15 ⊢
  dsimp only [hostOps0_2]
  after_results_simp
  rw [h5, h6, h8, h15]
  rfl

/-- At the first region's entry `main_arg0` holds what it held at launch: no host operation before the region writes an argument. -/
theorem at3_main_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  dsimp only [hostOps0_2, hostOps0_1, hostOps0]
  after_results_simp <;> rfl

/-- At the first region's entry `main_arg3` holds what it held at launch: no host operation before the region writes an argument. -/
theorem at3_main_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  dsimp only [hostOps0_2, hostOps0_1, hostOps0]
  after_results_simp <;> rfl

/-- At the first region's entry `main_arg4` holds what it held at launch: no host operation before the region writes an argument. -/
theorem at3_main_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  dsimp only [hostOps0_2, hostOps0_1, hostOps0]
  after_results_simp <;> rfl

/-- At the first region's entry `main_arg5` holds what it held at launch: no host operation before the region writes an argument. -/
theorem at3_main_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  dsimp only [hostOps0_2, hostOps0_1, hostOps0]
  after_results_simp <;> rfl

/-- At the first region's entry `main_arg6` holds what it held at launch: no host operation before the region writes an argument. -/
theorem at3_main_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  dsimp only [hostOps0_2, hostOps0_1, hostOps0]
  after_results_simp <;> rfl

/-- At the first region's entry `main_arg7` holds what it held at launch: no host operation before the region writes an argument. -/
theorem at3_main_arg7 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  dsimp only [hostOps0_2, hostOps0_1, hostOps0]
  after_results_simp <;> rfl

/-- At the first region's entry `main_arg8` holds what it held at launch: no host operation before the region writes an argument. -/
theorem at3_main_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  dsimp only [hostOps0_2, hostOps0_1, hostOps0]
  after_results_simp <;> rfl

/-- At the first region's entry `main_arg9` holds what it held at launch: no host operation before the region writes an argument. -/
theorem at3_main_arg9 : W3 m ρ c (Proc.devRef .tc main_arg9) = (m ((c.tc : Thread nD τ).loc main_arg9)) := by
  show StableHlo.after hostOps0_2 (StableHlo.after hostOps0_1 (StableHlo.after hostOps0 (W0 m ρ c))) (Proc.devRef .tc main_arg9) = _
  dsimp only [hostOps0_2, hostOps0_1, hostOps0]
  after_results_simp <;> rfl

/-- At the first region's entry `main_arg10` holds what it held at launch: no host operation before the region writes an argument. -/
theorem at3_main_arg10 : W3 m ρ c (Proc.devRef .tc main_arg10) = (m ((c.tc : Thread nD τ).loc main_arg10)) := by
  show StableHlo.after hostOps0_2 (StableHlo.after hostOps0_1 (StableHlo.after hostOps0 (W0 m ρ c))) (Proc.devRef .tc main_arg10) = _
  dsimp only [hostOps0_2, hostOps0_1, hostOps0]
  after_results_simp <;> rfl

/-- At the first region's entry `main_arg11` holds what it held at launch: no host operation before the region writes an argument. -/
theorem at3_main_arg11 : W3 m ρ c (Proc.devRef .tc main_arg11) = (m ((c.tc : Thread nD τ).loc main_arg11)) := by
  show StableHlo.after hostOps0_2 (StableHlo.after hostOps0_1 (StableHlo.after hostOps0 (W0 m ρ c))) (Proc.devRef .tc main_arg11) = _
  dsimp only [hostOps0_2, hostOps0_1, hostOps0]
  after_results_simp <;> rfl

/-- At the first region's entry `main_arg12` holds what it held at launch: no host operation before the region writes an argument. -/
theorem at3_main_arg12 : W3 m ρ c (Proc.devRef .tc main_arg12) = (m ((c.tc : Thread nD τ).loc main_arg12)) := by
  show StableHlo.after hostOps0_2 (StableHlo.after hostOps0_1 (StableHlo.after hostOps0 (W0 m ρ c))) (Proc.devRef .tc main_arg12) = _
  dsimp only [hostOps0_2, hostOps0_1, hostOps0]
  after_results_simp <;> rfl

/-- At the first region's entry `main_arg13` holds what it held at launch: no host operation before the region writes an argument. -/
theorem at3_main_arg13 : W3 m ρ c (Proc.devRef .tc main_arg13) = (m ((c.tc : Thread nD τ).loc main_arg13)) := by
  show StableHlo.after hostOps0_2 (StableHlo.after hostOps0_1 (StableHlo.after hostOps0 (W0 m ρ c))) (Proc.devRef .tc main_arg13) = _
  dsimp only [hostOps0_2, hostOps0_1, hostOps0]
  after_results_simp <;> rfl

/-- At the first region's entry `main_arg14` holds what it held at launch: no host operation before the region writes an argument. -/
theorem at3_main_arg14 : W3 m ρ c (Proc.devRef .tc main_arg14) = (m ((c.tc : Thread nD τ).loc main_arg14)) := by
  show StableHlo.after hostOps0_2 (StableHlo.after hostOps0_1 (StableHlo.after hostOps0 (W0 m ρ c))) (Proc.devRef .tc main_arg14) = _
  dsimp only [hostOps0_2, hostOps0_1, hostOps0]
  after_results_simp <;> rfl

/-- At the first region's entry `main_arg15` holds what it held at launch: no host operation before the region writes an argument. -/
theorem at3_main_arg15 : W3 m ρ c (Proc.devRef .tc main_arg15) = (m ((c.tc : Thread nD τ).loc main_arg15)) := by
  show StableHlo.after hostOps0_2 (StableHlo.after hostOps0_1 (StableHlo.after hostOps0 (W0 m ρ c))) (Proc.devRef .tc main_arg15) = _
  dsimp only [hostOps0_2, hostOps0_1, hostOps0]
  after_results_simp <;> rfl

/-- At the first region's entry `main_arg16` holds what it held at launch: no host operation before the region writes an argument. -/
theorem at3_main_arg16 : W3 m ρ c (Proc.devRef .tc main_arg16) = (m ((c.tc : Thread nD τ).loc main_arg16)) := by
  show StableHlo.after hostOps0_2 (StableHlo.after hostOps0_1 (StableHlo.after hostOps0 (W0 m ρ c))) (Proc.devRef .tc main_arg16) = _
  dsimp only [hostOps0_2, hostOps0_1, hostOps0]
  after_results_simp <;> rfl

end Cert.KernelIdeal.Rows

end
-- ==== Proof.Host1.lean ====
/-
  Layer 1's host stretch, at any float instance.

  Between the matrix-product region and the bias region the host gathers the rows of the product at the edges'
  sources (an index below zero wraps round by the number of nodes), scales row e by the edge's normalisation and adds it
  into row d[e] of a zero array; it also reshapes the bias to one row. The aggregate is therefore one function of the
  product, the edge list and the edge weights. The reference's aggregate stage is that function of its own product
  stage, and the kernel's stretch computes it from whatever contents it is entered with, provided the product buffer
  and the three shared arrays s, d, n hold what they should. Nothing here depends on what a float is.
-/
import proofs.«114307_j63015760166989_1_alg».proof.Proof.Gen.KernelIdeal.Launch
import proofs.«114307_j63015760166989_1_alg».proof.Proof.ReferenceStages
import Idealize.ShloMosaic.Lib.StableHlo.Run

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The layer's aggregate as a function of the product `xw`, the edge list `x1` and the edge weights `x2`. -/
def agg1 (xw : (⟨Cert.ReferenceIdeal.S50000x256, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x256, .f32⟩ : BufTy).Contents (Elt F) :=
  Host.scatterAdd Cert.ReferenceIdeal.scatter_S50000x256_S850000x1_S850000x256_1_0_0_1 (val_main_v43 (F := F)) (val_main_v44 (F := F) x1)
    (mulf (Host.gather Cert.ReferenceIdeal.gather_S50000x256_S850000x1_S850000x256_1_0_n_n_0_1_1256 xw (val_main_v38 (F := F) x1)) (val_main_v41 (F := F) x1 x2))

/-- The reference's aggregate stage is that function of its product stage. -/
theorem ref_agg1 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) (x3 : (⟨Cert.ReferenceIdeal.S128x256, .f32⟩ : BufTy).Contents (Elt F)) :
    val_main_v45 (F := F) x0 x1 x2 x3 = agg1 (val_main_v32 (F := F) x0 x3) x1 x2 := rfl

/-- The kernel's stretch, entered with the product in its buffer and s, d, n in theirs, leaves the aggregate. -/
theorem host_agg1 (V : Valuation τ sig (Elt F)) (xw : (⟨Cert.ReferenceIdeal.S50000x256, .f32⟩ : BufTy).Contents (Elt F)) (x1 : (⟨Cert.ReferenceIdeal.S2x800000, .i32⟩ : BufTy).Contents (Elt F)) (x2 : (⟨Cert.ReferenceIdeal.S800000, .f32⟩ : BufTy).Contents (Elt F))
    (hxw : V (Proc.devRef .tc main_v32) = xw) (h5 : V (Proc.devRef .tc main_v5) = val_main_v5 (F := F) x1)
    (h6 : V (Proc.devRef .tc main_v6) = val_main_v6 (F := F) x1) (h31 : V (Proc.devRef .tc main_v31) = val_main_v31 (F := F) x1 x2) :
    StableHlo.after hostOps1 V (Proc.devRef .tc main_v45) = agg1 xw x1 x2 := by
  dsimp only [hostOps1]
  after_results_simp
  rw [hxw, h5, h6, h31]
  rfl

/-- The same stretch leaves the bias reshaped to one row. -/
theorem host_bias_row1 (V : Valuation τ sig (Elt F)) (b : (⟨Cert.ReferenceIdeal.S256, .f32⟩ : BufTy).Contents (Elt F)) (hb : V (Proc.devRef .tc main_arg4) = b) :
    StableHlo.after hostOps1 V (Proc.devRef .tc main_v46) = shapeCast S1x256 b shapeCasts_S256_S1x256 := by
  dsimp only [hostOps1]
  after_results_simp
  exact congrArg (fun x => shapeCast S1x256 x shapeCasts_S256_S1x256) hb

end Cert.KernelIdeal.Rows

end
-- ==== Proof.Layer1Matmul.lean ====
/-
  The first dense layer's product, read off the pipelined kernel.

  The kernel multiplies the node features X (50000 × 128) by the layer's weight matrix W (128 × 256) in ten steps:
  step t stages rows 5000·t … 5000·t + 4999 of the left operand and the whole of W, forms the 5000 × 256
  product of the two staged blocks into a zero accumulator, and writes it back as the same rows of the
  result.  At the exact-real instance the narrowing of the operands before the product is the identity
  and the product of two blocks at (r, c) is the plain sum over the 128 inner positions, so each written
  block is the matching block of the ONE array  i ↦ ∑ₖ A(i₀, k) · W(k, i₁).  The ten row blocks tile the
  50000 rows (row r lies in block r / 5000), hence the result array is that array.
-/
import proofs.«114307_j63015760166989_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.SL.Sem
open Idealize.ShloMosaic.Pipeline (Dat)

/-! ## The index functions of a row-by-column product -/

/-- Entry (i₀, k) of the left operand: row of the result entry `i`, inner position `k`. -/
abbrev lrow1 (i : S50000x256.Idx) (k : Fin 128) : S50000x128.Idx := fun a => match a with
  | ⟨0, _⟩ => ⟨(i 0).val, (i 0).isLt⟩
  | ⟨1, _⟩ => ⟨k.val, k.isLt⟩
/-- Entry (k, i₁) of the right operand: inner position `k`, column of the result entry `i`. -/
abbrev rcol1 (i : S50000x256.Idx) (k : Fin 128) : S128x256.Idx := fun a => match a with
  | ⟨0, _⟩ => ⟨k.val, k.isLt⟩
  | ⟨1, _⟩ => ⟨(i 1).val, (i 1).isLt⟩

/-- The same two inside one step's blocks: entry (j₀, k) of the staged 5000 rows … -/
abbrev blockrow1 (j : S5000x256.Idx) (k : Fin 128) : S5000x128.Idx := fun a => match a with
  | ⟨0, _⟩ => ⟨(j 0).val, (j 0).isLt⟩
  | ⟨1, _⟩ => ⟨k.val, k.isLt⟩
/-- … and entry (k, j₁) of the staged weights. -/
abbrev blockcol1 (j : S5000x256.Idx) (k : Fin 128) : S128x256.Idx := fun a => match a with
  | ⟨0, _⟩ => ⟨k.val, k.isLt⟩
  | ⟨1, _⟩ => ⟨(j 1).val, (j 1).isLt⟩

/-- The product array: entry `i` is the sum over the inner position of row i₀ of `a0` times column i₁ of `a1`. -/
abbrev prod1 (a0 : S50000x128.Idx → EReal) (a1 : S128x256.Idx → EReal) : S50000x256.Idx → EReal :=
  fun i => ∑ k : Fin 128, a0 (lrow1 i k) * a1 (rcol1 i k)

/-- One term of that sum, with the two operand positions free. -/
abbrev term1 (a0 : S50000x128.Idx → EReal) (a1 : S128x256.Idx → EReal) (p : S50000x128.Idx) (q : S128x256.Idx) : EReal := a0 p * a1 q

theorem no_offsets1 : (![0, 0] : Fin 2 → Nat) = fun _ => 0 := funext fun a => by fin_cases a <;> rfl

/-! ## One step's product of blocks, entry by entry -/

/-- The operand positions the block product's dimension numbers name at result entry `j` and inner position `q`:
    the left one keeps the row and runs along the inner axis, the right one runs along it and keeps the column. -/
theorem left_row1 (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem left_inner1 (j : S5000x256.Idx) (q : dot_S5000x128_S128x256_S5000x256_1_0_0_1_n_n.contr.Idx) :
    (dot_S5000x128_S128x256_S5000x256_1_0_0_1_n_n.lhsIdx j q 1).val = (q ⟨0, by decide⟩).val :=
  dot_S5000x128_S128x256_S5000x256_1_0_0_1_n_n.lhsIdx_val_of_single rfl j q
theorem right_inner1 (j : S5000x256.Idx) (q : dot_S5000x128_S128x256_S5000x256_1_0_0_1_n_n.contr.Idx) :
    (dot_S5000x128_S128x256_S5000x256_1_0_0_1_n_n.rhsIdx j q 0).val = (q ⟨0, by decide⟩).val :=
  dot_S5000x128_S128x256_S5000x256_1_0_0_1_n_n.rhsIdx_val_of_single rfl j q
theorem right_col1 (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- At the exact reals the step's value at entry `j` is the sum over the inner position of the staged rows times
    the staged weights: narrowing the operands changes nothing and the accumulator starts at zero. -/
theorem block_product1 (x0 : Vec Ideal S5000x128 .f32) (x1 : Vec Ideal S128x256 .f32) (j : S5000x256.Idx) :
    k0_pay1 (F := Ideal) x0 x1 j = ∑ k : Fin 128, x0 (blockrow1 j k) * x1 (blockcol1 j k) := by
  unfold k0_pay1
  refine (Ideal.matmul_constant_zero_apply dot_S5000x128_S128x256_S5000x256_1_0_0_1_n_n none
    (truncf (F := Ideal) .bf16 x0 bitsLt_bf16_f32) (truncf (F := Ideal) .bf16 x1 bitsLt_bf16_f32) j).trans ?_
  rw [← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = blockrow1 j k := funext fun a => Fin.ext (by
    match a with
    | ⟨0, _⟩ => exact left_row1 _ _
    | ⟨1, _⟩ => exact (left_inner1 _ _).trans hk)
  have er : dot_S5000x128_S128x256_S5000x256_1_0_0_1_n_n.rhsIdx j ((ValueIdx.contrEquiv1 dot_S5000x128_S128x256_S5000x256_1_0_0_1_n_n 128 rfl rfl).symm k) = blockcol1 j k := funext fun a => Fin.ext (by
    match a with
    | ⟨0, _⟩ => exact (right_inner1 _ _).trans hk
    | ⟨1, _⟩ => exact right_col1 _ _)
  show x0 _ * x1 _ = _
  rw [el, er]

/-! ## Where the steps' blocks sit -/

/-- Decided over the ten steps: the staged rows of the left operand are the rows written back, all other block
    positions are zero, and the row-block position stays below ten. -/
theorem block_positions1 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is written by some step. -/
theorem block_of_rows1 : ∀ q : Fin 10, ∃ t : Fin cfg0.N, win0_2.index t = ![q.val, 0] :=
  (by decide +kernel : ∀ q : Fin 10, ∃ t : Fin grid0.N, win0_2.index t = ![q.val, 0])

variable (V : (c : Dev nD) → (b : Ref sig .tc) → Buf (Elt Ideal) ((c : Thread nD τ).loc b))

/-- What step `t` writes back is its block of the product array of the two operands as the layer finds them. -/
theorem step_writes1 (c : Dev nD) (t : Fin cfg0.N) :
    (dat0 (F := Ideal) V c).flushed 2 t
      = ((cfg0.win 2).blk t).view.read (Elt Ideal) (prod1 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero no_offsets1]
  simp only [View.ld_unit_zero (S := S5000x128) no_offsets1, View.ld_unit_zero (S := S128x256) no_offsets1]
  obtain ⟨e0, e1, e2, e3, e4, e5⟩ := block_positions1 t
  funext j
  show k0_pay1 (F := Ideal) (iblk0 V c 0 t) (iblk0 V c 1 t) j
    = prod1 (V c (Pipeline.arrRef spec0 0)) (V c (Pipeline.arrRef spec0 1)) (((cfg0.win 2).blk t).view.emb j)
  refine (block_product1 (iblk0 V c 0 t) (iblk0 V c 1 t) j).trans ?_
  refine Finset.sum_congr rfl fun k _ => ?_
  have h0 : ((cfg0.win 0).blk t).view.emb (blockrow1 j k) = lrow1 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (blockcol1 j k) = rcol1 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  show term1 (V c (Pipeline.arrRef spec0 0)) (V c (Pipeline.arrRef spec0 1))
        (((cfg0.win 0).blk t).view.emb (blockrow1 j k)) (((cfg0.win 1).blk t).view.emb (blockcol1 j k))
      = term1 (V c (Pipeline.arrRef spec0 0)) (V c (Pipeline.arrRef spec0 1))
        (lrow1 (((cfg0.win 2).blk t).view.emb j) k) (rcol1 (((cfg0.win 2).blk t).view.emb j) k)
  rw [h0, h1]

/-- A result entry lies in step `t`'s block iff each coordinate lies in the block's range on its axis. -/
theorem mem_step_block1 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- The ten row blocks tile the result: row r lies in block r / 5000. -/
theorem rows_covered1 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := block_of_rows1 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_step_block1]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the layer's ten steps the result array is the product of the two operand arrays as the layer found them. -/
theorem layer1_matmul (c : Dev nD) :
    (dat0 (F := Ideal) V c).arrAt 2 cfg0.N
      = prod1 (V c (Pipeline.arrRef spec0 0)) (V c (Pipeline.arrRef spec0 1)) :=
  (dat0 (F := Ideal) V c).arrAt_eq_of_cover 2 (prod1 (V c (Pipeline.arrRef spec0 0)) (V c (Pipeline.arrRef spec0 1)))
    (fun t _ => step_writes1 V c t) rows_covered1

end Cert.KernelIdeal.Rows

end
-- ==== Proof.Layer1BiasRelu.lean ====
import proofs.«114307_j63015760166989_1_alg».proof.Proof.Gen.KernelIdeal.Frame
import Idealize.ShloMosaic.Lib.ValueIdx
import Idealize.ShloMosaic.Lib.Pipeline.Value
import Idealize.ShloMosaic.Lib.ValueLayout

/-! Layer 1, bias and ReLU: the array the region leaves is, index by index, the maximum of zero and the
    aggregated array plus the bias row.  The body adds the one bias row to every row of its block and takes
    the maximum with zero; the ten row blocks of 5000 rows tile the 50000 rows. -/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The body's offsets, all zero. -/
theorem zero_offsets1 : (![0, 0] : Fin 2 → Nat) = fun _ => 0 := funext fun a => by fin_cases a <;> rfl

/-- The bias row's index under an index of the array: row 0, the same column. -/
abbrev brow1 (i : S50000x256.Idx) : S1x256.Idx :=
  fun a => match a with | ⟨0, _⟩ => ⟨0, Nat.one_pos⟩ | ⟨1, _⟩ => ⟨(i 1).val, (i 1).isLt⟩

/-- The body's value at row `p`, column `q` of its block: the block's element plus the bias row's element of
    that column, or zero if that is larger. -/
theorem pay1_apply (x0 : Vec Ideal S5000x256 .f32) (x1 : Vec Ideal S1x256 .f32) (p : Fin 5000) (q : Fin 256) :
    k1_pay1 (F := Ideal) x0 x1 (ix2 p q)
      = FloatOps.maximumf (FloatOps.addf (x0 (ix2 p q)) (x1 (ix2 (0 : Fin 1) q))) (FloatOps.ofBits .f32 0x00000000#32) := by
  unfold k1_pay1
  show FloatOps.maximumf (FloatOps.addf (shapeCast (α := Ideal .f32) S5000x256 x0 shapeCasts_S5000x256_S5000x256 (ix2 p q))
      (broadcastTo (α := Ideal .f32) S5000x256 (shapeCast (α := Ideal .f32) S1x256 x1 shapeCasts_S1x256_S1x256) broadcasts_S1x256_S5000x256 (ix2 p q))) _ = _
  rw [shapeCast_self, shapeCast_self, broadcastTo_1b_ab_apply]
  rfl

/-- The same at any index `y` of the block, once the two blocks' elements are known as elements `A0 i` and
    `A1 (brow1 i)` of two arrays. -/
theorem pay1_value (x0 : Vec Ideal S5000x256 .f32) (x1 : Vec Ideal S1x256 .f32)
    (A0 : S50000x256.Idx → Ideal .f32) (A1 : S1x256.Idx → Ideal .f32) (y : S5000x256.Idx) (i : S50000x256.Idx)
    (h0 : x0 y = A0 i) (h1 : x1 (ix2 (0 : Fin 1) (⟨(y 1).val, (y 1).isLt⟩ : Fin 256)) = A1 (brow1 i)) :
    k1_pay1 (F := Ideal) x0 x1 y
      = FloatOps.maximumf (FloatOps.addf (A0 i) (A1 (brow1 i))) (FloatOps.ofBits .f32 0x00000000#32) := by
  have hy : y = ix2 (⟨(y 0).val, (y 0).isLt⟩ : Fin 5000) (⟨(y 1).val, (y 1).isLt⟩ : Fin 256) := by
    funext a; match a with | ⟨0, _⟩ => rfl | ⟨1, _⟩ => rfl
  rw [← h0, ← h1]
  conv_lhs => rw [hy]
  conv_rhs => rw [hy]
  exact pay1_apply x0 x1 _ _

variable (V : (c : Dev nD) → (b : Ref sig .tc) → Buf (Elt Ideal) ((c : Thread nD τ).loc b))

/-- What the array ends holding: index by index, the aggregated array plus the bias row, or zero if larger. -/
abbrev G1 (c : Dev nD) : S50000x256.Idx → Ideal .f32 := fun i =>
  FloatOps.maximumf (FloatOps.addf ((V c (Pipeline.arrRef spec1 0) : S50000x256.Idx → Ideal .f32) i)
    ((V c (Pipeline.arrRef spec1 1) : S1x256.Idx → Ideal .f32) (brow1 i))) (FloatOps.ofBits .f32 0x00000000#32)

/-- The index maps over the ten grid points: the input rows move with the output rows, every other block index
    is zero, and the output's row-block index is at most 9. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some grid point's. -/
theorem index_onto1 : ∀ q : Fin 10, ∃ t : Fin cfg1.N, win1_2.index t = ![q.val, 0] :=
  (by decide +kernel : ∀ q : Fin 10, ∃ t : Fin grid1.N, win1_2.index t = ![q.val, 0])

/-- The rows block at point `t`, at `y`, is the aggregated array at row `5000 · (block index) + y 0`, column `y 1`. -/
theorem rows_block1 (c : Dev nD) (t : Fin cfg1.N) (y : S5000x256.Idx) (i : S50000x256.Idx)
    (h0 : (i 0).val = win1_2.index t (0 : Fin 2) * 5000 + (y 0).val) (h1 : (i 1).val = (y 1).val) :
    (iblk1 V c 0 t : Vec Ideal S5000x256 .f32) y = (V c (Pipeline.arrRef spec1 0) : S50000x256.Idx → Ideal .f32) i := by
  obtain ⟨e0, e1, e2, e3, e4, e5⟩ := index_facts1 t
  unfold iblk1
  rw [View.read_apply]
  show (V c (Pipeline.arrRef spec1 0) : S50000x256.Idx → Ideal .f32) (((cfg1.win 0).blk t).view.emb y) = _
  refine congrArg _ ?_
  funext a; apply Fin.ext
  match a with
  | ⟨0, _⟩ => show win1_0.index t (0 : Fin 2) * 5000 + 1 * (y 0).val = (i 0).val; omega
  | ⟨1, _⟩ => show win1_0.index t (1 : Fin 2) * 256 + 1 * (y 1).val = (i 1).val; omega

/-- The bias block at any point is the whole bias row. -/
theorem bias_block1 (c : Dev nD) (t : Fin cfg1.N) (y : S1x256.Idx) (k : S1x256.Idx)
    (h0 : (k 0).val = (y 0).val) (h1 : (k 1).val = (y 1).val) :
    (iblk1 V c 1 t : Vec Ideal S1x256 .f32) y = (V c (Pipeline.arrRef spec1 1) : S1x256.Idx → Ideal .f32) k := by
  obtain ⟨e0, e1, e2, e3, e4, e5⟩ := index_facts1 t
  unfold iblk1
  rw [View.read_apply]
  show (V c (Pipeline.arrRef spec1 1) : S1x256.Idx → Ideal .f32) (((cfg1.win 1).blk t).view.emb y) = _
  refine congrArg _ ?_
  funext a; apply Fin.ext
  match a with
  | ⟨0, _⟩ => show win1_1.index t (0 : Fin 2) * 1 + 1 * (y 0).val = (k 0).val; omega
  | ⟨1, _⟩ => show win1_1.index t (1 : Fin 2) * 256 + 1 * (y 1).val = (k 1).val; omega

/-- What point `t` writes back is block `t` of `G1`. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  unfold out1_2
  rw [View.canon_unit_zero zero_offsets1]
  simp only [View.ld_unit_zero (S := S5000x256) zero_offsets1, View.ld_unit_zero (S := S1x256) zero_offsets1]
  funext j
  rw [View.read_apply]
  show k1_pay1 (F := Ideal) (iblk1 V c 0 t) (iblk1 V c 1 t) ((cfg1.win 2).xinj (grid1.coords t) j)
    = G1 V c (((cfg1.win 2).blk t).view.emb j)
  refine pay1_value (iblk1 V c 0 t) (iblk1 V c 1 t) (V c (Pipeline.arrRef spec1 0)) (V c (Pipeline.arrRef spec1 1))
    ((cfg1.win 2).xinj (grid1.coords t) j) (((cfg1.win 2).blk t).view.emb j) ?_ ?_
  · refine rows_block1 V c t _ _ ?_ ?_
    · show win1_2.index t (0 : Fin 2) * 5000 + 1 * (j 0).val = win1_2.index t (0 : Fin 2) * 5000 + (j 0).val; omega
    · obtain ⟨e0, e1, e2, e3, e4, e5⟩ := index_facts1 t
      show win1_2.index t (1 : Fin 2) * 256 + 1 * (j 1).val = (j 1).val; omega
  · refine bias_block1 V c t _ _ ?_ ?_
    · rfl
    · obtain ⟨e0, e1, e2, e3, e4, e5⟩ := index_facts1 t
      show win1_2.index t (1 : Fin 2) * 256 + 1 * (j 1).val = (j 1).val; omega

/-- An index of the array is in point `t`'s block iff each coordinate is in the block's range on its axis. -/
theorem mem_block1 (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v47).slice (win1_2.rect t)).set ↔ _
  rw [View.set_slice_whole, Rect.mem_set_unit]
  exact Iff.rfl

/-- Row `r` lies in the block of the point whose row-block index is `r / 5000`: the ten blocks cover the array. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := index_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The array after the region: the aggregated array plus the bias row, or zero if larger, at every index. -/
theorem layer1_bias_relu (c : Dev nD) :
    (dat1 (F := Ideal) V c).arrAt 2 cfg1.N
      = (fun i => FloatOps.maximumf (FloatOps.addf ((V c (Pipeline.arrRef spec1 0) : S50000x256.Idx → Ideal .f32) i)
          ((V c (Pipeline.arrRef spec1 1) : S1x256.Idx → Ideal .f32) (brow1 i))) (FloatOps.ofBits .f32 0x00000000#32)
        : S50000x256.Idx → Ideal .f32) :=
  (dat1 (F := Ideal) V c).arrAt_eq_of_cover 2 (G1 V c) (fun t _ => flushed1_eq V c t) covered1

end Cert.KernelIdeal.Rows

end
-- ==== Proof.Layer1BiasRef.lean ====
import proofs.«114307_j63015760166989_1_alg».proof.Proof.ReferenceStages
import Idealize.ShloMosaic.Lib.ValueIdx
import Idealize.ShloMosaic.Lib.Pipeline.Value

/-! Layer 1 of the reference, bias and ReLU: its value at an index is the maximum of zero and the aggregated
    array plus the bias vector's entry of that column — the bias vector written as the one-row array the
    kernel's program reshapes it to. -/

noncomputable section

namespace Cert.ReferenceIdeal.Rows

open Cert.ReferenceIdeal Idealize.ShloMosaic

/-- The bias vector viewed as one row of 256: at `(0, q)` it reads the vector at `q`, as the broadcast to one
    row does. -/
theorem bias_row1_apply (x4 : (⟨S256, .f32⟩ : BufTy).Contents (Elt Ideal)) (h : S256.ShapeCasts S1x256) (k : S1x256.Idx) :
    shapeCast (α := Ideal .f32) S1x256 x4 h k = x4 (Read.idx_main_v46 k) :=
  shapeCast_apply (α := Ideal .f32) x4 h k (Read.idx_main_v46 k) (by
    have h0 : (k 0).val < 1 := (k 0).isLt
    rw [Shape.rowMajor_val_one, Shape.rowMajor_val_two]
    show (k 1).val = (k 0).val * 256 + (k 1).val
    omega)

/-- The reference's layer 1 after its ReLU, index by index. -/
theorem ref_layer1_bias_relu (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal))
    (h : S256.ShapeCasts S1x256) :
    Read.val_main_v49 (F := Ideal) x0 x1 x2 x3 x4
      = fun i => FloatOps.maximumf (FloatOps.addf (Read.val_main_v45 (F := Ideal) x0 x1 x2 x3 i)
          (shapeCast (α := Ideal .f32) S1x256 x4 h (Read.idx_main_v47 i))) (FloatOps.ofBits .f32 0x00000000#32) := by
  funext i
  rw [Read.val_main_v49_apply, Read.val_main_v48_apply, Read.val_main_v47_apply, Read.val_main_v46_apply,
    Read.val_main_call1_v0_apply, Read.val_main_call1_cst_apply, bias_row1_apply]

end Cert.ReferenceIdeal.Rows

end
-- ==== Proof.Boundary1.lean ====
/-
  Layer 1 of the network, followed along the kernel's chain of segments.

  On entry the layer's input array h is the reference's value of the previous layer (the node features, for the first
  layer). The matrix-product region leaves h · W, row block by row block, which is the reference's product, entry by
  entry the same sum over the contracted axis. The host stretch gathers the rows of h · W at the edges' sources, scales
  row e by the edge's normalisation n[e] and adds it into row d[e] of a zero array: the same operations, in the same
  order, of the same arrays as the reference's, so the aggregate is the reference's aggregate. The bias region adds the
  bias row to every row and takes the maximum with zero, which is the reference's add and relu read entry by entry.
  The arrays s, d, n and the arguments still to be read are written by no segment of the layer.
-/
import proofs.«114307_j63015760166989_1_alg».proof.Proof.Boundary0
import proofs.«114307_j63015760166989_1_alg».proof.Proof.Host1
import proofs.«114307_j63015760166989_1_alg».proof.Proof.Layer1Matmul
import proofs.«114307_j63015760166989_1_alg».proof.Proof.Layer1BiasRelu
import proofs.«114307_j63015760166989_1_alg».proof.Proof.Layer1BiasRef
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the matrix-product region -/
theorem at4_main_v5 : W4 m ρ c (Proc.devRef .tc main_v5) = (val_main_v5 (F := Ideal) (m ((c.tc : Thread nD τ).loc main_arg1))) :=
  (W4_of_ne m ρ c main_v5 (by decide)).trans (at3_main_v5 m ρ c)
theorem at4_main_v6 : W4 m ρ c (Proc.devRef .tc main_v6) = (val_main_v6 (F := Ideal) (m ((c.tc : Thread nD τ).loc main_arg1))) :=
  (W4_of_ne m ρ c main_v6 (by decide)).trans (at3_main_v6 m ρ c)
theorem at4_main_v31 : W4 m ρ c (Proc.devRef .tc main_v31) = (val_main_v31 (F := Ideal) (m ((c.tc : Thread nD τ).loc main_arg1)) (m ((c.tc : Thread nD τ).loc main_arg2))) :=
  (W4_of_ne m ρ c main_v31 (by decide)).trans (at3_main_v31 m ρ c)
theorem at4_main_arg4 : W4 m ρ c (Proc.devRef .tc main_arg4) = (m ((c.tc : Thread nD τ).loc main_arg4)) :=
  (W4_of_ne m ρ c main_arg4 (by decide)).trans (at3_main_arg4 m ρ c)
theorem at4_main_arg5 : W4 m ρ c (Proc.devRef .tc main_arg5) = (m ((c.tc : Thread nD τ).loc main_arg5)) :=
  (W4_of_ne m ρ c main_arg5 (by decide)).trans (at3_main_arg5 m ρ c)
theorem at4_main_arg6 : W4 m ρ c (Proc.devRef .tc main_arg6) = (m ((c.tc : Thread nD τ).loc main_arg6)) :=
  (W4_of_ne m ρ c main_arg6 (by decide)).trans (at3_main_arg6 m ρ c)
theorem at4_main_arg7 : W4 m ρ c (Proc.devRef .tc main_arg7) = (m ((c.tc : Thread nD τ).loc main_arg7)) :=
  (W4_of_ne m ρ c main_arg7 (by decide)).trans (at3_main_arg7 m ρ c)
theorem at4_main_arg8 : W4 m ρ c (Proc.devRef .tc main_arg8) = (m ((c.tc : Thread nD τ).loc main_arg8)) :=
  (W4_of_ne m ρ c main_arg8 (by decide)).trans (at3_main_arg8 m ρ c)
theorem at4_main_arg9 : W4 m ρ c (Proc.devRef .tc main_arg9) = (m ((c.tc : Thread nD τ).loc main_arg9)) :=
  (W4_of_ne m ρ c main_arg9 (by decide)).trans (at3_main_arg9 m ρ c)
theorem at4_main_arg10 : W4 m ρ c (Proc.devRef .tc main_arg10) = (m ((c.tc : Thread nD τ).loc main_arg10)) :=
  (W4_of_ne m ρ c main_arg10 (by decide)).trans (at3_main_arg10 m ρ c)
theorem at4_main_arg11 : W4 m ρ c (Proc.devRef .tc main_arg11) = (m ((c.tc : Thread nD τ).loc main_arg11)) :=
  (W4_of_ne m ρ c main_arg11 (by decide)).trans (at3_main_arg11 m ρ c)
theorem at4_main_arg12 : W4 m ρ c (Proc.devRef .tc main_arg12) = (m ((c.tc : Thread nD τ).loc main_arg12)) :=
  (W4_of_ne m ρ c main_arg12 (by decide)).trans (at3_main_arg12 m ρ c)
theorem at4_main_arg13 : W4 m ρ c (Proc.devRef .tc main_arg13) = (m ((c.tc : Thread nD τ).loc main_arg13)) :=
  (W4_of_ne m ρ c main_arg13 (by decide)).trans (at3_main_arg13 m ρ c)
theorem at4_main_arg14 : W4 m ρ c (Proc.devRef .tc main_arg14) = (m ((c.tc : Thread nD τ).loc main_arg14)) :=
  (W4_of_ne m ρ c main_arg14 (by decide)).trans (at3_main_arg14 m ρ c)
theorem at4_main_arg15 : W4 m ρ c (Proc.devRef .tc main_arg15) = (m ((c.tc : Thread nD τ).loc main_arg15)) :=
  (W4_of_ne m ρ c main_arg15 (by decide)).trans (at3_main_arg15 m ρ c)
theorem at4_main_arg16 : W4 m ρ c (Proc.devRef .tc main_arg16) = (m ((c.tc : Thread nD τ).loc main_arg16)) :=
  (W4_of_ne m ρ c main_arg16 (by decide)).trans (at3_main_arg16 m ρ c)

/-- The region's output array is the reference's product of the layer's input and its weight matrix. -/
theorem at4_main_v32 : W4 m ρ c (Proc.devRef .tc main_v32) = (val_main_v32 (F := Ideal) (m ((c.tc : Thread nD τ).loc main_arg0)) (m ((c.tc : Thread nD τ).loc main_arg3))) := by
  refine (W4_arr m ρ c 2).trans ?_
  have hX : V3 m ρ c (Pipeline.arrRef spec0 0) = (m ((c.tc : Thread nD τ).loc main_arg0)) := at3_main_arg0 m ρ c
  have hW : V3 m ρ c (Pipeline.arrRef spec0 1) = (m ((c.tc : Thread nD τ).loc main_arg3)) := at3_main_arg3 m ρ c
  rw [layer1_matmul (V3 m ρ) c, hX, hW]
  funext i
  exact (val_main_v32_apply _ _ i).symm

/-! ## After the host stretch -/
theorem at5_main_v5 : W5 m ρ c (Proc.devRef .tc main_v5) = (val_main_v5 (F := Ideal) (m ((c.tc : Thread nD τ).loc main_arg1))) :=
  (StableHlo.after_of_forall_not_mem (b := Proc.devRef .tc main_v5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_v5 m ρ c)
theorem at5_main_v6 : W5 m ρ c (Proc.devRef .tc main_v6) = (val_main_v6 (F := Ideal) (m ((c.tc : Thread nD τ).loc main_arg1))) :=
  (StableHlo.after_of_forall_not_mem (b := Proc.devRef .tc main_v6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_v6 m ρ c)
theorem at5_main_v31 : W5 m ρ c (Proc.devRef .tc main_v31) = (val_main_v31 (F := Ideal) (m ((c.tc : Thread nD τ).loc main_arg1)) (m ((c.tc : Thread nD τ).loc main_arg2))) :=
  (StableHlo.after_of_forall_not_mem (b := Proc.devRef .tc main_v31) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_v31 m ρ c)
theorem at5_main_arg4 : W5 m ρ c (Proc.devRef .tc main_arg4) = (m ((c.tc : Thread nD τ).loc main_arg4)) :=
  (StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg4 m ρ c)
theorem at5_main_arg5 : W5 m ρ c (Proc.devRef .tc main_arg5) = (m ((c.tc : Thread nD τ).loc main_arg5)) :=
  (StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg5 m ρ c)
theorem at5_main_arg6 : W5 m ρ c (Proc.devRef .tc main_arg6) = (m ((c.tc : Thread nD τ).loc main_arg6)) :=
  (StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg6 m ρ c)
theorem at5_main_arg7 : W5 m ρ c (Proc.devRef .tc main_arg7) = (m ((c.tc : Thread nD τ).loc main_arg7)) :=
  (StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg7 m ρ c)
theorem at5_main_arg8 : W5 m ρ c (Proc.devRef .tc main_arg8) = (m ((c.tc : Thread nD τ).loc main_arg8)) :=
  (StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg8 m ρ c)
theorem at5_main_arg9 : W5 m ρ c (Proc.devRef .tc main_arg9) = (m ((c.tc : Thread nD τ).loc main_arg9)) :=
  (StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg9 m ρ c)
theorem at5_main_arg10 : W5 m ρ c (Proc.devRef .tc main_arg10) = (m ((c.tc : Thread nD τ).loc main_arg10)) :=
  (StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg10 m ρ c)
theorem at5_main_arg11 : W5 m ρ c (Proc.devRef .tc main_arg11) = (m ((c.tc : Thread nD τ).loc main_arg11)) :=
  (StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg11 m ρ c)
theorem at5_main_arg12 : W5 m ρ c (Proc.devRef .tc main_arg12) = (m ((c.tc : Thread nD τ).loc main_arg12)) :=
  (StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg12 m ρ c)
theorem at5_main_arg13 : W5 m ρ c (Proc.devRef .tc main_arg13) = (m ((c.tc : Thread nD τ).loc main_arg13)) :=
  (StableHlo.after_of_forall_not_mem (b := Proc.devRef .tc main_arg13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg13 m ρ c)
theorem at5_main_arg14 : W5 m ρ c (Proc.devRef .tc main_arg14) = (m ((c.tc : Thread nD τ).loc main_arg14)) :=
  (StableHlo.after_of_forall_not_mem (b := Proc.devRef .tc main_arg14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg14 m ρ c)
theorem at5_main_arg15 : W5 m ρ c (Proc.devRef .tc main_arg15) = (m ((c.tc : Thread nD τ).loc main_arg15)) :=
  (StableHlo.after_of_forall_not_mem (b := Proc.devRef .tc main_arg15) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg15 m ρ c)
theorem at5_main_arg16 : W5 m ρ c (Proc.devRef .tc main_arg16) = (m ((c.tc : Thread nD τ).loc main_arg16)) :=
  (StableHlo.after_of_forall_not_mem (b := Proc.devRef .tc main_arg16) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at4_main_arg16 m ρ c)

/-- The aggregate: the host's gather, scaling and scatter-add of the product, the same operations as the reference's. -/
theorem at5_main_v45 : W5 m ρ c (Proc.devRef .tc main_v45) = (val_main_v45 (F := Ideal) (m ((c.tc : Thread nD τ).loc main_arg0)) (m ((c.tc : Thread nD τ).loc main_arg1)) (m ((c.tc : Thread nD τ).loc main_arg2)) (m ((c.tc : Thread nD τ).loc main_arg3))) :=
  (host_agg1 (W4 m ρ c) _ _ _ (at4_main_v32 m ρ c) (at4_main_v5 m ρ c) (at4_main_v6 m ρ c) (at4_main_v31 m ρ c)).trans
    (ref_agg1 (m ((c.tc : Thread nD τ).loc main_arg0)) (m ((c.tc : Thread nD τ).loc main_arg1)) (m ((c.tc : Thread nD τ).loc main_arg2)) (m ((c.tc : Thread nD τ).loc main_arg3))).symm

/-- The bias, reshaped to one row. -/
theorem at5_main_v46 : W5 m ρ c (Proc.devRef .tc main_v46) = (shapeCast S1x256 (m ((c.tc : Thread nD τ).loc main_arg4)) shapeCasts_S256_S1x256) :=
  host_bias_row1 (W4 m ρ c) _ (at4_main_arg4 m ρ c)

/-! ## After the bias region -/
theorem at6_main_v5 : W6 m ρ c (Proc.devRef .tc main_v5) = (val_main_v5 (F := Ideal) (m ((c.tc : Thread nD τ).loc main_arg1))) :=
  (W6_of_ne m ρ c main_v5 (by decide)).trans (at5_main_v5 m ρ c)
theorem at6_main_v6 : W6 m ρ c (Proc.devRef .tc main_v6) = (val_main_v6 (F := Ideal) (m ((c.tc : Thread nD τ).loc main_arg1))) :=
  (W6_of_ne m ρ c main_v6 (by decide)).trans (at5_main_v6 m ρ c)
theorem at6_main_v31 : W6 m ρ c (Proc.devRef .tc main_v31) = (val_main_v31 (F := Ideal) (m ((c.tc : Thread nD τ).loc main_arg1)) (m ((c.tc : Thread nD τ).loc main_arg2))) :=
  (W6_of_ne m ρ c main_v31 (by decide)).trans (at5_main_v31 m ρ c)
theorem at6_main_arg5 : W6 m ρ c (Proc.devRef .tc main_arg5) = (m ((c.tc : Thread nD τ).loc main_arg5)) :=
  (W6_of_ne m ρ c main_arg5 (by decide)).trans (at5_main_arg5 m ρ c)
theorem at6_main_arg6 : W6 m ρ c (Proc.devRef .tc main_arg6) = (m ((c.tc : Thread nD τ).loc main_arg6)) :=
  (W6_of_ne m ρ c main_arg6 (by decide)).trans (at5_main_arg6 m ρ c)
theorem at6_main_arg7 : W6 m ρ c (Proc.devRef .tc main_arg7) = (m ((c.tc : Thread nD τ).loc main_arg7)) :=
  (W6_of_ne m ρ c main_arg7 (by decide)).trans (at5_main_arg7 m ρ c)
theorem at6_main_arg8 : W6 m ρ c (Proc.devRef .tc main_arg8) = (m ((c.tc : Thread nD τ).loc main_arg8)) :=
  (W6_of_ne m ρ c main_arg8 (by decide)).trans (at5_main_arg8 m ρ c)
theorem at6_main_arg9 : W6 m ρ c (Proc.devRef .tc main_arg9) = (m ((c.tc : Thread nD τ).loc main_arg9)) :=
  (W6_of_ne m ρ c main_arg9 (by decide)).trans (at5_main_arg9 m ρ c)
theorem at6_main_arg10 : W6 m ρ c (Proc.devRef .tc main_arg10) = (m ((c.tc : Thread nD τ).loc main_arg10)) :=
  (W6_of_ne m ρ c main_arg10 (by decide)).trans (at5_main_arg10 m ρ c)
theorem at6_main_arg11 : W6 m ρ c (Proc.devRef .tc main_arg11) = (m ((c.tc : Thread nD τ).loc main_arg11)) :=
  (W6_of_ne m ρ c main_arg11 (by decide)).trans (at5_main_arg11 m ρ c)
theorem at6_main_arg12 : W6 m ρ c (Proc.devRef .tc main_arg12) = (m ((c.tc : Thread nD τ).loc main_arg12)) :=
  (W6_of_ne m ρ c main_arg12 (by decide)).trans (at5_main_arg12 m ρ c)
theorem at6_main_arg13 : W6 m ρ c (Proc.devRef .tc main_arg13) = (m ((c.tc : Thread nD τ).loc main_arg13)) :=
  (W6_of_ne m ρ c main_arg13 (by decide)).trans (at5_main_arg13 m ρ c)
theorem at6_main_arg14 : W6 m ρ c (Proc.devRef .tc main_arg14) = (m ((c.tc : Thread nD τ).loc main_arg14)) :=
  (W6_of_ne m ρ c main_arg14 (by decide)).trans (at5_main_arg14 m ρ c)
theorem at6_main_arg15 : W6 m ρ c (Proc.devRef .tc main_arg15) = (m ((c.tc : Thread nD τ).loc main_arg15)) :=
  (W6_of_ne m ρ c main_arg15 (by decide)).trans (at5_main_arg15 m ρ c)
theorem at6_main_arg16 : W6 m ρ c (Proc.devRef .tc main_arg16) = (m ((c.tc : Thread nD τ).loc main_arg16)) :=
  (W6_of_ne m ρ c main_arg16 (by decide)).trans (at5_main_arg16 m ρ c)

/-- The layer's output array is the reference's value of the layer. -/
theorem at6_main_v47 : W6 m ρ c (Proc.devRef .tc main_v47) = (val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (W6_arr m ρ c 2).trans ?_
  have hA : V5 m ρ c (Pipeline.arrRef spec1 0) = (val_main_v45 (F := Ideal) (m ((c.tc : Thread nD τ).loc main_arg0)) (m ((c.tc : Thread nD τ).loc main_arg1)) (m ((c.tc : Thread nD τ).loc main_arg2)) (m ((c.tc : Thread nD τ).loc main_arg3))) := at5_main_v45 m ρ c
  have hB : V5 m ρ c (Pipeline.arrRef spec1 1) = (shapeCast S1x256 (m ((c.tc : Thread nD τ).loc main_arg4)) shapeCasts_S256_S1x256) := at5_main_v46 m ρ c
  rw [layer1_bias_relu (V5 m ρ) c, hA, hB]
  exact (Cert.ReferenceIdeal.Rows.ref_layer1_bias_relu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) shapeCasts_S256_S1x256).symm

end Cert.KernelIdeal.Rows

end
-- ==== Proof.Host2.lean ====
/-
  Layer 2's host stretch, at any float instance.

  Between the matrix-product region and the bias region the host gathers the rows of the product at the edges'
  sources (an index below zero wraps round by the number of nodes), scales row e by the edge's normalisation and adds it
  into row d[e] of a zero array; it also reshapes the bias to one row. The aggregate is therefore one function of the
  product, the edge list and the edge weights. The reference's aggregate stage is that function of its own product
  stage, and the kernel's stretch computes it from whatever contents it is entered with, provided the product buffer
  and the three shared arrays s, d, n hold what they should. Nothing here depends on what a float is.
-/
import proofs.«114307_j63015760166989_1_alg».proof.Proof.Gen.KernelIdeal.Launch
import proofs.«114307_j63015760166989_1_alg».proof.Proof.ReferenceStages
import Idealize.ShloMosaic.Lib.StableHlo.Run

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The layer's aggregate as a function of the product `xw`, the edge list `x1` and the edge weights `x2`. -/
def agg2 (xw : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x128, .f32⟩ : BufTy).Contents (Elt F) :=
  Host.scatterAdd Cert.ReferenceIdeal.scatter_S50000x128_S850000x1_S850000x128_1_0_0_1 (val_main_v89 (F := F)) (val_main_v90 (F := F) x1)
    (mulf (Host.gather Cert.ReferenceIdeal.gather_S50000x128_S850000x1_S850000x128_1_0_n_n_0_1_1128 xw (val_main_v84 (F := F) x1)) (val_main_v87 (F := F) x1 x2))

/-- The reference's aggregate stage is that function of its product stage. -/
theorem ref_agg2 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) (x3 : (⟨Cert.ReferenceIdeal.S128x256, .f32⟩ : BufTy).Contents (Elt F)) (x4 : (⟨Cert.ReferenceIdeal.S256, .f32⟩ : BufTy).Contents (Elt F)) (x5 : (⟨Cert.ReferenceIdeal.S256x128, .f32⟩ : BufTy).Contents (Elt F)) :
    val_main_v91 (F := F) x0 x1 x2 x3 x4 x5 = agg2 (val_main_v78 (F := F) x0 x1 x2 x3 x4 x5) x1 x2 := rfl

/-- The kernel's stretch, entered with the product in its buffer and s, d, n in theirs, leaves the aggregate. -/
theorem host_agg2 (V : Valuation τ sig (Elt F)) (xw : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F))
    (hxw : V (Proc.devRef .tc main_v48) = xw) (h5 : V (Proc.devRef .tc main_v5) = val_main_v5 (F := F) x1)
    (h6 : V (Proc.devRef .tc main_v6) = val_main_v6 (F := F) x1) (h31 : V (Proc.devRef .tc main_v31) = val_main_v31 (F := F) x1 x2) :
    StableHlo.after hostOps3 V (Proc.devRef .tc main_v61) = agg2 xw x1 x2 := by
  dsimp only [hostOps3]
  after_results_simp
  rw [hxw, h5, h6, h31]
  rfl

/-- The same stretch leaves the bias reshaped to one row. -/
theorem host_bias_row2 (V : Valuation τ sig (Elt F)) (b : (⟨Cert.ReferenceIdeal.S128, .f32⟩ : BufTy).Contents (Elt F)) (hb : V (Proc.devRef .tc main_arg6) = b) :
    StableHlo.after hostOps3 V (Proc.devRef .tc main_v62) = shapeCast S1x128 b shapeCasts_S128_S1x128 := by
  dsimp only [hostOps3]
  after_results_simp
  exact congrArg (fun x => shapeCast S1x128 x shapeCasts_S128_S1x128) hb

end Cert.KernelIdeal.Rows

end
-- ==== Proof.Layer2Matmul.lean ====
/-
  The second dense layer's product, read off the pipelined kernel.

  The kernel multiplies the activations A of the layer before (50000 × 256) by the layer's weight matrix W (256 × 128) in ten steps:
  step t stages rows 5000·t … 5000·t + 4999 of the left operand and the whole of W, forms the 5000 × 128
  product of the two staged blocks into a zero accumulator, and writes it back as the same rows of the
  result.  At the exact-real instance the narrowing of the operands before the product is the identity
  and the product of two blocks at (r, c) is the plain sum over the 256 inner positions, so each written
  block is the matching block of the ONE array  i ↦ ∑ₖ A(i₀, k) · W(k, i₁).  The ten row blocks tile the
  50000 rows (row r lies in block r / 5000), hence the result array is that array.
-/
import proofs.«114307_j63015760166989_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.SL.Sem
open Idealize.ShloMosaic.Pipeline (Dat)

/-! ## The index functions of a row-by-column product -/

/-- Entry (i₀, k) of the left operand: row of the result entry `i`, inner position `k`. -/
abbrev lrow2 (i : S50000x128.Idx) (k : Fin 256) : S50000x256.Idx := fun a => match a with
  | ⟨0, _⟩ => ⟨(i 0).val, (i 0).isLt⟩
  | ⟨1, _⟩ => ⟨k.val, k.isLt⟩
/-- Entry (k, i₁) of the right operand: inner position `k`, column of the result entry `i`. -/
abbrev rcol2 (i : S50000x128.Idx) (k : Fin 256) : S256x128.Idx := fun a => match a with
  | ⟨0, _⟩ => ⟨k.val, k.isLt⟩
  | ⟨1, _⟩ => ⟨(i 1).val, (i 1).isLt⟩

/-- The same two inside one step's blocks: entry (j₀, k) of the staged 5000 rows … -/
abbrev blockrow2 (j : S5000x128.Idx) (k : Fin 256) : S5000x256.Idx := fun a => match a with
  | ⟨0, _⟩ => ⟨(j 0).val, (j 0).isLt⟩
  | ⟨1, _⟩ => ⟨k.val, k.isLt⟩
/-- … and entry (k, j₁) of the staged weights. -/
abbrev blockcol2 (j : S5000x128.Idx) (k : Fin 256) : S256x128.Idx := fun a => match a with
  | ⟨0, _⟩ => ⟨k.val, k.isLt⟩
  | ⟨1, _⟩ => ⟨(j 1).val, (j 1).isLt⟩

/-- The product array: entry `i` is the sum over the inner position of row i₀ of `a0` times column i₁ of `a1`. -/
abbrev prod2 (a0 : S50000x256.Idx → EReal) (a1 : S256x128.Idx → EReal) : S50000x128.Idx → EReal :=
  fun i => ∑ k : Fin 256, a0 (lrow2 i k) * a1 (rcol2 i k)

/-- One term of that sum, with the two operand positions free. -/
abbrev term2 (a0 : S50000x256.Idx → EReal) (a1 : S256x128.Idx → EReal) (p : S50000x256.Idx) (q : S256x128.Idx) : EReal := a0 p * a1 q

theorem no_offsets2 : (![0, 0] : Fin 2 → Nat) = fun _ => 0 := funext fun a => by fin_cases a <;> rfl

/-! ## One step's product of blocks, entry by entry -/

/-- The operand positions the block product's dimension numbers name at result entry `j` and inner position `q`:
    the left one keeps the row and runs along the inner axis, the right one runs along it and keeps the column. -/
theorem left_row2 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem left_inner2 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem right_inner2 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem right_col2 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- At the exact reals the step's value at entry `j` is the sum over the inner position of the staged rows times
    the staged weights: narrowing the operands (and re-reading the left block in its own shape) changes nothing and the accumulator starts at zero. -/
theorem block_product2 (x0 : Vec Ideal S5000x256 .f32) (x1 : Vec Ideal S256x128 .f32) (j : S5000x128.Idx) :
    k2_pay1 (F := Ideal) x0 x1 j = ∑ k : Fin 256, x0 (blockrow2 j k) * x1 (blockcol2 j k) := by
  unfold k2_pay1
  refine (Ideal.matmul_constant_zero_apply dot_S5000x256_S256x128_S5000x128_1_0_0_1_n_n none
    (truncf (F := Ideal) .bf16 (shapeCast S5000x256 x0 shapeCasts_S5000x256_S5000x256) bitsLt_bf16_f32) (truncf (F := Ideal) .bf16 x1 bitsLt_bf16_f32) j).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = blockrow2 j k := funext fun a => Fin.ext (by
    match a with
    | ⟨0, _⟩ => exact left_row2 _ _
    | ⟨1, _⟩ => exact (left_inner2 _ _).trans hk)
  have er : dot_S5000x256_S256x128_S5000x128_1_0_0_1_n_n.rhsIdx j ((ValueIdx.contrEquiv1 dot_S5000x256_S256x128_S5000x128_1_0_0_1_n_n 256 rfl rfl).symm k) = blockcol2 j k := funext fun a => Fin.ext (by
    match a with
    | ⟨0, _⟩ => exact (right_inner2 _ _).trans hk
    | ⟨1, _⟩ => exact right_col2 _ _)
  show shapeCast S5000x256 x0 shapeCasts_S5000x256_S5000x256 _ * x1 _ = _
  rw [shapeCast_self, el, er]

/-! ## Where the steps' blocks sit -/

/-- Decided over the ten steps: the staged rows of the left operand are the rows written back, all other block
    positions are zero, and the row-block position stays below ten. -/
theorem block_positions2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is written by some step. -/
theorem block_of_rows2 : ∀ q : Fin 10, ∃ t : Fin cfg2.N, win2_2.index t = ![q.val, 0] :=
  (by decide +kernel : ∀ q : Fin 10, ∃ t : Fin grid2.N, win2_2.index t = ![q.val, 0])

variable (V : (c : Dev nD) → (b : Ref sig .tc) → Buf (Elt Ideal) ((c : Thread nD τ).loc b))

/-- What step `t` writes back is its block of the product array of the two operands as the layer finds them. -/
theorem step_writes2 (c : Dev nD) (t : Fin cfg2.N) :
    (dat2 (F := Ideal) V c).flushed 2 t
      = ((cfg2.win 2).blk t).view.read (Elt Ideal) (prod2 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero no_offsets2]
  simp only [View.ld_unit_zero (S := S5000x256) no_offsets2, View.ld_unit_zero (S := S256x128) no_offsets2]
  obtain ⟨e0, e1, e2, e3, e4, e5⟩ := block_positions2 t
  funext j
  show k2_pay1 (F := Ideal) (iblk2 V c 0 t) (iblk2 V c 1 t) j
    = prod2 (V c (Pipeline.arrRef spec2 0)) (V c (Pipeline.arrRef spec2 1)) (((cfg2.win 2).blk t).view.emb j)
  refine (block_product2 (iblk2 V c 0 t) (iblk2 V c 1 t) j).trans ?_
  refine Finset.sum_congr rfl fun k _ => ?_
  have h0 : ((cfg2.win 0).blk t).view.emb (blockrow2 j k) = lrow2 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have h1 : ((cfg2.win 1).blk t).view.emb (blockcol2 j k) = rcol2 (((cfg2.win 2).blk t).view.emb j) k := by
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  show term2 (V c (Pipeline.arrRef spec2 0)) (V c (Pipeline.arrRef spec2 1))
        (((cfg2.win 0).blk t).view.emb (blockrow2 j k)) (((cfg2.win 1).blk t).view.emb (blockcol2 j k))
      = term2 (V c (Pipeline.arrRef spec2 0)) (V c (Pipeline.arrRef spec2 1))
        (lrow2 (((cfg2.win 2).blk t).view.emb j) k) (rcol2 (((cfg2.win 2).blk t).view.emb j) k)
  rw [h0, h1]

/-- A result entry lies in step `t`'s block iff each coordinate lies in the block's range on its axis. -/
theorem mem_step_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The ten row blocks tile the result: row r lies in block r / 5000. -/
theorem rows_covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := block_of_rows2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_step_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the layer's ten steps the result array is the product of the two operand arrays as the layer found them. -/
theorem layer2_matmul (c : Dev nD) :
    (dat2 (F := Ideal) V c).arrAt 2 cfg2.N
      = prod2 (V c (Pipeline.arrRef spec2 0)) (V c (Pipeline.arrRef spec2 1)) :=
  (dat2 (F := Ideal) V c).arrAt_eq_of_cover 2 (prod2 (V c (Pipeline.arrRef spec2 0)) (V c (Pipeline.arrRef spec2 1)))
    (fun t _ => step_writes2 V c t) rows_covered2

end Cert.KernelIdeal.Rows

end
-- ==== Proof.Layer2BiasRelu.lean ====
import proofs.«114307_j63015760166989_1_alg».proof.Proof.Gen.KernelIdeal.Frame
import Idealize.ShloMosaic.Lib.ValueIdx
import Idealize.ShloMosaic.Lib.Pipeline.Value
import Idealize.ShloMosaic.Lib.ValueLayout

/-! Layer 2, bias and ReLU: the array the region leaves is, index by index, the maximum of zero and the
    aggregated array plus the bias row.  The body adds the one bias row to every row of its block and takes
    the maximum with zero; the ten row blocks of 5000 rows tile the 50000 rows. -/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The body's offsets, all zero. -/
theorem zero_offsets2 : (![0, 0] : Fin 2 → Nat) = fun _ => 0 := funext fun a => by fin_cases a <;> rfl

/-- The bias row's index under an index of the array: row 0, the same column. -/
abbrev brow2 (i : S50000x128.Idx) : S1x128.Idx :=
  fun a => match a with | ⟨0, _⟩ => ⟨0, Nat.one_pos⟩ | ⟨1, _⟩ => ⟨(i 1).val, (i 1).isLt⟩

/-- The body's value at row `p`, column `q` of its block: the block's element plus the bias row's element of
    that column, or zero if that is larger. -/
theorem pay2_apply (x0 : Vec Ideal S5000x128 .f32) (x1 : Vec Ideal S1x128 .f32) (p : Fin 5000) (q : Fin 128) :
    k3_pay1 (F := Ideal) x0 x1 (ix2 p q)
      = FloatOps.maximumf (FloatOps.addf (x0 (ix2 p q)) (x1 (ix2 (0 : Fin 1) q))) (FloatOps.ofBits .f32 0x00000000#32) := by
  unfold k3_pay1
  show FloatOps.maximumf (FloatOps.addf (shapeCast (α := Ideal .f32) S5000x128 x0 shapeCasts_S5000x128_S5000x128 (ix2 p q))
      (broadcastTo (α := Ideal .f32) S5000x128 (shapeCast (α := Ideal .f32) S1x128 x1 shapeCasts_S1x128_S1x128) broadcasts_S1x128_S5000x128 (ix2 p q))) _ = _
  rw [shapeCast_self, shapeCast_self, broadcastTo_1b_ab_apply]
  rfl

/-- The same at any index `y` of the block, once the two blocks' elements are known as elements `A0 i` and
    `A1 (brow2 i)` of two arrays. -/
theorem pay2_value (x0 : Vec Ideal S5000x128 .f32) (x1 : Vec Ideal S1x128 .f32)
    (A0 : S50000x128.Idx → Ideal .f32) (A1 : S1x128.Idx → Ideal .f32) (y : S5000x128.Idx) (i : S50000x128.Idx)
    (h0 : x0 y = A0 i) (h1 : x1 (ix2 (0 : Fin 1) (⟨(y 1).val, (y 1).isLt⟩ : Fin 128)) = A1 (brow2 i)) :
    k3_pay1 (F := Ideal) x0 x1 y
      = FloatOps.maximumf (FloatOps.addf (A0 i) (A1 (brow2 i))) (FloatOps.ofBits .f32 0x00000000#32) := by
  have hy : y = ix2 (⟨(y 0).val, (y 0).isLt⟩ : Fin 5000) (⟨(y 1).val, (y 1).isLt⟩ : Fin 128) := by
    funext a; match a with | ⟨0, _⟩ => rfl | ⟨1, _⟩ => rfl
  rw [← h0, ← h1]
  conv_lhs => rw [hy]
  conv_rhs => rw [hy]
  exact pay2_apply x0 x1 _ _

variable (V : (c : Dev nD) → (b : Ref sig .tc) → Buf (Elt Ideal) ((c : Thread nD τ).loc b))

/-- What the array ends holding: index by index, the aggregated array plus the bias row, or zero if larger. -/
abbrev G2 (c : Dev nD) : S50000x128.Idx → Ideal .f32 := fun i =>
  FloatOps.maximumf (FloatOps.addf ((V c (Pipeline.arrRef spec3 0) : S50000x128.Idx → Ideal .f32) i)
    ((V c (Pipeline.arrRef spec3 1) : S1x128.Idx → Ideal .f32) (brow2 i))) (FloatOps.ofBits .f32 0x00000000#32)

/-- The index maps over the ten grid points: the input rows move with the output rows, every other block index
    is zero, and the output's row-block index is at most 9. -/
theorem index_facts2 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the ten row blocks is some grid point's. -/
theorem index_onto2 : ∀ q : Fin 10, ∃ t : Fin cfg3.N, win3_2.index t = ![q.val, 0] :=
  (by decide +kernel : ∀ q : Fin 10, ∃ t : Fin grid3.N, win3_2.index t = ![q.val, 0])

/-- The rows block at point `t`, at `y`, is the aggregated array at row `5000 · (block index) + y 0`, column `y 1`. -/
theorem rows_block2 (c : Dev nD) (t : Fin cfg3.N) (y : S5000x128.Idx) (i : S50000x128.Idx)
    (h0 : (i 0).val = win3_2.index t (0 : Fin 2) * 5000 + (y 0).val) (h1 : (i 1).val = (y 1).val) :
    (iblk3 V c 0 t : Vec Ideal S5000x128 .f32) y = (V c (Pipeline.arrRef spec3 0) : S50000x128.Idx → Ideal .f32) i := by
  obtain ⟨e0, e1, e2, e3, e4, e5⟩ := index_facts2 t
  unfold iblk3
  rw [View.read_apply]
  show (V c (Pipeline.arrRef spec3 0) : S50000x128.Idx → Ideal .f32) (((cfg3.win 0).blk t).view.emb y) = _
  refine congrArg _ ?_
  funext a; apply Fin.ext
  match a with
  | ⟨0, _⟩ => show win3_0.index t (0 : Fin 2) * 5000 + 1 * (y 0).val = (i 0).val; omega
  | ⟨1, _⟩ => show win3_0.index t (1 : Fin 2) * 128 + 1 * (y 1).val = (i 1).val; omega

/-- The bias block at any point is the whole bias row. -/
theorem bias_block2 (c : Dev nD) (t : Fin cfg3.N) (y : S1x128.Idx) (k : S1x128.Idx)
    (h0 : (k 0).val = (y 0).val) (h1 : (k 1).val = (y 1).val) :
    (iblk3 V c 1 t : Vec Ideal S1x128 .f32) y = (V c (Pipeline.arrRef spec3 1) : S1x128.Idx → Ideal .f32) k := by
  obtain ⟨e0, e1, e2, e3, e4, e5⟩ := index_facts2 t
  unfold iblk3
  rw [View.read_apply]
  show (V c (Pipeline.arrRef spec3 1) : S1x128.Idx → Ideal .f32) (((cfg3.win 1).blk t).view.emb y) = _
  refine congrArg _ ?_
  funext a; apply Fin.ext
  match a with
  | ⟨0, _⟩ => show win3_1.index t (0 : Fin 2) * 1 + 1 * (y 0).val = (k 0).val; omega
  | ⟨1, _⟩ => show win3_1.index t (1 : Fin 2) * 128 + 1 * (y 1).val = (k 1).val; omega

/-- What point `t` writes back is block `t` of `G2`. -/
theorem flushed2_eq (c : Dev nD) (t : Fin cfg3.N) :
    (dat3 (F := Ideal) V c).flushed 2 t = ((cfg3.win 2).blk t).view.read (Elt Ideal) (G2 V c) := by
  show (cfg3.win 2).cut (grid3.coords t) ((dat3 V c).after 2 t) = _
  rw [after3_2]
  unfold out3_2
  rw [View.canon_unit_zero zero_offsets2]
  simp only [View.ld_unit_zero (S := S5000x128) zero_offsets2, View.ld_unit_zero (S := S1x128) zero_offsets2]
  funext j
  rw [View.read_apply]
  show k3_pay1 (F := Ideal) (iblk3 V c 0 t) (iblk3 V c 1 t) ((cfg3.win 2).xinj (grid3.coords t) j)
    = G2 V c (((cfg3.win 2).blk t).view.emb j)
  refine pay2_value (iblk3 V c 0 t) (iblk3 V c 1 t) (V c (Pipeline.arrRef spec3 0)) (V c (Pipeline.arrRef spec3 1))
    ((cfg3.win 2).xinj (grid3.coords t) j) (((cfg3.win 2).blk t).view.emb j) ?_ ?_
  · refine rows_block2 V c t _ _ ?_ ?_
    · show win3_2.index t (0 : Fin 2) * 5000 + 1 * (j 0).val = win3_2.index t (0 : Fin 2) * 5000 + (j 0).val; omega
    · obtain ⟨e0, e1, e2, e3, e4, e5⟩ := index_facts2 t
      show win3_2.index t (1 : Fin 2) * 128 + 1 * (j 1).val = (j 1).val; omega
  · refine bias_block2 V c t _ _ ?_ ?_
    · rfl
    · obtain ⟨e0, e1, e2, e3, e4, e5⟩ := index_facts2 t
      show win3_2.index t (1 : Fin 2) * 128 + 1 * (j 1).val = (j 1).val; omega

/-- An index of the array is in point `t`'s block iff each coordinate is in the block's range on its axis. -/
theorem mem_block2 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- Row `r` lies in the block of the point whose row-block index is `r / 5000`: the ten blocks cover the array. -/
theorem covered2 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto2 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array after the region: the aggregated array plus the bias row, or zero if larger, at every index. -/
theorem layer2_bias_relu (c : Dev nD) :
    (dat3 (F := Ideal) V c).arrAt 2 cfg3.N
      = (fun i => FloatOps.maximumf (FloatOps.addf ((V c (Pipeline.arrRef spec3 0) : S50000x128.Idx → Ideal .f32) i)
          ((V c (Pipeline.arrRef spec3 1) : S1x128.Idx → Ideal .f32) (brow2 i))) (FloatOps.ofBits .f32 0x00000000#32)
        : S50000x128.Idx → Ideal .f32) :=
  (dat3 (F := Ideal) V c).arrAt_eq_of_cover 2 (G2 V c) (fun t _ => flushed2_eq V c t) covered2

end Cert.KernelIdeal.Rows

end
-- ==== Proof.Layer2BiasRef.lean ====
import proofs.«114307_j63015760166989_1_alg».proof.Proof.ReferenceStages
import Idealize.ShloMosaic.Lib.ValueIdx
import Idealize.ShloMosaic.Lib.Pipeline.Value

/-! Layer 2 of the reference, bias and ReLU: its value at an index is the maximum of zero and the aggregated
    array plus the bias vector's entry of that column — the bias vector written as the one-row array the
    kernel's program reshapes it to. -/

noncomputable section

namespace Cert.ReferenceIdeal.Rows

open Cert.ReferenceIdeal Idealize.ShloMosaic

/-- The bias vector viewed as one row of 128: at `(0, q)` it reads the vector at `q`, as the broadcast to one
    row does. -/
theorem bias_row2_apply (x6 : (⟨S128, .f32⟩ : BufTy).Contents (Elt Ideal)) (h : S128.ShapeCasts S1x128) (k : S1x128.Idx) :
    shapeCast (α := Ideal .f32) S1x128 x6 h k = x6 (Read.idx_main_v92 k) :=
  shapeCast_apply (α := Ideal .f32) x6 h k (Read.idx_main_v92 k) (by
    have h0 : (k 0).val < 1 := (k 0).isLt
    rw [Shape.rowMajor_val_one, Shape.rowMajor_val_two]
    show (k 1).val = (k 0).val * 128 + (k 1).val
    omega)

/-- The reference's layer 2 after its ReLU, index by index. -/
theorem ref_layer2_bias_relu (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (h : S128.ShapeCasts S1x128) :
    Read.val_main_v95 (F := Ideal) x0 x1 x2 x3 x4 x5 x6
      = fun i => FloatOps.maximumf (FloatOps.addf (Read.val_main_v91 (F := Ideal) x0 x1 x2 x3 x4 x5 i)
          (shapeCast (α := Ideal .f32) S1x128 x6 h (Read.idx_main_v93 i))) (FloatOps.ofBits .f32 0x00000000#32) := by
  funext i
  rw [Read.val_main_v95_apply, Read.val_main_v94_apply, Read.val_main_v93_apply, Read.val_main_v92_apply,
    Read.val_main_call3_v0_apply, Read.val_main_call3_cst_apply, bias_row2_apply]

end Cert.ReferenceIdeal.Rows

end
-- ==== Proof.Boundary2.lean ====
/-
  Layer 2 of the network, followed along the kernel's chain of segments.

  On entry the layer's input array h is the reference's value of the previous layer (the node features, for the first
  layer). The matrix-product region leaves h · W, row block by row block, which is the reference's product, entry by
  entry the same sum over the contracted axis. The host stretch gathers the rows of h · W at the edges' sources, scales
  row e by the edge's normalisation n[e] and adds it into row d[e] of a zero array: the same operations, in the same
  order, of the same arrays as the reference's, so the aggregate is the reference's aggregate. The bias region adds the
  bias row to every row and takes the maximum with zero, which is the reference's add and relu read entry by entry.
  The arrays s, d, n and the arguments still to be read are written by no segment of the layer.
-/
import proofs.«114307_j63015760166989_1_alg».proof.Proof.Boundary1
import proofs.«114307_j63015760166989_1_alg».proof.Proof.Host2
import proofs.«114307_j63015760166989_1_alg».proof.Proof.Layer2Matmul
import proofs.«114307_j63015760166989_1_alg».proof.Proof.Layer2BiasRelu
import proofs.«114307_j63015760166989_1_alg».proof.Proof.Layer2BiasRef
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the matrix-product region -/
theorem at7_main_v5 : W7 m ρ c (Proc.devRef .tc main_v5) = (val_main_v5 (F := Ideal) (m ((c.tc : Thread nD τ).loc main_arg1))) :=
  (W7_of_ne m ρ c main_v5 (by decide)).trans (at6_main_v5 m ρ c)
theorem at7_main_v6 : W7 m ρ c (Proc.devRef .tc main_v6) = (val_main_v6 (F := Ideal) (m ((c.tc : Thread nD τ).loc main_arg1))) :=
  (W7_of_ne m ρ c main_v6 (by decide)).trans (at6_main_v6 m ρ c)
theorem at7_main_v31 : W7 m ρ c (Proc.devRef .tc main_v31) = (val_main_v31 (F := Ideal) (m ((c.tc : Thread nD τ).loc main_arg1)) (m ((c.tc : Thread nD τ).loc main_arg2))) :=
  (W7_of_ne m ρ c main_v31 (by decide)).trans (at6_main_v31 m ρ c)
theorem at7_main_arg6 : W7 m ρ c (Proc.devRef .tc main_arg6) = (m ((c.tc : Thread nD τ).loc main_arg6)) :=
  (W7_of_ne m ρ c main_arg6 (by decide)).trans (at6_main_arg6 m ρ c)
theorem at7_main_arg7 : W7 m ρ c (Proc.devRef .tc main_arg7) = (m ((c.tc : Thread nD τ).loc main_arg7)) :=
  (W7_of_ne m ρ c main_arg7 (by decide)).trans (at6_main_arg7 m ρ c)
theorem at7_main_arg8 : W7 m ρ c (Proc.devRef .tc main_arg8) = (m ((c.tc : Thread nD τ).loc main_arg8)) :=
  (W7_of_ne m ρ c main_arg8 (by decide)).trans (at6_main_arg8 m ρ c)
theorem at7_main_arg9 : W7 m ρ c (Proc.devRef .tc main_arg9) = (m ((c.tc : Thread nD τ).loc main_arg9)) :=
  (W7_of_ne m ρ c main_arg9 (by decide)).trans (at6_main_arg9 m ρ c)
theorem at7_main_arg10 : W7 m ρ c (Proc.devRef .tc main_arg10) = (m ((c.tc : Thread nD τ).loc main_arg10)) :=
  (W7_of_ne m ρ c main_arg10 (by decide)).trans (at6_main_arg10 m ρ c)
theorem at7_main_arg11 : W7 m ρ c (Proc.devRef .tc main_arg11) = (m ((c.tc : Thread nD τ).loc main_arg11)) :=
  (W7_of_ne m ρ c main_arg11 (by decide)).trans (at6_main_arg11 m ρ c)
theorem at7_main_arg12 : W7 m ρ c (Proc.devRef .tc main_arg12) = (m ((c.tc : Thread nD τ).loc main_arg12)) :=
  (W7_of_ne m ρ c main_arg12 (by decide)).trans (at6_main_arg12 m ρ c)
theorem at7_main_arg13 : W7 m ρ c (Proc.devRef .tc main_arg13) = (m ((c.tc : Thread nD τ).loc main_arg13)) :=
  (W7_of_ne m ρ c main_arg13 (by decide)).trans (at6_main_arg13 m ρ c)
theorem at7_main_arg14 : W7 m ρ c (Proc.devRef .tc main_arg14) = (m ((c.tc : Thread nD τ).loc main_arg14)) :=
  (W7_of_ne m ρ c main_arg14 (by decide)).trans (at6_main_arg14 m ρ c)
theorem at7_main_arg15 : W7 m ρ c (Proc.devRef .tc main_arg15) = (m ((c.tc : Thread nD τ).loc main_arg15)) :=
  (W7_of_ne m ρ c main_arg15 (by decide)).trans (at6_main_arg15 m ρ c)
theorem at7_main_arg16 : W7 m ρ c (Proc.devRef .tc main_arg16) = (m ((c.tc : Thread nD τ).loc main_arg16)) :=
  (W7_of_ne m ρ c main_arg16 (by decide)).trans (at6_main_arg16 m ρ c)

/-- The region's output array is the reference's product of the layer's input and its weight matrix. -/
theorem at7_main_v48 : W7 m ρ c (Proc.devRef .tc main_v48) = (val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (W7_arr m ρ c 2).trans ?_
  have hX : V6 m ρ c (Pipeline.arrRef spec2 0) = (val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := at6_main_v47 m ρ c
  have hW : V6 m ρ c (Pipeline.arrRef spec2 1) = (m ((c.tc : Thread nD τ).loc main_arg5)) := at6_main_arg5 m ρ c
  rw [layer2_matmul (V6 m ρ) c, hX, hW]
  funext i
  exact (val_main_v78_apply _ _ _ _ _ _ i).symm

/-! ## After the host stretch -/
theorem at8_main_v5 : W8 m ρ c (Proc.devRef .tc main_v5) = (val_main_v5 (F := Ideal) (m ((c.tc : Thread nD τ).loc main_arg1))) :=
  (StableHlo.after_of_forall_not_mem (b := Proc.devRef .tc main_v5) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_v5 m ρ c)
theorem at8_main_v6 : W8 m ρ c (Proc.devRef .tc main_v6) = (val_main_v6 (F := Ideal) (m ((c.tc : Thread nD τ).loc main_arg1))) :=
  (StableHlo.after_of_forall_not_mem (b := Proc.devRef .tc main_v6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_v6 m ρ c)
theorem at8_main_v31 : W8 m ρ c (Proc.devRef .tc main_v31) = (val_main_v31 (F := Ideal) (m ((c.tc : Thread nD τ).loc main_arg1)) (m ((c.tc : Thread nD τ).loc main_arg2))) :=
  (StableHlo.after_of_forall_not_mem (b := Proc.devRef .tc main_v31) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_v31 m ρ c)
theorem at8_main_arg6 : W8 m ρ c (Proc.devRef .tc main_arg6) = (m ((c.tc : Thread nD τ).loc main_arg6)) :=
  (StableHlo.after_of_forall_not_mem (b := Proc.devRef .tc main_arg6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg6 m ρ c)
theorem at8_main_arg7 : W8 m ρ c (Proc.devRef .tc main_arg7) = (m ((c.tc : Thread nD τ).loc main_arg7)) :=
  (StableHlo.after_of_forall_not_mem (b := Proc.devRef .tc main_arg7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg7 m ρ c)
theorem at8_main_arg8 : W8 m ρ c (Proc.devRef .tc main_arg8) = (m ((c.tc : Thread nD τ).loc main_arg8)) :=
  (StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg8 m ρ c)
theorem at8_main_arg9 : W8 m ρ c (Proc.devRef .tc main_arg9) = (m ((c.tc : Thread nD τ).loc main_arg9)) :=
  (StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg9 m ρ c)
theorem at8_main_arg10 : W8 m ρ c (Proc.devRef .tc main_arg10) = (m ((c.tc : Thread nD τ).loc main_arg10)) :=
  (StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg10 m ρ c)
theorem at8_main_arg11 : W8 m ρ c (Proc.devRef .tc main_arg11) = (m ((c.tc : Thread nD τ).loc main_arg11)) :=
  (StableHlo.after_of_forall_not_mem (b := Proc.devRef .tc main_arg11) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg11 m ρ c)
theorem at8_main_arg12 : W8 m ρ c (Proc.devRef .tc main_arg12) = (m ((c.tc : Thread nD τ).loc main_arg12)) :=
  (StableHlo.after_of_forall_not_mem (b := Proc.devRef .tc main_arg12) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg12 m ρ c)
theorem at8_main_arg13 : W8 m ρ c (Proc.devRef .tc main_arg13) = (m ((c.tc : Thread nD τ).loc main_arg13)) :=
  (StableHlo.after_of_forall_not_mem (b := Proc.devRef .tc main_arg13) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg13 m ρ c)
theorem at8_main_arg14 : W8 m ρ c (Proc.devRef .tc main_arg14) = (m ((c.tc : Thread nD τ).loc main_arg14)) :=
  (StableHlo.after_of_forall_not_mem (b := Proc.devRef .tc main_arg14) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg14 m ρ c)
theorem at8_main_arg15 : W8 m ρ c (Proc.devRef .tc main_arg15) = (m ((c.tc : Thread nD τ).loc main_arg15)) :=
  (StableHlo.after_of_forall_not_mem (b := Proc.devRef .tc main_arg15) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg15 m ρ c)
theorem at8_main_arg16 : W8 m ρ c (Proc.devRef .tc main_arg16) = (m ((c.tc : Thread nD τ).loc main_arg16)) :=
  (StableHlo.after_of_forall_not_mem (b := Proc.devRef .tc main_arg16) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at7_main_arg16 m ρ c)

/-- The aggregate: the host's gather, scaling and scatter-add of the product, the same operations as the reference's. -/
theorem at8_main_v61 : W8 m ρ c (Proc.devRef .tc main_v61) = (val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (host_agg2 (W7 m ρ c) _ _ _ (at7_main_v48 m ρ c) (at7_main_v5 m ρ c) (at7_main_v6 m ρ c) (at7_main_v31 m ρ c)).trans
    (ref_agg2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).symm

/-- The bias, reshaped to one row. -/
theorem at8_main_v62 : W8 m ρ c (Proc.devRef .tc main_v62) = (shapeCast S1x128 (m ((c.tc : Thread nD τ).loc main_arg6)) shapeCasts_S128_S1x128) :=
  host_bias_row2 (W7 m ρ c) _ (at7_main_arg6 m ρ c)

/-! ## After the bias region -/
theorem at9_main_v5 : W9 m ρ c (Proc.devRef .tc main_v5) = (val_main_v5 (F := Ideal) (m ((c.tc : Thread nD τ).loc main_arg1))) :=
  (W9_of_ne m ρ c main_v5 (by decide)).trans (at8_main_v5 m ρ c)
theorem at9_main_v6 : W9 m ρ c (Proc.devRef .tc main_v6) = (val_main_v6 (F := Ideal) (m ((c.tc : Thread nD τ).loc main_arg1))) :=
  (W9_of_ne m ρ c main_v6 (by decide)).trans (at8_main_v6 m ρ c)
theorem at9_main_v31 : W9 m ρ c (Proc.devRef .tc main_v31) = (val_main_v31 (F := Ideal) (m ((c.tc : Thread nD τ).loc main_arg1)) (m ((c.tc : Thread nD τ).loc main_arg2))) :=
  (W9_of_ne m ρ c main_v31 (by decide)).trans (at8_main_v31 m ρ c)
theorem at9_main_arg7 : W9 m ρ c (Proc.devRef .tc main_arg7) = (m ((c.tc : Thread nD τ).loc main_arg7)) :=
  (W9_of_ne m ρ c main_arg7 (by decide)).trans (at8_main_arg7 m ρ c)
theorem at9_main_arg8 : W9 m ρ c (Proc.devRef .tc main_arg8) = (m ((c.tc : Thread nD τ).loc main_arg8)) :=
  (W9_of_ne m ρ c main_arg8 (by decide)).trans (at8_main_arg8 m ρ c)
theorem at9_main_arg9 : W9 m ρ c (Proc.devRef .tc main_arg9) = (m ((c.tc : Thread nD τ).loc main_arg9)) :=
  (W9_of_ne m ρ c main_arg9 (by decide)).trans (at8_main_arg9 m ρ c)
theorem at9_main_arg10 : W9 m ρ c (Proc.devRef .tc main_arg10) = (m ((c.tc : Thread nD τ).loc main_arg10)) :=
  (W9_of_ne m ρ c main_arg10 (by decide)).trans (at8_main_arg10 m ρ c)
theorem at9_main_arg11 : W9 m ρ c (Proc.devRef .tc main_arg11) = (m ((c.tc : Thread nD τ).loc main_arg11)) :=
  (W9_of_ne m ρ c main_arg11 (by decide)).trans (at8_main_arg11 m ρ c)
theorem at9_main_arg12 : W9 m ρ c (Proc.devRef .tc main_arg12) = (m ((c.tc : Thread nD τ).loc main_arg12)) :=
  (W9_of_ne m ρ c main_arg12 (by decide)).trans (at8_main_arg12 m ρ c)
theorem at9_main_arg13 : W9 m ρ c (Proc.devRef .tc main_arg13) = (m ((c.tc : Thread nD τ).loc main_arg13)) :=
  (W9_of_ne m ρ c main_arg13 (by decide)).trans (at8_main_arg13 m ρ c)
theorem at9_main_arg14 : W9 m ρ c (Proc.devRef .tc main_arg14) = (m ((c.tc : Thread nD τ).loc main_arg14)) :=
  (W9_of_ne m ρ c main_arg14 (by decide)).trans (at8_main_arg14 m ρ c)
theorem at9_main_arg15 : W9 m ρ c (Proc.devRef .tc main_arg15) = (m ((c.tc : Thread nD τ).loc main_arg15)) :=
  (W9_of_ne m ρ c main_arg15 (by decide)).trans (at8_main_arg15 m ρ c)
theorem at9_main_arg16 : W9 m ρ c (Proc.devRef .tc main_arg16) = (m ((c.tc : Thread nD τ).loc main_arg16)) :=
  (W9_of_ne m ρ c main_arg16 (by decide)).trans (at8_main_arg16 m ρ c)

/-- The layer's output array is the reference's value of the layer. -/
theorem at9_main_v63 : W9 m ρ c (Proc.devRef .tc main_v63) = (val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (W9_arr m ρ c 2).trans ?_
  have hA : V8 m ρ c (Pipeline.arrRef spec3 0) = (val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := at8_main_v61 m ρ c
  have hB : V8 m ρ c (Pipeline.arrRef spec3 1) = (shapeCast S1x128 (m ((c.tc : Thread nD τ).loc main_arg6)) shapeCasts_S128_S1x128) := at8_main_v62 m ρ c
  rw [layer2_bias_relu (V8 m ρ) c, hA, hB]
  exact (Cert.ReferenceIdeal.Rows.ref_layer2_bias_relu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) shapeCasts_S128_S1x128).symm

end Cert.KernelIdeal.Rows

end
-- ==== Proof.Host3.lean ====
/-
  Layer 3's host stretch, at any float instance.

  Between the matrix-product region and the bias region the host gathers the rows of the product at the edges'
  sources (an index below zero wraps round by the number of nodes), scales row e by the edge's normalisation and adds it
  into row d[e] of a zero array; it also reshapes the bias to one row. The aggregate is therefore one function of the
  product, the edge list and the edge weights. The reference's aggregate stage is that function of its own product
  stage, and the kernel's stretch computes it from whatever contents it is entered with, provided the product buffer
  and the three shared arrays s, d, n hold what they should. Nothing here depends on what a float is.
-/
import proofs.«114307_j63015760166989_1_alg».proof.Proof.Gen.KernelIdeal.Launch
import proofs.«114307_j63015760166989_1_alg».proof.Proof.ReferenceStages
import Idealize.ShloMosaic.Lib.StableHlo.Run

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The layer's aggregate as a function of the product `xw`, the edge list `x1` and the edge weights `x2`. -/
def agg3 (xw : (⟨Cert.ReferenceIdeal.S50000x64, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x64, .f32⟩ : BufTy).Contents (Elt F) :=
  Host.scatterAdd Cert.ReferenceIdeal.scatter_S50000x64_S850000x1_S850000x64_1_0_0_1 (val_main_v135 (F := F)) (val_main_v136 (F := F) x1)
    (mulf (Host.gather Cert.ReferenceIdeal.gather_S50000x64_S850000x1_S850000x64_1_0_n_n_0_1_164 xw (val_main_v130 (F := F) x1)) (val_main_v133 (F := F) x1 x2))

/-- The reference's aggregate stage is that function of its product stage. -/
theorem ref_agg3 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) (x3 : (⟨Cert.ReferenceIdeal.S128x256, .f32⟩ : BufTy).Contents (Elt F)) (x4 : (⟨Cert.ReferenceIdeal.S256, .f32⟩ : BufTy).Contents (Elt F)) (x5 : (⟨Cert.ReferenceIdeal.S256x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) :
    val_main_v137 (F := F) x0 x1 x2 x3 x4 x5 x6 x7 = agg3 (val_main_v124 (F := F) x0 x1 x2 x3 x4 x5 x6 x7) x1 x2 := rfl

/-- The kernel's stretch, entered with the product in its buffer and s, d, n in theirs, leaves the aggregate. -/
theorem host_agg3 (V : Valuation τ sig (Elt F)) (xw : (⟨Cert.ReferenceIdeal.S50000x64, .f32⟩ : BufTy).Contents (Elt F)) (x1 : (⟨Cert.ReferenceIdeal.S2x800000, .i32⟩ : BufTy).Contents (Elt F)) (x2 : (⟨Cert.ReferenceIdeal.S800000, .f32⟩ : BufTy).Contents (Elt F))
    (hxw : V (Proc.devRef .tc main_v64) = xw) (h5 : V (Proc.devRef .tc main_v5) = val_main_v5 (F := F) x1)
    (h6 : V (Proc.devRef .tc main_v6) = val_main_v6 (F := F) x1) (h31 : V (Proc.devRef .tc main_v31) = val_main_v31 (F := F) x1 x2) :
    StableHlo.after hostOps5 V (Proc.devRef .tc main_v77) = agg3 xw x1 x2 := by
  dsimp only [hostOps5]
  after_results_simp
  rw [hxw, h5, h6, h31]
  rfl

/-- The same stretch leaves the bias reshaped to one row. -/
theorem host_bias_row3 (V : Valuation τ sig (Elt F)) (b : (⟨Cert.ReferenceIdeal.S64, .f32⟩ : BufTy).Contents (Elt F)) (hb : V (Proc.devRef .tc main_arg8) = b) :
    StableHlo.after hostOps5 V (Proc.devRef .tc main_v78) = shapeCast S1x64 b shapeCasts_S64_S1x64 := by
  dsimp only [hostOps5]
  after_results_simp
  exact congrArg (fun x => shapeCast S1x64 x shapeCasts_S64_S1x64) hb

end Cert.KernelIdeal.Rows

end
-- ==== Proof.Layer3Matmul.lean ====
/-
  The third dense layer's product, read off the pipelined kernel.

  The kernel multiplies the activations A of the layer before (50000 × 128) by the layer's weight matrix W (128 × 64) in ten steps:
  step t stages rows 5000·t … 5000·t + 4999 of the left operand and the whole of W, forms the 5000 × 64
  product of the two staged blocks into a zero accumulator, and writes it back as the same rows of the
  result.  At the exact-real instance the narrowing of the operands before the product is the identity
  and the product of two blocks at (r, c) is the plain sum over the 128 inner positions, so each written
  block is the matching block of the ONE array  i ↦ ∑ₖ A(i₀, k) · W(k, i₁).  The ten row blocks tile the
  50000 rows (row r lies in block r / 5000), hence the result array is that array.
-/
import proofs.«114307_j63015760166989_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.SL.Sem
open Idealize.ShloMosaic.Pipeline (Dat)

/-! ## The index functions of a row-by-column product -/

/-- Entry (i₀, k) of the left operand: row of the result entry `i`, inner position `k`. -/
abbrev lrow3 (i : S50000x64.Idx) (k : Fin 128) : S50000x128.Idx := fun a => match a with
  | ⟨0, _⟩ => ⟨(i 0).val, (i 0).isLt⟩
  | ⟨1, _⟩ => ⟨k.val, k.isLt⟩
/-- Entry (k, i₁) of the right operand: inner position `k`, column of the result entry `i`. -/
abbrev rcol3 (i : S50000x64.Idx) (k : Fin 128) : S128x64.Idx := fun a => match a with
  | ⟨0, _⟩ => ⟨k.val, k.isLt⟩
  | ⟨1, _⟩ => ⟨(i 1).val, (i 1).isLt⟩

/-- The same two inside one step's blocks: entry (j₀, k) of the staged 5000 rows … -/
abbrev blockrow3 (j : S5000x64.Idx) (k : Fin 128) : S5000x128.Idx := fun a => match a with
  | ⟨0, _⟩ => ⟨(j 0).val, (j 0).isLt⟩
  | ⟨1, _⟩ => ⟨k.val, k.isLt⟩
/-- … and entry (k, j₁) of the staged weights. -/
abbrev blockcol3 (j : S5000x64.Idx) (k : Fin 128) : S128x64.Idx := fun a => match a with
  | ⟨0, _⟩ => ⟨k.val, k.isLt⟩
  | ⟨1, _⟩ => ⟨(j 1).val, (j 1).isLt⟩

/-- The product array: entry `i` is the sum over the inner position of row i₀ of `a0` times column i₁ of `a1`. -/
abbrev prod3 (a0 : S50000x128.Idx → EReal) (a1 : S128x64.Idx → EReal) : S50000x64.Idx → EReal :=
  fun i => ∑ k : Fin 128, a0 (lrow3 i k) * a1 (rcol3 i k)

/-- One term of that sum, with the two operand positions free. -/
abbrev term3 (a0 : S50000x128.Idx → EReal) (a1 : S128x64.Idx → EReal) (p : S50000x128.Idx) (q : S128x64.Idx) : EReal := a0 p * a1 q

theorem no_offsets3 : (![0, 0] : Fin 2 → Nat) = fun _ => 0 := funext fun a => by fin_cases a <;> rfl

/-! ## One step's product of blocks, entry by entry -/

/-- The operand positions the block product's dimension numbers name at result entry `j` and inner position `q`:
    the left one keeps the row and runs along the inner axis, the right one runs along it and keeps the column. -/
theorem left_row3 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem left_inner3 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem right_inner3 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem right_col3 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- At the exact reals the step's value at entry `j` is the sum over the inner position of the staged rows times
    the staged weights: narrowing the operands (and re-reading the left block in its own shape) changes nothing and the accumulator starts at zero. -/
theorem block_product3 (x0 : Vec Ideal S5000x128 .f32) (x1 : Vec Ideal S128x64 .f32) (j : S5000x64.Idx) :
    k4_pay1 (F := Ideal) x0 x1 j = ∑ k : Fin 128, x0 (blockrow3 j k) * x1 (blockcol3 j k) := by
  unfold k4_pay1
  refine (Ideal.matmul_constant_zero_apply dot_S5000x128_S128x64_S5000x64_1_0_0_1_n_n none
    (truncf (F := Ideal) .bf16 (shapeCast S5000x128 x0 shapeCasts_S5000x128_S5000x128) bitsLt_bf16_f32) (truncf (F := Ideal) .bf16 x1 bitsLt_bf16_f32) j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blockrow3 j k := funext fun a => Fin.ext (by
    match a with
    | ⟨0, _⟩ => exact left_row3 _ _
    | ⟨1, _⟩ => exact (left_inner3 _ _).trans hk)
  have er : dot_S5000x128_S128x64_S5000x64_1_0_0_1_n_n.rhsIdx j ((ValueIdx.contrEquiv1 dot_S5000x128_S128x64_S5000x64_1_0_0_1_n_n 128 rfl rfl).symm k) = blockcol3 j k := funext fun a => Fin.ext (by
    match a with
    | ⟨0, _⟩ => exact (right_inner3 _ _).trans hk
    | ⟨1, _⟩ => exact right_col3 _ _)
  show shapeCast S5000x128 x0 shapeCasts_S5000x128_S5000x128 _ * x1 _ = _
  rw [shapeCast_self, el, er]

/-! ## Where the steps' blocks sit -/

/-- Decided over the ten steps: the staged rows of the left operand are the rows written back, all other block
    positions are zero, and the row-block position stays below ten. -/
theorem block_positions3 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every one of the ten row blocks is written by some step. -/
theorem block_of_rows3 : ∀ q : Fin 10, ∃ t : Fin cfg4.N, win4_2.index t = ![q.val, 0] :=
  (by decide +kernel : ∀ q : Fin 10, ∃ t : Fin grid4.N, win4_2.index t = ![q.val, 0])

variable (V : (c : Dev nD) → (b : Ref sig .tc) → Buf (Elt Ideal) ((c : Thread nD τ).loc b))

/-- What step `t` writes back is its block of the product array of the two operands as the layer finds them. -/
theorem step_writes3 (c : Dev nD) (t : Fin cfg4.N) :
    (dat4 (F := Ideal) V c).flushed 2 t
      = ((cfg4.win 2).blk t).view.read (Elt Ideal) (prod3 (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero no_offsets3]
  simp only [View.ld_unit_zero (S := S5000x128) no_offsets3, View.ld_unit_zero (S := S128x64) no_offsets3]
  obtain ⟨e0, e1, e2, e3, e4, e5⟩ := block_positions3 t
  funext j
  show k4_pay1 (F := Ideal) (iblk4 V c 0 t) (iblk4 V c 1 t) j
    = prod3 (V c (Pipeline.arrRef spec4 0)) (V c (Pipeline.arrRef spec4 1)) (((cfg4.win 2).blk t).view.emb j)
  refine (block_product3 (iblk4 V c 0 t) (iblk4 V c 1 t) j).trans ?_
  refine Finset.sum_congr rfl fun k _ => ?_
  have h0 : ((cfg4.win 0).blk t).view.emb (blockrow3 j k) = lrow3 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (blockcol3 j k) = rcol3 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  show term3 (V c (Pipeline.arrRef spec4 0)) (V c (Pipeline.arrRef spec4 1))
        (((cfg4.win 0).blk t).view.emb (blockrow3 j k)) (((cfg4.win 1).blk t).view.emb (blockcol3 j k))
      = term3 (V c (Pipeline.arrRef spec4 0)) (V c (Pipeline.arrRef spec4 1))
        (lrow3 (((cfg4.win 2).blk t).view.emb j) k) (rcol3 (((cfg4.win 2).blk t).view.emb j) k)
  rw [h0, h1]

/-- A result entry lies in step `t`'s block iff each coordinate lies in the block's range on its axis. -/
theorem mem_step_block3 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v64).slice (win4_2.rect t)).set ↔ _
  rw [View.set_slice_whole, Rect.mem_set_unit]
  exact Iff.rfl

/-- The ten row blocks tile the result: row r lies in block r / 5000. -/
theorem rows_covered3 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := block_of_rows3 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_step_block3]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After the layer's ten steps the result array is the product of the two operand arrays as the layer found them. -/
theorem layer3_matmul (c : Dev nD) :
    (dat4 (F := Ideal) V c).arrAt 2 cfg4.N
      = prod3 (V c (Pipeline.arrRef spec4 0)) (V c (Pipeline.arrRef spec4 1)) :=
  (dat4 (F := Ideal) V c).arrAt_eq_of_cover 2 (prod3 (V c (Pipeline.arrRef spec4 0)) (V c (Pipeline.arrRef spec4 1)))
    (fun t _ => step_writes3 V c t) rows_covered3

end Cert.KernelIdeal.Rows

end
-- ==== Proof.Layer3BiasRelu.lean ====
import proofs.«114307_j63015760166989_1_alg».proof.Proof.Gen.KernelIdeal.Frame
import Idealize.ShloMosaic.Lib.ValueIdx
import Idealize.ShloMosaic.Lib.Pipeline.Value
import Idealize.ShloMosaic.Lib.ValueLayout

/-! Layer 3, bias and ReLU: the array the region leaves is, index by index, the maximum of zero and the
    aggregated array plus the bias row.  The body adds the one bias row to every row of its block and takes
    the maximum with zero; the ten row blocks of 5000 rows tile the 50000 rows. -/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The body's offsets, all zero. -/
theorem zero_offsets3 : (![0, 0] : Fin 2 → Nat) = fun _ => 0 := funext fun a => by fin_cases a <;> rfl

/-- The bias row's index under an index of the array: row 0, the same column. -/
abbrev brow3 (i : S50000x64.Idx) : S1x64.Idx :=
  fun a => match a with | ⟨0, _⟩ => ⟨0, Nat.one_pos⟩ | ⟨1, _⟩ => ⟨(i 1).val, (i 1).isLt⟩

/-- The body's value at row `p`, column `q` of its block: the block's element plus the bias row's element of
    that column, or zero if that is larger. -/
theorem pay3_apply (x0 : Vec Ideal S5000x64 .f32) (x1 : Vec Ideal S1x64 .f32) (p : Fin 5000) (q : Fin 64) :
    k5_pay1 (F := Ideal) x0 x1 (ix2 p q)
      = FloatOps.maximumf (FloatOps.addf (x0 (ix2 p q)) (x1 (ix2 (0 : Fin 1) q))) (FloatOps.ofBits .f32 0x00000000#32) := by
  unfold k5_pay1
  show FloatOps.maximumf (FloatOps.addf (shapeCast (α := Ideal .f32) S5000x64 x0 shapeCasts_S5000x64_S5000x64 (ix2 p q))
      (broadcastTo (α := Ideal .f32) S5000x64 (shapeCast (α := Ideal .f32) S1x64 x1 shapeCasts_S1x64_S1x64) broadcasts_S1x64_S5000x64 (ix2 p q))) _ = _
  rw [shapeCast_self, shapeCast_self, broadcastTo_1b_ab_apply]
  rfl

/-- The same at any index `y` of the block, once the two blocks' elements are known as elements `A0 i` and
    `A1 (brow3 i)` of two arrays. -/
theorem pay3_value (x0 : Vec Ideal S5000x64 .f32) (x1 : Vec Ideal S1x64 .f32)
    (A0 : S50000x64.Idx → Ideal .f32) (A1 : S1x64.Idx → Ideal .f32) (y : S5000x64.Idx) (i : S50000x64.Idx)
    (h0 : x0 y = A0 i) (h1 : x1 (ix2 (0 : Fin 1) (⟨(y 1).val, (y 1).isLt⟩ : Fin 64)) = A1 (brow3 i)) :
    k5_pay1 (F := Ideal) x0 x1 y
      = FloatOps.maximumf (FloatOps.addf (A0 i) (A1 (brow3 i))) (FloatOps.ofBits .f32 0x00000000#32) := by
  have hy : y = ix2 (⟨(y 0).val, (y 0).isLt⟩ : Fin 5000) (⟨(y 1).val, (y 1).isLt⟩ : Fin 64) := by
    funext a; match a with | ⟨0, _⟩ => rfl | ⟨1, _⟩ => rfl
  rw [← h0, ← h1]
  conv_lhs => rw [hy]
  conv_rhs => rw [hy]
  exact pay3_apply x0 x1 _ _

variable (V : (c : Dev nD) → (b : Ref sig .tc) → Buf (Elt Ideal) ((c : Thread nD τ).loc b))

/-- What the array ends holding: index by index, the aggregated array plus the bias row, or zero if larger. -/
abbrev G3 (c : Dev nD) : S50000x64.Idx → Ideal .f32 := fun i =>
  FloatOps.maximumf (FloatOps.addf ((V c (Pipeline.arrRef spec5 0) : S50000x64.Idx → Ideal .f32) i)
    ((V c (Pipeline.arrRef spec5 1) : S1x64.Idx → Ideal .f32) (brow3 i))) (FloatOps.ofBits .f32 0x00000000#32)

/-- The index maps over the ten grid points: the input rows move with the output rows, every other block index
    is zero, and the output's row-block index is at most 9. -/
theorem index_facts3 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every one of the ten row blocks is some grid point's. -/
theorem index_onto3 : ∀ q : Fin 10, ∃ t : Fin cfg5.N, win5_2.index t = ![q.val, 0] :=
  (by decide +kernel : ∀ q : Fin 10, ∃ t : Fin grid5.N, win5_2.index t = ![q.val, 0])

/-- The rows block at point `t`, at `y`, is the aggregated array at row `5000 · (block index) + y 0`, column `y 1`. -/
theorem rows_block3 (c : Dev nD) (t : Fin cfg5.N) (y : S5000x64.Idx) (i : S50000x64.Idx)
    (h0 : (i 0).val = win5_2.index t (0 : Fin 2) * 5000 + (y 0).val) (h1 : (i 1).val = (y 1).val) :
    (iblk5 V c 0 t : Vec Ideal S5000x64 .f32) y = (V c (Pipeline.arrRef spec5 0) : S50000x64.Idx → Ideal .f32) i := by
  obtain ⟨e0, e1, e2, e3, e4, e5⟩ := index_facts3 t
  unfold iblk5
  rw [View.read_apply]
  show (V c (Pipeline.arrRef spec5 0) : S50000x64.Idx → Ideal .f32) (((cfg5.win 0).blk t).view.emb y) = _
  refine congrArg _ ?_
  funext a; apply Fin.ext
  match a with
  | ⟨0, _⟩ => show win5_0.index t (0 : Fin 2) * 5000 + 1 * (y 0).val = (i 0).val; omega
  | ⟨1, _⟩ => show win5_0.index t (1 : Fin 2) * 64 + 1 * (y 1).val = (i 1).val; omega

/-- The bias block at any point is the whole bias row. -/
theorem bias_block3 (c : Dev nD) (t : Fin cfg5.N) (y : S1x64.Idx) (k : S1x64.Idx)
    (h0 : (k 0).val = (y 0).val) (h1 : (k 1).val = (y 1).val) :
    (iblk5 V c 1 t : Vec Ideal S1x64 .f32) y = (V c (Pipeline.arrRef spec5 1) : S1x64.Idx → Ideal .f32) k := by
  obtain ⟨e0, e1, e2, e3, e4, e5⟩ := index_facts3 t
  unfold iblk5
  rw [View.read_apply]
  show (V c (Pipeline.arrRef spec5 1) : S1x64.Idx → Ideal .f32) (((cfg5.win 1).blk t).view.emb y) = _
  refine congrArg _ ?_
  funext a; apply Fin.ext
  match a with
  | ⟨0, _⟩ => show win5_1.index t (0 : Fin 2) * 1 + 1 * (y 0).val = (k 0).val; omega
  | ⟨1, _⟩ => show win5_1.index t (1 : Fin 2) * 64 + 1 * (y 1).val = (k 1).val; omega

/-- What point `t` writes back is block `t` of `G3`. -/
theorem flushed3_eq (c : Dev nD) (t : Fin cfg5.N) :
    (dat5 (F := Ideal) V c).flushed 2 t = ((cfg5.win 2).blk t).view.read (Elt Ideal) (G3 V c) := by
  show (cfg5.win 2).cut (grid5.coords t) ((dat5 V c).after 2 t) = _
  rw [after5_2]
  unfold out5_2
  rw [View.canon_unit_zero zero_offsets3]
  simp only [View.ld_unit_zero (S := S5000x64) zero_offsets3, View.ld_unit_zero (S := S1x64) zero_offsets3]
  funext j
  rw [View.read_apply]
  show k5_pay1 (F := Ideal) (iblk5 V c 0 t) (iblk5 V c 1 t) ((cfg5.win 2).xinj (grid5.coords t) j)
    = G3 V c (((cfg5.win 2).blk t).view.emb j)
  refine pay3_value (iblk5 V c 0 t) (iblk5 V c 1 t) (V c (Pipeline.arrRef spec5 0)) (V c (Pipeline.arrRef spec5 1))
    ((cfg5.win 2).xinj (grid5.coords t) j) (((cfg5.win 2).blk t).view.emb j) ?_ ?_
  · refine rows_block3 V c t _ _ ?_ ?_
    · show win5_2.index t (0 : Fin 2) * 5000 + 1 * (j 0).val = win5_2.index t (0 : Fin 2) * 5000 + (j 0).val; omega
    · obtain ⟨e0, e1, e2, e3, e4, e5⟩ := index_facts3 t
      show win5_2.index t (1 : Fin 2) * 64 + 1 * (j 1).val = (j 1).val; omega
  · refine bias_block3 V c t _ _ ?_ ?_
    · rfl
    · obtain ⟨e0, e1, e2, e3, e4, e5⟩ := index_facts3 t
      show win5_2.index t (1 : Fin 2) * 64 + 1 * (j 1).val = (j 1).val; omega

/-- An index of the array is in point `t`'s block iff each coordinate is in the block's range on its axis. -/
theorem mem_block3 (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v79).slice (win5_2.rect t)).set ↔ _
  rw [View.set_slice_whole, Rect.mem_set_unit]
  exact Iff.rfl

/-- Row `r` lies in the block of the point whose row-block index is `r / 5000`: the ten blocks cover the array. -/
theorem covered3 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := index_onto3 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block3]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The array after the region: the aggregated array plus the bias row, or zero if larger, at every index. -/
theorem layer3_bias_relu (c : Dev nD) :
    (dat5 (F := Ideal) V c).arrAt 2 cfg5.N
      = (fun i => FloatOps.maximumf (FloatOps.addf ((V c (Pipeline.arrRef spec5 0) : S50000x64.Idx → Ideal .f32) i)
          ((V c (Pipeline.arrRef spec5 1) : S1x64.Idx → Ideal .f32) (brow3 i))) (FloatOps.ofBits .f32 0x00000000#32)
        : S50000x64.Idx → Ideal .f32) :=
  (dat5 (F := Ideal) V c).arrAt_eq_of_cover 2 (G3 V c) (fun t _ => flushed3_eq V c t) covered3

end Cert.KernelIdeal.Rows

end
-- ==== Proof.Layer3BiasRef.lean ====
import proofs.«114307_j63015760166989_1_alg».proof.Proof.ReferenceStages
import Idealize.ShloMosaic.Lib.ValueIdx
import Idealize.ShloMosaic.Lib.Pipeline.Value

/-! Layer 3 of the reference, bias and ReLU: its value at an index is the maximum of zero and the aggregated
    array plus the bias vector's entry of that column — the bias vector written as the one-row array the
    kernel's program reshapes it to. -/

noncomputable section

namespace Cert.ReferenceIdeal.Rows

open Cert.ReferenceIdeal Idealize.ShloMosaic

/-- The bias vector viewed as one row of 64: at `(0, q)` it reads the vector at `q`, as the broadcast to one
    row does. -/
theorem bias_row3_apply (x8 : (⟨S64, .f32⟩ : BufTy).Contents (Elt Ideal)) (h : S64.ShapeCasts S1x64) (k : S1x64.Idx) :
    shapeCast (α := Ideal .f32) S1x64 x8 h k = x8 (Read.idx_main_v138 k) :=
  shapeCast_apply (α := Ideal .f32) x8 h k (Read.idx_main_v138 k) (by
    have h0 : (k 0).val < 1 := (k 0).isLt
    rw [Shape.rowMajor_val_one, Shape.rowMajor_val_two]
    show (k 1).val = (k 0).val * 64 + (k 1).val
    omega)

/-- The reference's layer 3 after its ReLU, index by index. -/
theorem ref_layer3_bias_relu (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal))
    (h : S64.ShapeCasts S1x64) :
    Read.val_main_v141 (F := Ideal) x0 x1 x2 x3 x4 x5 x6 x7 x8
      = fun i => FloatOps.maximumf (FloatOps.addf (Read.val_main_v137 (F := Ideal) x0 x1 x2 x3 x4 x5 x6 x7 i)
          (shapeCast (α := Ideal .f32) S1x64 x8 h (Read.idx_main_v139 i))) (FloatOps.ofBits .f32 0x00000000#32) := by
  funext i
  rw [Read.val_main_v141_apply, Read.val_main_v140_apply, Read.val_main_v139_apply, Read.val_main_v138_apply,
    Read.val_main_call5_v0_apply, Read.val_main_call5_cst_apply, bias_row3_apply]

end Cert.ReferenceIdeal.Rows

end
-- ==== Proof.Boundary3.lean ====
/-
  Layer 3 of the network, followed along the kernel's chain of segments.

  On entry the layer's input array h is the reference's value of the previous layer (the node features, for the first
  layer). The matrix-product region leaves h · W, row block by row block, which is the reference's product, entry by
  entry the same sum over the contracted axis. The host stretch gathers the rows of h · W at the edges' sources, scales
  row e by the edge's normalisation n[e] and adds it into row d[e] of a zero array: the same operations, in the same
  order, of the same arrays as the reference's, so the aggregate is the reference's aggregate. The bias region adds the
  bias row to every row and takes the maximum with zero, which is the reference's add and relu read entry by entry.
  The arrays s, d, n and the arguments still to be read are written by no segment of the layer.
-/
import proofs.«114307_j63015760166989_1_alg».proof.Proof.Boundary2
import proofs.«114307_j63015760166989_1_alg».proof.Proof.Host3
import proofs.«114307_j63015760166989_1_alg».proof.Proof.Layer3Matmul
import proofs.«114307_j63015760166989_1_alg».proof.Proof.Layer3BiasRelu
import proofs.«114307_j63015760166989_1_alg».proof.Proof.Layer3BiasRef
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the matrix-product region -/
theorem at10_main_v5 : W10 m ρ c (Proc.devRef .tc main_v5) = (val_main_v5 (F := Ideal) (m ((c.tc : Thread nD τ).loc main_arg1))) :=
  (W10_of_ne m ρ c main_v5 (by decide)).trans (at9_main_v5 m ρ c)
theorem at10_main_v6 : W10 m ρ c (Proc.devRef .tc main_v6) = (val_main_v6 (F := Ideal) (m ((c.tc : Thread nD τ).loc main_arg1))) :=
  (W10_of_ne m ρ c main_v6 (by decide)).trans (at9_main_v6 m ρ c)
theorem at10_main_v31 : W10 m ρ c (Proc.devRef .tc main_v31) = (val_main_v31 (F := Ideal) (m ((c.tc : Thread nD τ).loc main_arg1)) (m ((c.tc : Thread nD τ).loc main_arg2))) :=
  (W10_of_ne m ρ c main_v31 (by decide)).trans (at9_main_v31 m ρ c)
theorem at10_main_arg8 : W10 m ρ c (Proc.devRef .tc main_arg8) = (m ((c.tc : Thread nD τ).loc main_arg8)) :=
  (W10_of_ne m ρ c main_arg8 (by decide)).trans (at9_main_arg8 m ρ c)
theorem at10_main_arg9 : W10 m ρ c (Proc.devRef .tc main_arg9) = (m ((c.tc : Thread nD τ).loc main_arg9)) :=
  (W10_of_ne m ρ c main_arg9 (by decide)).trans (at9_main_arg9 m ρ c)
theorem at10_main_arg10 : W10 m ρ c (Proc.devRef .tc main_arg10) = (m ((c.tc : Thread nD τ).loc main_arg10)) :=
  (W10_of_ne m ρ c main_arg10 (by decide)).trans (at9_main_arg10 m ρ c)
theorem at10_main_arg11 : W10 m ρ c (Proc.devRef .tc main_arg11) = (m ((c.tc : Thread nD τ).loc main_arg11)) :=
  (W10_of_ne m ρ c main_arg11 (by decide)).trans (at9_main_arg11 m ρ c)
theorem at10_main_arg12 : W10 m ρ c (Proc.devRef .tc main_arg12) = (m ((c.tc : Thread nD τ).loc main_arg12)) :=
  (W10_of_ne m ρ c main_arg12 (by decide)).trans (at9_main_arg12 m ρ c)
theorem at10_main_arg13 : W10 m ρ c (Proc.devRef .tc main_arg13) = (m ((c.tc : Thread nD τ).loc main_arg13)) :=
  (W10_of_ne m ρ c main_arg13 (by decide)).trans (at9_main_arg13 m ρ c)
theorem at10_main_arg14 : W10 m ρ c (Proc.devRef .tc main_arg14) = (m ((c.tc : Thread nD τ).loc main_arg14)) :=
  (W10_of_ne m ρ c main_arg14 (by decide)).trans (at9_main_arg14 m ρ c)
theorem at10_main_arg15 : W10 m ρ c (Proc.devRef .tc main_arg15) = (m ((c.tc : Thread nD τ).loc main_arg15)) :=
  (W10_of_ne m ρ c main_arg15 (by decide)).trans (at9_main_arg15 m ρ c)
theorem at10_main_arg16 : W10 m ρ c (Proc.devRef .tc main_arg16) = (m ((c.tc : Thread nD τ).loc main_arg16)) :=
  (W10_of_ne m ρ c main_arg16 (by decide)).trans (at9_main_arg16 m ρ c)

/-- The region's output array is the reference's product of the layer's input and its weight matrix. -/
theorem at10_main_v64 : W10 m ρ c (Proc.devRef .tc main_v64) = (val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  refine (W10_arr m ρ c 2).trans ?_
  have hX : V9 m ρ c (Pipeline.arrRef spec4 0) = (val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := at9_main_v63 m ρ c
  have hW : V9 m ρ c (Pipeline.arrRef spec4 1) = (m ((c.tc : Thread nD τ).loc main_arg7)) := at9_main_arg7 m ρ c
  rw [layer3_matmul (V9 m ρ) c, hX, hW]
  funext i
  exact (val_main_v124_apply _ _ _ _ _ _ _ _ i).symm

/-! ## After the host stretch -/
theorem at11_main_v5 : W11 m ρ c (Proc.devRef .tc main_v5) = (val_main_v5 (F := Ideal) (m ((c.tc : Thread nD τ).loc main_arg1))) :=
  (StableHlo.after_of_forall_not_mem (b := Proc.devRef .tc main_v5) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_v5 m ρ c)
theorem at11_main_v6 : W11 m ρ c (Proc.devRef .tc main_v6) = (val_main_v6 (F := Ideal) (m ((c.tc : Thread nD τ).loc main_arg1))) :=
  (StableHlo.after_of_forall_not_mem (b := Proc.devRef .tc main_v6) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_v6 m ρ c)
theorem at11_main_v31 : W11 m ρ c (Proc.devRef .tc main_v31) = (val_main_v31 (F := Ideal) (m ((c.tc : Thread nD τ).loc main_arg1)) (m ((c.tc : Thread nD τ).loc main_arg2))) :=
  (StableHlo.after_of_forall_not_mem (b := Proc.devRef .tc main_v31) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_v31 m ρ c)
theorem at11_main_arg8 : W11 m ρ c (Proc.devRef .tc main_arg8) = (m ((c.tc : Thread nD τ).loc main_arg8)) :=
  (StableHlo.after_of_forall_not_mem (b := Proc.devRef .tc main_arg8) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg8 m ρ c)
theorem at11_main_arg9 : W11 m ρ c (Proc.devRef .tc main_arg9) = (m ((c.tc : Thread nD τ).loc main_arg9)) :=
  (StableHlo.after_of_forall_not_mem (b := Proc.devRef .tc main_arg9) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg9 m ρ c)
theorem at11_main_arg10 : W11 m ρ c (Proc.devRef .tc main_arg10) = (m ((c.tc : Thread nD τ).loc main_arg10)) :=
  (StableHlo.after_of_forall_not_mem (b := Proc.devRef .tc main_arg10) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg10 m ρ c)
theorem at11_main_arg11 : W11 m ρ c (Proc.devRef .tc main_arg11) = (m ((c.tc : Thread nD τ).loc main_arg11)) :=
  (StableHlo.after_of_forall_not_mem (b := Proc.devRef .tc main_arg11) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg11 m ρ c)
theorem at11_main_arg12 : W11 m ρ c (Proc.devRef .tc main_arg12) = (m ((c.tc : Thread nD τ).loc main_arg12)) :=
  (StableHlo.after_of_forall_not_mem (b := Proc.devRef .tc main_arg12) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg12 m ρ c)
theorem at11_main_arg13 : W11 m ρ c (Proc.devRef .tc main_arg13) = (m ((c.tc : Thread nD τ).loc main_arg13)) :=
  (StableHlo.after_of_forall_not_mem (b := Proc.devRef .tc main_arg13) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg13 m ρ c)
theorem at11_main_arg14 : W11 m ρ c (Proc.devRef .tc main_arg14) = (m ((c.tc : Thread nD τ).loc main_arg14)) :=
  (StableHlo.after_of_forall_not_mem (b := Proc.devRef .tc main_arg14) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg14 m ρ c)
theorem at11_main_arg15 : W11 m ρ c (Proc.devRef .tc main_arg15) = (m ((c.tc : Thread nD τ).loc main_arg15)) :=
  (StableHlo.after_of_forall_not_mem (b := Proc.devRef .tc main_arg15) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg15 m ρ c)
theorem at11_main_arg16 : W11 m ρ c (Proc.devRef .tc main_arg16) = (m ((c.tc : Thread nD τ).loc main_arg16)) :=
  (StableHlo.after_of_forall_not_mem (b := Proc.devRef .tc main_arg16) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at10_main_arg16 m ρ c)

/-- The aggregate: the host's gather, scaling and scatter-add of the product, the same operations as the reference's. -/
theorem at11_main_v77 : W11 m ρ c (Proc.devRef .tc main_v77) = (val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (host_agg3 (W10 m ρ c) _ _ _ (at10_main_v64 m ρ c) (at10_main_v5 m ρ c) (at10_main_v6 m ρ c) (at10_main_v31 m ρ c)).trans
    (ref_agg3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

/-- The bias, reshaped to one row. -/
theorem at11_main_v78 : W11 m ρ c (Proc.devRef .tc main_v78) = (shapeCast S1x64 (m ((c.tc : Thread nD τ).loc main_arg8)) shapeCasts_S64_S1x64) :=
  host_bias_row3 (W10 m ρ c) _ (at10_main_arg8 m ρ c)

/-! ## After the bias region -/
theorem at12_main_v5 : W12 m ρ c (Proc.devRef .tc main_v5) = (val_main_v5 (F := Ideal) (m ((c.tc : Thread nD τ).loc main_arg1))) :=
  (W12_of_ne m ρ c main_v5 (by decide)).trans (at11_main_v5 m ρ c)
theorem at12_main_v6 : W12 m ρ c (Proc.devRef .tc main_v6) = (val_main_v6 (F := Ideal) (m ((c.tc : Thread nD τ).loc main_arg1))) :=
  (W12_of_ne m ρ c main_v6 (by decide)).trans (at11_main_v6 m ρ c)
theorem at12_main_v31 : W12 m ρ c (Proc.devRef .tc main_v31) = (val_main_v31 (F := Ideal) (m ((c.tc : Thread nD τ).loc main_arg1)) (m ((c.tc : Thread nD τ).loc main_arg2))) :=
  (W12_of_ne m ρ c main_v31 (by decide)).trans (at11_main_v31 m ρ c)
theorem at12_main_arg9 : W12 m ρ c (Proc.devRef .tc main_arg9) = (m ((c.tc : Thread nD τ).loc main_arg9)) :=
  (W12_of_ne m ρ c main_arg9 (by decide)).trans (at11_main_arg9 m ρ c)
theorem at12_main_arg10 : W12 m ρ c (Proc.devRef .tc main_arg10) = (m ((c.tc : Thread nD τ).loc main_arg10)) :=
  (W12_of_ne m ρ c main_arg10 (by decide)).trans (at11_main_arg10 m ρ c)
theorem at12_main_arg11 : W12 m ρ c (Proc.devRef .tc main_arg11) = (m ((c.tc : Thread nD τ).loc main_arg11)) :=
  (W12_of_ne m ρ c main_arg11 (by decide)).trans (at11_main_arg11 m ρ c)
theorem at12_main_arg12 : W12 m ρ c (Proc.devRef .tc main_arg12) = (m ((c.tc : Thread nD τ).loc main_arg12)) :=
  (W12_of_ne m ρ c main_arg12 (by decide)).trans (at11_main_arg12 m ρ c)
theorem at12_main_arg13 : W12 m ρ c (Proc.devRef .tc main_arg13) = (m ((c.tc : Thread nD τ).loc main_arg13)) :=
  (W12_of_ne m ρ c main_arg13 (by decide)).trans (at11_main_arg13 m ρ c)
theorem at12_main_arg14 : W12 m ρ c (Proc.devRef .tc main_arg14) = (m ((c.tc : Thread nD τ).loc main_arg14)) :=
  (W12_of_ne m ρ c main_arg14 (by decide)).trans (at11_main_arg14 m ρ c)
theorem at12_main_arg15 : W12 m ρ c (Proc.devRef .tc main_arg15) = (m ((c.tc : Thread nD τ).loc main_arg15)) :=
  (W12_of_ne m ρ c main_arg15 (by decide)).trans (at11_main_arg15 m ρ c)
theorem at12_main_arg16 : W12 m ρ c (Proc.devRef .tc main_arg16) = (m ((c.tc : Thread nD τ).loc main_arg16)) :=
  (W12_of_ne m ρ c main_arg16 (by decide)).trans (at11_main_arg16 m ρ c)

/-- The layer's output array is the reference's value of the layer. -/
theorem at12_main_v79 : W12 m ρ c (Proc.devRef .tc main_v79) = (val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (W12_arr m ρ c 2).trans ?_
  have hA : V11 m ρ c (Pipeline.arrRef spec5 0) = (val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := at11_main_v77 m ρ c
  have hB : V11 m ρ c (Pipeline.arrRef spec5 1) = (shapeCast S1x64 (m ((c.tc : Thread nD τ).loc main_arg8)) shapeCasts_S64_S1x64) := at11_main_v78 m ρ c
  rw [layer3_bias_relu (V11 m ρ) c, hA, hB]
  exact (Cert.ReferenceIdeal.Rows.ref_layer3_bias_relu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) shapeCasts_S64_S1x64).symm

end Cert.KernelIdeal.Rows

end
-- ==== Proof.Host4.lean ====
/-
  Layer 4's host stretch, at any float instance.

  Between the matrix-product region and the bias region the host gathers the rows of the product at the edges'
  sources (an index below zero wraps round by the number of nodes), scales row e by the edge's normalisation and adds it
  into row d[e] of a zero array; it also reshapes the bias to one row. The aggregate is therefore one function of the
  product, the edge list and the edge weights. The reference's aggregate stage is that function of its own product
  stage, and the kernel's stretch computes it from whatever contents it is entered with, provided the product buffer
  and the three shared arrays s, d, n hold what they should. Nothing here depends on what a float is.
-/
import proofs.«114307_j63015760166989_1_alg».proof.Proof.Gen.KernelIdeal.Launch
import proofs.«114307_j63015760166989_1_alg».proof.Proof.ReferenceStages
import Idealize.ShloMosaic.Lib.StableHlo.Run

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The layer's aggregate as a function of the product `xw`, the edge list `x1` and the edge weights `x2`. -/
def agg4 (xw : (⟨Cert.ReferenceIdeal.S50000x64, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x64, .f32⟩ : BufTy).Contents (Elt F) :=
  Host.scatterAdd Cert.ReferenceIdeal.scatter_S50000x64_S850000x1_S850000x64_1_0_0_1 (val_main_v181 (F := F)) (val_main_v182 (F := F) x1)
    (mulf (Host.gather Cert.ReferenceIdeal.gather_S50000x64_S850000x1_S850000x64_1_0_n_n_0_1_164 xw (val_main_v176 (F := F) x1)) (val_main_v179 (F := F) x1 x2))

/-- The reference's aggregate stage is that function of its product stage. -/
theorem ref_agg4 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) (x3 : (⟨Cert.ReferenceIdeal.S128x256, .f32⟩ : BufTy).Contents (Elt F)) (x4 : (⟨Cert.ReferenceIdeal.S256, .f32⟩ : BufTy).Contents (Elt F)) (x5 : (⟨Cert.ReferenceIdeal.S256x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) :
    val_main_v183 (F := F) x0 x1 x2 x3 x4 x5 x6 x7 x8 x9 = agg4 (val_main_v170 (F := F) x0 x1 x2 x3 x4 x5 x6 x7 x8 x9) x1 x2 := rfl

/-- The kernel's stretch, entered with the product in its buffer and s, d, n in theirs, leaves the aggregate. -/
theorem host_agg4 (V : Valuation τ sig (Elt F)) (xw : (⟨Cert.ReferenceIdeal.S50000x64, .f32⟩ : BufTy).Contents (Elt F)) (x1 : (⟨Cert.ReferenceIdeal.S2x800000, .i32⟩ : BufTy).Contents (Elt F)) (x2 : (⟨Cert.ReferenceIdeal.S800000, .f32⟩ : BufTy).Contents (Elt F))
    (hxw : V (Proc.devRef .tc main_v80) = xw) (h5 : V (Proc.devRef .tc main_v5) = val_main_v5 (F := F) x1)
    (h6 : V (Proc.devRef .tc main_v6) = val_main_v6 (F := F) x1) (h31 : V (Proc.devRef .tc main_v31) = val_main_v31 (F := F) x1 x2) :
    StableHlo.after hostOps7 V (Proc.devRef .tc main_v93) = agg4 xw x1 x2 := by
  dsimp only [hostOps7]
  after_results_simp
  rw [hxw, h5, h6, h31]
  rfl

/-- The same stretch leaves the bias reshaped to one row. -/
theorem host_bias_row4 (V : Valuation τ sig (Elt F)) (b : (⟨Cert.ReferenceIdeal.S64, .f32⟩ : BufTy).Contents (Elt F)) (hb : V (Proc.devRef .tc main_arg10) = b) :
    StableHlo.after hostOps7 V (Proc.devRef .tc main_v94) = shapeCast S1x64 b shapeCasts_S64_S1x64 := by
  dsimp only [hostOps7]
  after_results_simp
  exact congrArg (fun x => shapeCast S1x64 x shapeCasts_S64_S1x64) hb

end Cert.KernelIdeal.Rows

end
-- ==== Proof.Layer4Matmul.lean ====
/-
  The fourth dense layer's product, read off the pipelined kernel.

  The kernel multiplies the activations A of the layer before (50000 × 64) by the layer's weight matrix W (64 × 64) in ten steps:
  step t stages rows 5000·t … 5000·t + 4999 of the left operand and the whole of W, forms the 5000 × 64
  product of the two staged blocks into a zero accumulator, and writes it back as the same rows of the
  result.  At the exact-real instance the narrowing of the operands before the product is the identity
  and the product of two blocks at (r, c) is the plain sum over the 64 inner positions, so each written
  block is the matching block of the ONE array  i ↦ ∑ₖ A(i₀, k) · W(k, i₁).  The ten row blocks tile the
  50000 rows (row r lies in block r / 5000), hence the result array is that array.
-/
import proofs.«114307_j63015760166989_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.SL.Sem
open Idealize.ShloMosaic.Pipeline (Dat)

/-! ## The index functions of a row-by-column product -/

/-- Entry (i₀, k) of the left operand: row of the result entry `i`, inner position `k`. -/
abbrev lrow4 (i : S50000x64.Idx) (k : Fin 64) : S50000x64.Idx := fun a => match a with
  | ⟨0, _⟩ => ⟨(i 0).val, (i 0).isLt⟩
  | ⟨1, _⟩ => ⟨k.val, k.isLt⟩
/-- Entry (k, i₁) of the right operand: inner position `k`, column of the result entry `i`. -/
abbrev rcol4 (i : S50000x64.Idx) (k : Fin 64) : S64x64.Idx := fun a => match a with
  | ⟨0, _⟩ => ⟨k.val, k.isLt⟩
  | ⟨1, _⟩ => ⟨(i 1).val, (i 1).isLt⟩

/-- The same two inside one step's blocks: entry (j₀, k) of the staged 5000 rows … -/
abbrev blockrow4 (j : S5000x64.Idx) (k : Fin 64) : S5000x64.Idx := fun a => match a with
  | ⟨0, _⟩ => ⟨(j 0).val, (j 0).isLt⟩
  | ⟨1, _⟩ => ⟨k.val, k.isLt⟩
/-- … and entry (k, j₁) of the staged weights. -/
abbrev blockcol4 (j : S5000x64.Idx) (k : Fin 64) : S64x64.Idx := fun a => match a with
  | ⟨0, _⟩ => ⟨k.val, k.isLt⟩
  | ⟨1, _⟩ => ⟨(j 1).val, (j 1).isLt⟩

/-- The product array: entry `i` is the sum over the inner position of row i₀ of `a0` times column i₁ of `a1`. -/
abbrev prod4 (a0 : S50000x64.Idx → EReal) (a1 : S64x64.Idx → EReal) : S50000x64.Idx → EReal :=
  fun i => ∑ k : Fin 64, a0 (lrow4 i k) * a1 (rcol4 i k)

/-- One term of that sum, with the two operand positions free. -/
abbrev term4 (a0 : S50000x64.Idx → EReal) (a1 : S64x64.Idx → EReal) (p : S50000x64.Idx) (q : S64x64.Idx) : EReal := a0 p * a1 q

theorem no_offsets4 : (![0, 0] : Fin 2 → Nat) = fun _ => 0 := funext fun a => by fin_cases a <;> rfl

/-! ## One step's product of blocks, entry by entry -/

/-- The operand positions the block product's dimension numbers name at result entry `j` and inner position `q`:
    the left one keeps the row and runs along the inner axis, the right one runs along it and keeps the column. -/
theorem left_row4 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem left_inner4 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem right_inner4 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem right_col4 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- At the exact reals the step's value at entry `j` is the sum over the inner position of the staged rows times
    the staged weights: narrowing the operands (and re-reading the left block in its own shape) changes nothing and the accumulator starts at zero. -/
theorem block_product4 (x0 : Vec Ideal S5000x64 .f32) (x1 : Vec Ideal S64x64 .f32) (j : S5000x64.Idx) :
    k6_pay1 (F := Ideal) x0 x1 j = ∑ k : Fin 64, x0 (blockrow4 j k) * x1 (blockcol4 j k) := by
  unfold k6_pay1
  refine (Ideal.matmul_constant_zero_apply dot_S5000x64_S64x64_S5000x64_1_0_0_1_n_n none
    (truncf (F := Ideal) .bf16 (shapeCast S5000x64 x0 shapeCasts_S5000x64_S5000x64) bitsLt_bf16_f32) (truncf (F := Ideal) .bf16 x1 bitsLt_bf16_f32) j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = blockrow4 j k := funext fun a => Fin.ext (by
    match a with
    | ⟨0, _⟩ => exact left_row4 _ _
    | ⟨1, _⟩ => exact (left_inner4 _ _).trans hk)
  have er : dot_S5000x64_S64x64_S5000x64_1_0_0_1_n_n.rhsIdx j ((ValueIdx.contrEquiv1 dot_S5000x64_S64x64_S5000x64_1_0_0_1_n_n 64 rfl rfl).symm k) = blockcol4 j k := funext fun a => Fin.ext (by
    match a with
    | ⟨0, _⟩ => exact (right_inner4 _ _).trans hk
    | ⟨1, _⟩ => exact right_col4 _ _)
  show shapeCast S5000x64 x0 shapeCasts_S5000x64_S5000x64 _ * x1 _ = _
  rw [shapeCast_self, el, er]

/-! ## Where the steps' blocks sit -/

/-- Decided over the ten steps: the staged rows of the left operand are the rows written back, all other block
    positions are zero, and the row-block position stays below ten. -/
theorem block_positions4 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 9 :=
  (by decide +kernel : ∀ t : Fin grid6.N, _)

/-- Every one of the ten row blocks is written by some step. -/
theorem block_of_rows4 : ∀ q : Fin 10, ∃ t : Fin cfg6.N, win6_2.index t = ![q.val, 0] :=
  (by decide +kernel : ∀ q : Fin 10, ∃ t : Fin grid6.N, win6_2.index t = ![q.val, 0])

variable (V : (c : Dev nD) → (b : Ref sig .tc) → Buf (Elt Ideal) ((c : Thread nD τ).loc b))

/-- What step `t` writes back is its block of the product array of the two operands as the layer finds them. -/
theorem step_writes4 (c : Dev nD) (t : Fin cfg6.N) :
    (dat6 (F := Ideal) V c).flushed 2 t
      = ((cfg6.win 2).blk t).view.read (Elt Ideal) (prod4 (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero no_offsets4]
  simp only [View.ld_unit_zero (S := S5000x64) no_offsets4, View.ld_unit_zero (S := S64x64) no_offsets4]
  obtain ⟨e0, e1, e2, e3, e4, e5⟩ := block_positions4 t
  funext j
  show k6_pay1 (F := Ideal) (iblk6 V c 0 t) (iblk6 V c 1 t) j
    = prod4 (V c (Pipeline.arrRef spec6 0)) (V c (Pipeline.arrRef spec6 1)) (((cfg6.win 2).blk t).view.emb j)
  refine (block_product4 (iblk6 V c 0 t) (iblk6 V c 1 t) j).trans ?_
  refine Finset.sum_congr rfl fun k _ => ?_
  have h0 : ((cfg6.win 0).blk t).view.emb (blockrow4 j k) = lrow4 (((cfg6.win 2).blk t).view.emb j) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 64 + 1 * k.val = k.val; omega
  have h1 : ((cfg6.win 1).blk t).view.emb (blockcol4 j k) = rcol4 (((cfg6.win 2).blk t).view.emb j) k := by
    funext a; apply Fin.ext
    match a with
    | ⟨0, _⟩ => show win6_1.index t (0 : Fin 2) * 64 + 1 * k.val = k.val; omega
    | ⟨1, _⟩ => show win6_1.index t (1 : Fin 2) * 64 + 1 * (j 1).val = win6_2.index t (1 : Fin 2) * 64 + 1 * (j 1).val; omega
  show term4 (V c (Pipeline.arrRef spec6 0)) (V c (Pipeline.arrRef spec6 1))
        (((cfg6.win 0).blk t).view.emb (blockrow4 j k)) (((cfg6.win 1).blk t).view.emb (blockcol4 j k))
      = term4 (V c (Pipeline.arrRef spec6 0)) (V c (Pipeline.arrRef spec6 1))
        (lrow4 (((cfg6.win 2).blk t).view.emb j) k) (rcol4 (((cfg6.win 2).blk t).view.emb j) k)
  rw [h0, h1]

/-- A result entry lies in step `t`'s block iff each coordinate lies in the block's range on its axis. -/
theorem mem_step_block4 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v80).slice (win6_2.rect t)).set ↔ _
  rw [View.set_slice_whole, Rect.mem_set_unit]
  exact Iff.rfl

/-- The ten row blocks tile the result: row r lies in block r / 5000. -/
theorem rows_covered4 (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := block_of_rows4 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_step_block4]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- After the layer's ten steps the result array is the product of the two operand arrays as the layer found them. -/
theorem layer4_matmul (c : Dev nD) :
    (dat6 (F := Ideal) V c).arrAt 2 cfg6.N
      = prod4 (V c (Pipeline.arrRef spec6 0)) (V c (Pipeline.arrRef spec6 1)) :=
  (dat6 (F := Ideal) V c).arrAt_eq_of_cover 2 (prod4 (V c (Pipeline.arrRef spec6 0)) (V c (Pipeline.arrRef spec6 1)))
    (fun t _ => step_writes4 V c t) rows_covered4

end Cert.KernelIdeal.Rows

end
-- ==== Proof.Layer4BiasRelu.lean ====
import proofs.«114307_j63015760166989_1_alg».proof.Proof.Gen.KernelIdeal.Frame
import Idealize.ShloMosaic.Lib.ValueIdx
import Idealize.ShloMosaic.Lib.Pipeline.Value
import Idealize.ShloMosaic.Lib.ValueLayout

/-! Layer 4, bias and ReLU: the array the region leaves is, index by index, the maximum of zero and the
    aggregated array plus the bias row.  The body adds the one bias row to every row of its block and takes
    the maximum with zero; the ten row blocks of 5000 rows tile the 50000 rows. -/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The body's offsets, all zero. -/
theorem zero_offsets4 : (![0, 0] : Fin 2 → Nat) = fun _ => 0 := funext fun a => by fin_cases a <;> rfl

/-- The bias row's index under an index of the array: row 0, the same column. -/
abbrev brow4 (i : S50000x64.Idx) : S1x64.Idx :=
  fun a => match a with | ⟨0, _⟩ => ⟨0, Nat.one_pos⟩ | ⟨1, _⟩ => ⟨(i 1).val, (i 1).isLt⟩

/-- The body's value at row `p`, column `q` of its block: the block's element plus the bias row's element of
    that column, or zero if that is larger. -/
theorem pay4_apply (x0 : Vec Ideal S5000x64 .f32) (x1 : Vec Ideal S1x64 .f32) (p : Fin 5000) (q : Fin 64) :
    k7_pay1 (F := Ideal) x0 x1 (ix2 p q)
      = FloatOps.maximumf (FloatOps.addf (x0 (ix2 p q)) (x1 (ix2 (0 : Fin 1) q))) (FloatOps.ofBits .f32 0x00000000#32) := by
  unfold k7_pay1
  show FloatOps.maximumf (FloatOps.addf (shapeCast (α := Ideal .f32) S5000x64 x0 shapeCasts_S5000x64_S5000x64 (ix2 p q))
      (broadcastTo (α := Ideal .f32) S5000x64 (shapeCast (α := Ideal .f32) S1x64 x1 shapeCasts_S1x64_S1x64) broadcasts_S1x64_S5000x64 (ix2 p q))) _ = _
  rw [shapeCast_self, shapeCast_self, broadcastTo_1b_ab_apply]
  rfl

/-- The same at any index `y` of the block, once the two blocks' elements are known as elements `A0 i` and
    `A1 (brow4 i)` of two arrays. -/
theorem pay4_value (x0 : Vec Ideal S5000x64 .f32) (x1 : Vec Ideal S1x64 .f32)
    (A0 : S50000x64.Idx → Ideal .f32) (A1 : S1x64.Idx → Ideal .f32) (y : S5000x64.Idx) (i : S50000x64.Idx)
    (h0 : x0 y = A0 i) (h1 : x1 (ix2 (0 : Fin 1) (⟨(y 1).val, (y 1).isLt⟩ : Fin 64)) = A1 (brow4 i)) :
    k7_pay1 (F := Ideal) x0 x1 y
      = FloatOps.maximumf (FloatOps.addf (A0 i) (A1 (brow4 i))) (FloatOps.ofBits .f32 0x00000000#32) := by
  have hy : y = ix2 (⟨(y 0).val, (y 0).isLt⟩ : Fin 5000) (⟨(y 1).val, (y 1).isLt⟩ : Fin 64) := by
    funext a; match a with | ⟨0, _⟩ => rfl | ⟨1, _⟩ => rfl
  rw [← h0, ← h1]
  conv_lhs => rw [hy]
  conv_rhs => rw [hy]
  exact pay4_apply x0 x1 _ _

variable (V : (c : Dev nD) → (b : Ref sig .tc) → Buf (Elt Ideal) ((c : Thread nD τ).loc b))

/-- What the array ends holding: index by index, the aggregated array plus the bias row, or zero if larger. -/
abbrev G4 (c : Dev nD) : S50000x64.Idx → Ideal .f32 := fun i =>
  FloatOps.maximumf (FloatOps.addf ((V c (Pipeline.arrRef spec7 0) : S50000x64.Idx → Ideal .f32) i)
    ((V c (Pipeline.arrRef spec7 1) : S1x64.Idx → Ideal .f32) (brow4 i))) (FloatOps.ofBits .f32 0x00000000#32)

/-- The index maps over the ten grid points: the input rows move with the output rows, every other block index
    is zero, and the output's row-block index is at most 9. -/
theorem index_facts4 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0
    ∧ win7_2.index t (0 : Fin 2) ≤ 9 :=
  (by decide +kernel : ∀ t : Fin grid7.N, _)

/-- Every one of the ten row blocks is some grid point's. -/
theorem index_onto4 : ∀ q : Fin 10, ∃ t : Fin cfg7.N, win7_2.index t = ![q.val, 0] :=
  (by decide +kernel : ∀ q : Fin 10, ∃ t : Fin grid7.N, win7_2.index t = ![q.val, 0])

/-- The rows block at point `t`, at `y`, is the aggregated array at row `5000 · (block index) + y 0`, column `y 1`. -/
theorem rows_block4 (c : Dev nD) (t : Fin cfg7.N) (y : S5000x64.Idx) (i : S50000x64.Idx)
    (h0 : (i 0).val = win7_2.index t (0 : Fin 2) * 5000 + (y 0).val) (h1 : (i 1).val = (y 1).val) :
    (iblk7 V c 0 t : Vec Ideal S5000x64 .f32) y = (V c (Pipeline.arrRef spec7 0) : S50000x64.Idx → Ideal .f32) i := by
  obtain ⟨e0, e1, e2, e3, e4, e5⟩ := index_facts4 t
  unfold iblk7
  rw [View.read_apply]
  show (V c (Pipeline.arrRef spec7 0) : S50000x64.Idx → Ideal .f32) (((cfg7.win 0).blk t).view.emb y) = _
  refine congrArg _ ?_
  funext a; apply Fin.ext
  match a with
  | ⟨0, _⟩ => show win7_0.index t (0 : Fin 2) * 5000 + 1 * (y 0).val = (i 0).val; omega
  | ⟨1, _⟩ => show win7_0.index t (1 : Fin 2) * 64 + 1 * (y 1).val = (i 1).val; omega

/-- The bias block at any point is the whole bias row. -/
theorem bias_block4 (c : Dev nD) (t : Fin cfg7.N) (y : S1x64.Idx) (k : S1x64.Idx)
    (h0 : (k 0).val = (y 0).val) (h1 : (k 1).val = (y 1).val) :
    (iblk7 V c 1 t : Vec Ideal S1x64 .f32) y = (V c (Pipeline.arrRef spec7 1) : S1x64.Idx → Ideal .f32) k := by
  obtain ⟨e0, e1, e2, e3, e4, e5⟩ := index_facts4 t
  unfold iblk7
  rw [View.read_apply]
  show (V c (Pipeline.arrRef spec7 1) : S1x64.Idx → Ideal .f32) (((cfg7.win 1).blk t).view.emb y) = _
  refine congrArg _ ?_
  funext a; apply Fin.ext
  match a with
  | ⟨0, _⟩ => show win7_1.index t (0 : Fin 2) * 1 + 1 * (y 0).val = (k 0).val; omega
  | ⟨1, _⟩ => show win7_1.index t (1 : Fin 2) * 64 + 1 * (y 1).val = (k 1).val; omega

/-- What point `t` writes back is block `t` of `G4`. -/
theorem flushed4_eq (c : Dev nD) (t : Fin cfg7.N) :
    (dat7 (F := Ideal) V c).flushed 2 t = ((cfg7.win 2).blk t).view.read (Elt Ideal) (G4 V c) := by
  show (cfg7.win 2).cut (grid7.coords t) ((dat7 V c).after 2 t) = _
  rw [after7_2]
  unfold out7_2
  rw [View.canon_unit_zero zero_offsets4]
  simp only [View.ld_unit_zero (S := S5000x64) zero_offsets4, View.ld_unit_zero (S := S1x64) zero_offsets4]
  funext j
  rw [View.read_apply]
  show k7_pay1 (F := Ideal) (iblk7 V c 0 t) (iblk7 V c 1 t) ((cfg7.win 2).xinj (grid7.coords t) j)
    = G4 V c (((cfg7.win 2).blk t).view.emb j)
  refine pay4_value (iblk7 V c 0 t) (iblk7 V c 1 t) (V c (Pipeline.arrRef spec7 0)) (V c (Pipeline.arrRef spec7 1))
    ((cfg7.win 2).xinj (grid7.coords t) j) (((cfg7.win 2).blk t).view.emb j) ?_ ?_
  · refine rows_block4 V c t _ _ ?_ ?_
    · show win7_2.index t (0 : Fin 2) * 5000 + 1 * (j 0).val = win7_2.index t (0 : Fin 2) * 5000 + (j 0).val; omega
    · obtain ⟨e0, e1, e2, e3, e4, e5⟩ := index_facts4 t
      show win7_2.index t (1 : Fin 2) * 64 + 1 * (j 1).val = (j 1).val; omega
  · refine bias_block4 V c t _ _ ?_ ?_
    · rfl
    · obtain ⟨e0, e1, e2, e3, e4, e5⟩ := index_facts4 t
      show win7_2.index t (1 : Fin 2) * 64 + 1 * (j 1).val = (j 1).val; omega

/-- An index of the array is in point `t`'s block iff each coordinate is in the block's range on its axis. -/
theorem mem_block4 (t : Fin cfg7.N) (i : S50000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v95).slice (win7_2.rect t)).set ↔ _
  rw [View.set_slice_whole, Rect.mem_set_unit]
  exact Iff.rfl

/-- Row `r` lies in the block of the point whose row-block index is `r / 5000`: the ten blocks cover the array. -/
theorem covered4 (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  obtain ⟨t, ht⟩ := index_onto4 ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_block4]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- The array after the region: the aggregated array plus the bias row, or zero if larger, at every index. -/
theorem layer4_bias_relu (c : Dev nD) :
    (dat7 (F := Ideal) V c).arrAt 2 cfg7.N
      = (fun i => FloatOps.maximumf (FloatOps.addf ((V c (Pipeline.arrRef spec7 0) : S50000x64.Idx → Ideal .f32) i)
          ((V c (Pipeline.arrRef spec7 1) : S1x64.Idx → Ideal .f32) (brow4 i))) (FloatOps.ofBits .f32 0x00000000#32)
        : S50000x64.Idx → Ideal .f32) :=
  (dat7 (F := Ideal) V c).arrAt_eq_of_cover 2 (G4 V c) (fun t _ => flushed4_eq V c t) covered4

end Cert.KernelIdeal.Rows

end
-- ==== Proof.Layer4BiasRef.lean ====
import proofs.«114307_j63015760166989_1_alg».proof.Proof.ReferenceStages
import Idealize.ShloMosaic.Lib.ValueIdx
import Idealize.ShloMosaic.Lib.Pipeline.Value

/-! Layer 4 of the reference, bias and ReLU: its value at an index is the maximum of zero and the aggregated
    array plus the bias vector's entry of that column — the bias vector written as the one-row array the
    kernel's program reshapes it to. -/

noncomputable section

namespace Cert.ReferenceIdeal.Rows

open Cert.ReferenceIdeal Idealize.ShloMosaic

/-- The bias vector viewed as one row of 64: at `(0, q)` it reads the vector at `q`, as the broadcast to one
    row does. -/
theorem bias_row4_apply (x10 : (⟨S64, .f32⟩ : BufTy).Contents (Elt Ideal)) (h : S64.ShapeCasts S1x64) (k : S1x64.Idx) :
    shapeCast (α := Ideal .f32) S1x64 x10 h k = x10 (Read.idx_main_v184 k) :=
  shapeCast_apply (α := Ideal .f32) x10 h k (Read.idx_main_v184 k) (by
    have h0 : (k 0).val < 1 := (k 0).isLt
    rw [Shape.rowMajor_val_one, Shape.rowMajor_val_two]
    show (k 1).val = (k 0).val * 64 + (k 1).val
    omega)

/-- The reference's layer 4 after its ReLU, index by index. -/
theorem ref_layer4_bias_relu (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal))
    (h : S64.ShapeCasts S1x64) :
    Read.val_main_v187 (F := Ideal) x0 x1 x2 x3 x4 x5 x6 x7 x8 x9 x10
      = fun i => FloatOps.maximumf (FloatOps.addf (Read.val_main_v183 (F := Ideal) x0 x1 x2 x3 x4 x5 x6 x7 x8 x9 i)
          (shapeCast (α := Ideal .f32) S1x64 x10 h (Read.idx_main_v185 i))) (FloatOps.ofBits .f32 0x00000000#32) := by
  funext i
  rw [Read.val_main_v187_apply, Read.val_main_v186_apply, Read.val_main_v185_apply, Read.val_main_v184_apply,
    Read.val_main_call7_v0_apply, Read.val_main_call7_cst_apply, bias_row4_apply]

end Cert.ReferenceIdeal.Rows

end
-- ==== Proof.Boundary4.lean ====
/-
  Layer 4 of the network, followed along the kernel's chain of segments.

  On entry the layer's input array h is the reference's value of the previous layer (the node features, for the first
  layer). The matrix-product region leaves h · W, row block by row block, which is the reference's product, entry by
  entry the same sum over the contracted axis. The host stretch gathers the rows of h · W at the edges' sources, scales
  row e by the edge's normalisation n[e] and adds it into row d[e] of a zero array: the same operations, in the same
  order, of the same arrays as the reference's, so the aggregate is the reference's aggregate. The bias region adds the
  bias row to every row and takes the maximum with zero, which is the reference's add and relu read entry by entry.
  The arrays s, d, n and the arguments still to be read are written by no segment of the layer.
-/
import proofs.«114307_j63015760166989_1_alg».proof.Proof.Boundary3
import proofs.«114307_j63015760166989_1_alg».proof.Proof.Host4
import proofs.«114307_j63015760166989_1_alg».proof.Proof.Layer4Matmul
import proofs.«114307_j63015760166989_1_alg».proof.Proof.Layer4BiasRelu
import proofs.«114307_j63015760166989_1_alg».proof.Proof.Layer4BiasRef
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the matrix-product region -/
theorem at13_main_v5 : W13 m ρ c (Proc.devRef .tc main_v5) = (val_main_v5 (F := Ideal) (m ((c.tc : Thread nD τ).loc main_arg1))) :=
  (W13_of_ne m ρ c main_v5 (by decide)).trans (at12_main_v5 m ρ c)
theorem at13_main_v6 : W13 m ρ c (Proc.devRef .tc main_v6) = (val_main_v6 (F := Ideal) (m ((c.tc : Thread nD τ).loc main_arg1))) :=
  (W13_of_ne m ρ c main_v6 (by decide)).trans (at12_main_v6 m ρ c)
theorem at13_main_v31 : W13 m ρ c (Proc.devRef .tc main_v31) = (val_main_v31 (F := Ideal) (m ((c.tc : Thread nD τ).loc main_arg1)) (m ((c.tc : Thread nD τ).loc main_arg2))) :=
  (W13_of_ne m ρ c main_v31 (by decide)).trans (at12_main_v31 m ρ c)
theorem at13_main_arg10 : W13 m ρ c (Proc.devRef .tc main_arg10) = (m ((c.tc : Thread nD τ).loc main_arg10)) :=
  (W13_of_ne m ρ c main_arg10 (by decide)).trans (at12_main_arg10 m ρ c)
theorem at13_main_arg11 : W13 m ρ c (Proc.devRef .tc main_arg11) = (m ((c.tc : Thread nD τ).loc main_arg11)) :=
  (W13_of_ne m ρ c main_arg11 (by decide)).trans (at12_main_arg11 m ρ c)
theorem at13_main_arg12 : W13 m ρ c (Proc.devRef .tc main_arg12) = (m ((c.tc : Thread nD τ).loc main_arg12)) :=
  (W13_of_ne m ρ c main_arg12 (by decide)).trans (at12_main_arg12 m ρ c)
theorem at13_main_arg13 : W13 m ρ c (Proc.devRef .tc main_arg13) = (m ((c.tc : Thread nD τ).loc main_arg13)) :=
  (W13_of_ne m ρ c main_arg13 (by decide)).trans (at12_main_arg13 m ρ c)
theorem at13_main_arg14 : W13 m ρ c (Proc.devRef .tc main_arg14) = (m ((c.tc : Thread nD τ).loc main_arg14)) :=
  (W13_of_ne m ρ c main_arg14 (by decide)).trans (at12_main_arg14 m ρ c)
theorem at13_main_arg15 : W13 m ρ c (Proc.devRef .tc main_arg15) = (m ((c.tc : Thread nD τ).loc main_arg15)) :=
  (W13_of_ne m ρ c main_arg15 (by decide)).trans (at12_main_arg15 m ρ c)
theorem at13_main_arg16 : W13 m ρ c (Proc.devRef .tc main_arg16) = (m ((c.tc : Thread nD τ).loc main_arg16)) :=
  (W13_of_ne m ρ c main_arg16 (by decide)).trans (at12_main_arg16 m ρ c)

/-- The region's output array is the reference's product of the layer's input and its weight matrix. -/
theorem at13_main_v80 : W13 m ρ c (Proc.devRef .tc main_v80) = (val_main_v170 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (W13_arr m ρ c 2).trans ?_
  have hX : V12 m ρ c (Pipeline.arrRef spec6 0) = (val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := at12_main_v79 m ρ c
  have hW : V12 m ρ c (Pipeline.arrRef spec6 1) = (m ((c.tc : Thread nD τ).loc main_arg9)) := at12_main_arg9 m ρ c
  rw [layer4_matmul (V12 m ρ) c, hX, hW]
  funext i
  exact (val_main_v170_apply _ _ _ _ _ _ _ _ _ _ i).symm

/-! ## After the host stretch -/
theorem at14_main_v5 : W14 m ρ c (Proc.devRef .tc main_v5) = (val_main_v5 (F := Ideal) (m ((c.tc : Thread nD τ).loc main_arg1))) :=
  (StableHlo.after_of_forall_not_mem (b := Proc.devRef .tc main_v5) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_v5 m ρ c)
theorem at14_main_v6 : W14 m ρ c (Proc.devRef .tc main_v6) = (val_main_v6 (F := Ideal) (m ((c.tc : Thread nD τ).loc main_arg1))) :=
  (StableHlo.after_of_forall_not_mem (b := Proc.devRef .tc main_v6) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_v6 m ρ c)
theorem at14_main_v31 : W14 m ρ c (Proc.devRef .tc main_v31) = (val_main_v31 (F := Ideal) (m ((c.tc : Thread nD τ).loc main_arg1)) (m ((c.tc : Thread nD τ).loc main_arg2))) :=
  (StableHlo.after_of_forall_not_mem (b := Proc.devRef .tc main_v31) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_v31 m ρ c)
theorem at14_main_arg10 : W14 m ρ c (Proc.devRef .tc main_arg10) = (m ((c.tc : Thread nD τ).loc main_arg10)) :=
  (StableHlo.after_of_forall_not_mem (b := Proc.devRef .tc main_arg10) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_arg10 m ρ c)
theorem at14_main_arg11 : W14 m ρ c (Proc.devRef .tc main_arg11) = (m ((c.tc : Thread nD τ).loc main_arg11)) :=
  (StableHlo.after_of_forall_not_mem (b := Proc.devRef .tc main_arg11) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_arg11 m ρ c)
theorem at14_main_arg12 : W14 m ρ c (Proc.devRef .tc main_arg12) = (m ((c.tc : Thread nD τ).loc main_arg12)) :=
  (StableHlo.after_of_forall_not_mem (b := Proc.devRef .tc main_arg12) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_arg12 m ρ c)
theorem at14_main_arg13 : W14 m ρ c (Proc.devRef .tc main_arg13) = (m ((c.tc : Thread nD τ).loc main_arg13)) :=
  (StableHlo.after_of_forall_not_mem (b := Proc.devRef .tc main_arg13) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_arg13 m ρ c)
theorem at14_main_arg14 : W14 m ρ c (Proc.devRef .tc main_arg14) = (m ((c.tc : Thread nD τ).loc main_arg14)) :=
  (StableHlo.after_of_forall_not_mem (b := Proc.devRef .tc main_arg14) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_arg14 m ρ c)
theorem at14_main_arg15 : W14 m ρ c (Proc.devRef .tc main_arg15) = (m ((c.tc : Thread nD τ).loc main_arg15)) :=
  (StableHlo.after_of_forall_not_mem (b := Proc.devRef .tc main_arg15) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_arg15 m ρ c)
theorem at14_main_arg16 : W14 m ρ c (Proc.devRef .tc main_arg16) = (m ((c.tc : Thread nD τ).loc main_arg16)) :=
  (StableHlo.after_of_forall_not_mem (b := Proc.devRef .tc main_arg16) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at13_main_arg16 m ρ c)

/-- The aggregate: the host's gather, scaling and scatter-add of the product, the same operations as the reference's. -/
theorem at14_main_v93 : W14 m ρ c (Proc.devRef .tc main_v93) = (val_main_v183 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (host_agg4 (W13 m ρ c) _ _ _ (at13_main_v80 m ρ c) (at13_main_v5 m ρ c) (at13_main_v6 m ρ c) (at13_main_v31 m ρ c)).trans
    (ref_agg4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).symm

/-- The bias, reshaped to one row. -/
theorem at14_main_v94 : W14 m ρ c (Proc.devRef .tc main_v94) = (shapeCast S1x64 (m ((c.tc : Thread nD τ).loc main_arg10)) shapeCasts_S64_S1x64) :=
  host_bias_row4 (W13 m ρ c) _ (at13_main_arg10 m ρ c)

/-! ## After the bias region -/
theorem at15_main_v5 : W15 m ρ c (Proc.devRef .tc main_v5) = (val_main_v5 (F := Ideal) (m ((c.tc : Thread nD τ).loc main_arg1))) :=
  (W15_of_ne m ρ c main_v5 (by decide)).trans (at14_main_v5 m ρ c)
theorem at15_main_v6 : W15 m ρ c (Proc.devRef .tc main_v6) = (val_main_v6 (F := Ideal) (m ((c.tc : Thread nD τ).loc main_arg1))) :=
  (W15_of_ne m ρ c main_v6 (by decide)).trans (at14_main_v6 m ρ c)
theorem at15_main_v31 : W15 m ρ c (Proc.devRef .tc main_v31) = (val_main_v31 (F := Ideal) (m ((c.tc : Thread nD τ).loc main_arg1)) (m ((c.tc : Thread nD τ).loc main_arg2))) :=
  (W15_of_ne m ρ c main_v31 (by decide)).trans (at14_main_v31 m ρ c)
theorem at15_main_arg11 : W15 m ρ c (Proc.devRef .tc main_arg11) = (m ((c.tc : Thread nD τ).loc main_arg11)) :=
  (W15_of_ne m ρ c main_arg11 (by decide)).trans (at14_main_arg11 m ρ c)
theorem at15_main_arg12 : W15 m ρ c (Proc.devRef .tc main_arg12) = (m ((c.tc : Thread nD τ).loc main_arg12)) :=
  (W15_of_ne m ρ c main_arg12 (by decide)).trans (at14_main_arg12 m ρ c)
theorem at15_main_arg13 : W15 m ρ c (Proc.devRef .tc main_arg13) = (m ((c.tc : Thread nD τ).loc main_arg13)) :=
  (W15_of_ne m ρ c main_arg13 (by decide)).trans (at14_main_arg13 m ρ c)
theorem at15_main_arg14 : W15 m ρ c (Proc.devRef .tc main_arg14) = (m ((c.tc : Thread nD τ).loc main_arg14)) :=
  (W15_of_ne m ρ c main_arg14 (by decide)).trans (at14_main_arg14 m ρ c)
theorem at15_main_arg15 : W15 m ρ c (Proc.devRef .tc main_arg15) = (m ((c.tc : Thread nD τ).loc main_arg15)) :=
  (W15_of_ne m ρ c main_arg15 (by decide)).trans (at14_main_arg15 m ρ c)
theorem at15_main_arg16 : W15 m ρ c (Proc.devRef .tc main_arg16) = (m ((c.tc : Thread nD τ).loc main_arg16)) :=
  (W15_of_ne m ρ c main_arg16 (by decide)).trans (at14_main_arg16 m ρ c)

/-- The layer's output array is the reference's value of the layer. -/
theorem at15_main_v95 : W15 m ρ c (Proc.devRef .tc main_v95) = (val_main_v187 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  refine (W15_arr m ρ c 2).trans ?_
  have hA : V14 m ρ c (Pipeline.arrRef spec7 0) = (val_main_v183 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := at14_main_v93 m ρ c
  have hB : V14 m ρ c (Pipeline.arrRef spec7 1) = (shapeCast S1x64 (m ((c.tc : Thread nD τ).loc main_arg10)) shapeCasts_S64_S1x64) := at14_main_v94 m ρ c
  rw [layer4_bias_relu (V14 m ρ) c, hA, hB]
  exact (Cert.ReferenceIdeal.Rows.ref_layer4_bias_relu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) shapeCasts_S64_S1x64).symm

end Cert.KernelIdeal.Rows

end
-- ==== Proof.Host5.lean ====
/-
  Layer 5's host stretch, at any float instance.

  Between the matrix-product region and the bias region the host gathers the rows of the product at the edges'
  sources (an index below zero wraps round by the number of nodes), scales row e by the edge's normalisation and adds it
  into row d[e] of a zero array; it also reshapes the bias to one row. The aggregate is therefore one function of the
  product, the edge list and the edge weights. The reference's aggregate stage is that function of its own product
  stage, and the kernel's stretch computes it from whatever contents it is entered with, provided the product buffer
  and the three shared arrays s, d, n hold what they should. Nothing here depends on what a float is.
-/
import proofs.«114307_j63015760166989_1_alg».proof.Proof.Gen.KernelIdeal.Launch
import proofs.«114307_j63015760166989_1_alg».proof.Proof.ReferenceStages
import Idealize.ShloMosaic.Lib.StableHlo.Run

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The layer's aggregate as a function of the product `xw`, the edge list `x1` and the edge weights `x2`. -/
def agg5 (xw : (⟨Cert.ReferenceIdeal.S50000x32, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x32, .f32⟩ : BufTy).Contents (Elt F) :=
  Host.scatterAdd Cert.ReferenceIdeal.scatter_S50000x32_S850000x1_S850000x32_1_0_0_1 (val_main_v227 (F := F)) (val_main_v228 (F := F) x1)
    (mulf (Host.gather Cert.ReferenceIdeal.gather_S50000x32_S850000x1_S850000x32_1_0_n_n_0_1_132 xw (val_main_v222 (F := F) x1)) (val_main_v225 (F := F) x1 x2))

/-- The reference's aggregate stage is that function of its product stage. -/
theorem ref_agg5 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) (x3 : (⟨Cert.ReferenceIdeal.S128x256, .f32⟩ : BufTy).Contents (Elt F)) (x4 : (⟨Cert.ReferenceIdeal.S256, .f32⟩ : BufTy).Contents (Elt F)) (x5 : (⟨Cert.ReferenceIdeal.S256x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x32, .f32⟩ : BufTy).Contents (Elt F)) :
    val_main_v229 (F := F) x0 x1 x2 x3 x4 x5 x6 x7 x8 x9 x10 x11 = agg5 (val_main_v216 (F := F) x0 x1 x2 x3 x4 x5 x6 x7 x8 x9 x10 x11) x1 x2 := rfl

/-- The kernel's stretch, entered with the product in its buffer and s, d, n in theirs, leaves the aggregate. -/
theorem host_agg5 (V : Valuation τ sig (Elt F)) (xw : (⟨Cert.ReferenceIdeal.S50000x32, .f32⟩ : BufTy).Contents (Elt F)) (x1 : (⟨Cert.ReferenceIdeal.S2x800000, .i32⟩ : BufTy).Contents (Elt F)) (x2 : (⟨Cert.ReferenceIdeal.S800000, .f32⟩ : BufTy).Contents (Elt F))
    (hxw : V (Proc.devRef .tc main_v96) = xw) (h5 : V (Proc.devRef .tc main_v5) = val_main_v5 (F := F) x1)
    (h6 : V (Proc.devRef .tc main_v6) = val_main_v6 (F := F) x1) (h31 : V (Proc.devRef .tc main_v31) = val_main_v31 (F := F) x1 x2) :
    StableHlo.after hostOps9 V (Proc.devRef .tc main_v109) = agg5 xw x1 x2 := by
  dsimp only [hostOps9]
  after_results_simp
  rw [hxw, h5, h6, h31]
  rfl

/-- The same stretch leaves the bias reshaped to one row. -/
theorem host_bias_row5 (V : Valuation τ sig (Elt F)) (b : (⟨Cert.ReferenceIdeal.S32, .f32⟩ : BufTy).Contents (Elt F)) (hb : V (Proc.devRef .tc main_arg12) = b) :
    StableHlo.after hostOps9 V (Proc.devRef .tc main_v110) = shapeCast S1x32 b shapeCasts_S32_S1x32 := by
  dsimp only [hostOps9]
  after_results_simp
  exact congrArg (fun x => shapeCast S1x32 x shapeCasts_S32_S1x32) hb

end Cert.KernelIdeal.Rows

end
-- ==== Proof.Layer5Matmul.lean ====
/-
  The fifth dense layer's product, read off the pipelined kernel.

  The kernel multiplies the activations A of the layer before (50000 × 64) by the layer's weight matrix W (64 × 32) in ten steps:
  step t stages rows 5000·t … 5000·t + 4999 of the left operand and the whole of W, forms the 5000 × 32
  product of the two staged blocks into a zero accumulator, and writes it back as the same rows of the
  result.  At the exact-real instance the narrowing of the operands before the product is the identity
  and the product of two blocks at (r, c) is the plain sum over the 64 inner positions, so each written
  block is the matching block of the ONE array  i ↦ ∑ₖ A(i₀, k) · W(k, i₁).  The ten row blocks tile the
  50000 rows (row r lies in block r / 5000), hence the result array is that array.
-/
import proofs.«114307_j63015760166989_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.SL.Sem
open Idealize.ShloMosaic.Pipeline (Dat)

/-! ## The index functions of a row-by-column product -/

/-- Entry (i₀, k) of the left operand: row of the result entry `i`, inner position `k`. -/
abbrev lrow5 (i : S50000x32.Idx) (k : Fin 64) : S50000x64.Idx := fun a => match a with
  | ⟨0, _⟩ => ⟨(i 0).val, (i 0).isLt⟩
  | ⟨1, _⟩ => ⟨k.val, k.isLt⟩
/-- Entry (k, i₁) of the right operand: inner position `k`, column of the result entry `i`. -/
abbrev rcol5 (i : S50000x32.Idx) (k : Fin 64) : S64x32.Idx := fun a => match a with
  | ⟨0, _⟩ => ⟨k.val, k.isLt⟩
  | ⟨1, _⟩ => ⟨(i 1).val, (i 1).isLt⟩

/-- The same two inside one step's blocks: entry (j₀, k) of the staged 5000 rows … -/
abbrev blockrow5 (j : S5000x32.Idx) (k : Fin 64) : S5000x64.Idx := fun a => match a with
  | ⟨0, _⟩ => ⟨(j 0).val, (j 0).isLt⟩
  | ⟨1, _⟩ => ⟨k.val, k.isLt⟩
/-- … and entry (k, j₁) of the staged weights. -/
abbrev blockcol5 (j : S5000x32.Idx) (k : Fin 64) : S64x32.Idx := fun a => match a with
  | ⟨0, _⟩ => ⟨k.val, k.isLt⟩
  | ⟨1, _⟩ => ⟨(j 1).val, (j 1).isLt⟩

/-- The product array: entry `i` is the sum over the inner position of row i₀ of `a0` times column i₁ of `a1`. -/
abbrev prod5 (a0 : S50000x64.Idx → EReal) (a1 : S64x32.Idx → EReal) : S50000x32.Idx → EReal :=
  fun i => ∑ k : Fin 64, a0 (lrow5 i k) * a1 (rcol5 i k)

/-- One term of that sum, with the two operand positions free. -/
abbrev term5 (a0 : S50000x64.Idx → EReal) (a1 : S64x32.Idx → EReal) (p : S50000x64.Idx) (q : S64x32.Idx) : EReal := a0 p * a1 q

theorem no_offsets5 : (![0, 0] : Fin 2 → Nat) = fun _ => 0 := funext fun a => by fin_cases a <;> rfl

/-! ## One step's product of blocks, entry by entry -/

/-- The operand positions the block product's dimension numbers name at result entry `j` and inner position `q`:
    the left one keeps the row and runs along the inner axis, the right one runs along it and keeps the column. -/
theorem left_row5 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem left_inner5 (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem right_inner5 (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem right_col5 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- At the exact reals the step's value at entry `j` is the sum over the inner position of the staged rows times
    the staged weights: narrowing the operands (and re-reading the left block in its own shape) changes nothing and the accumulator starts at zero. -/
theorem block_product5 (x0 : Vec Ideal S5000x64 .f32) (x1 : Vec Ideal S64x32 .f32) (j : S5000x32.Idx) :
    k8_pay1 (F := Ideal) x0 x1 j = ∑ k : Fin 64, x0 (blockrow5 j k) * x1 (blockcol5 j k) := by
  unfold k8_pay1
  refine (Ideal.matmul_constant_zero_apply dot_S5000x64_S64x32_S5000x32_1_0_0_1_n_n none
    (truncf (F := Ideal) .bf16 (shapeCast S5000x64 x0 shapeCasts_S5000x64_S5000x64) bitsLt_bf16_f32) (truncf (F := Ideal) .bf16 x1 bitsLt_bf16_f32) j).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = blockrow5 j k := funext fun a => Fin.ext (by
    match a with
    | ⟨0, _⟩ => exact left_row5 _ _
    | ⟨1, _⟩ => exact (left_inner5 _ _).trans hk)
  have er : dot_S5000x64_S64x32_S5000x32_1_0_0_1_n_n.rhsIdx j ((ValueIdx.contrEquiv1 dot_S5000x64_S64x32_S5000x32_1_0_0_1_n_n 64 rfl rfl).symm k) = blockcol5 j k := funext fun a => Fin.ext (by
    match a with
    | ⟨0, _⟩ => exact (right_inner5 _ _).trans hk
    | ⟨1, _⟩ => exact right_col5 _ _)
  show shapeCast S5000x64 x0 shapeCasts_S5000x64_S5000x64 _ * x1 _ = _
  rw [shapeCast_self, el, er]

/-! ## Where the steps' blocks sit -/

/-- Decided over the ten steps: the staged rows of the left operand are the rows written back, all other block
    positions are zero, and the row-block position stays below ten. -/
theorem block_positions5 : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0
    ∧ win8_2.index t (0 : Fin 2) ≤ 9 :=
  (by decide +kernel : ∀ t : Fin grid8.N, _)

/-- Every one of the ten row blocks is written by some step. -/
theorem block_of_rows5 : ∀ q : Fin 10, ∃ t : Fin cfg8.N, win8_2.index t = ![q.val, 0] :=
  (by decide +kernel : ∀ q : Fin 10, ∃ t : Fin grid8.N, win8_2.index t = ![q.val, 0])

variable (V : (c : Dev nD) → (b : Ref sig .tc) → Buf (Elt Ideal) ((c : Thread nD τ).loc b))

/-- What step `t` writes back is its block of the product array of the two operands as the layer finds them. -/
theorem step_writes5 (c : Dev nD) (t : Fin cfg8.N) :
    (dat8 (F := Ideal) V c).flushed 2 t
      = ((cfg8.win 2).blk t).view.read (Elt Ideal) (prod5 (V c (Pipeline.arrRef spec8 0)) (V c (Pipeline.arrRef spec8 1))) := by
  show (cfg8.win 2).cut (grid8.coords t) ((dat8 (F := Ideal) V c).after 2 t) = _
  rw [after8_2]
  unfold out8_2
  rw [View.canon_unit_zero no_offsets5]
  simp only [View.ld_unit_zero (S := S5000x64) no_offsets5, View.ld_unit_zero (S := S64x32) no_offsets5]
  obtain ⟨e0, e1, e2, e3, e4, e5⟩ := block_positions5 t
  funext j
  show k8_pay1 (F := Ideal) (iblk8 V c 0 t) (iblk8 V c 1 t) j
    = prod5 (V c (Pipeline.arrRef spec8 0)) (V c (Pipeline.arrRef spec8 1)) (((cfg8.win 2).blk t).view.emb j)
  refine (block_product5 (iblk8 V c 0 t) (iblk8 V c 1 t) j).trans ?_
  refine Finset.sum_congr rfl fun k _ => ?_
  have h0 : ((cfg8.win 0).blk t).view.emb (blockrow5 j k) = lrow5 (((cfg8.win 2).blk t).view.emb j) k := by
    funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 64 + 1 * k.val = k.val; omega
  have h1 : ((cfg8.win 1).blk t).view.emb (blockcol5 j k) = rcol5 (((cfg8.win 2).blk t).view.emb j) k := by
    funext a; apply Fin.ext
    match a with
    | ⟨0, _⟩ => show win8_1.index t (0 : Fin 2) * 64 + 1 * k.val = k.val; omega
    | ⟨1, _⟩ => show win8_1.index t (1 : Fin 2) * 32 + 1 * (j 1).val = win8_2.index t (1 : Fin 2) * 32 + 1 * (j 1).val; omega
  show term5 (V c (Pipeline.arrRef spec8 0)) (V c (Pipeline.arrRef spec8 1))
        (((cfg8.win 0).blk t).view.emb (blockrow5 j k)) (((cfg8.win 1).blk t).view.emb (blockcol5 j k))
      = term5 (V c (Pipeline.arrRef spec8 0)) (V c (Pipeline.arrRef spec8 1))
        (lrow5 (((cfg8.win 2).blk t).view.emb j) k) (rcol5 (((cfg8.win 2).blk t).view.emb j) k)
  rw [h0, h1]

/-- A result entry lies in step `t`'s block iff each coordinate lies in the block's range on its axis. -/
theorem mem_step_block5 (t : Fin cfg8.N) (i : S50000x32.Idx) :
    i ∈ ((cfg8.win 2).blk t).view.set ↔ ∀ a : Fin 2, win8_2.index t a * S5000x32.size a ≤ (i a).val ∧ (i a).val < win8_2.index t a * S5000x32.size a + S5000x32.size a := by
  show i ∈ ((View.whole main_v96).slice (win8_2.rect t)).set ↔ _
  rw [View.set_slice_whole, Rect.mem_set_unit]
  exact Iff.rfl

/-- The ten row blocks tile the result: row r lies in block r / 5000. -/
theorem rows_covered5 (i : S50000x32.Idx) :
    ∃ t : Fin cfg8.N, (cfg8.win 2).flush t = true ∧ i ∈ ((cfg8.win 2).blk t).view.set := by
  have hi0 : (i 0).val < 50000 := (i 0).isLt
  have hi1 : (i 1).val < 32 := (i 1).isLt
  obtain ⟨t, ht⟩ := block_of_rows5 ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_step_block5]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 32 ≤ (i 1).val ∧ (i 1).val < win8_2.index t (1 : Fin 2) * 32 + 32; omega

/-- After the layer's ten steps the result array is the product of the two operand arrays as the layer found them. -/
theorem layer5_matmul (c : Dev nD) :
    (dat8 (F := Ideal) V c).arrAt 2 cfg8.N
      = prod5 (V c (Pipeline.arrRef spec8 0)) (V c (Pipeline.arrRef spec8 1)) :=
  (dat8 (F := Ideal) V c).arrAt_eq_of_cover 2 (prod5 (V c (Pipeline.arrRef spec8 0)) (V c (Pipeline.arrRef spec8 1)))
    (fun t _ => step_writes5 V c t) rows_covered5

end Cert.KernelIdeal.Rows

end
-- ==== Proof.Layer5BiasRelu.lean ====
import proofs.«114307_j63015760166989_1_alg».proof.Proof.Gen.KernelIdeal.Frame
import Idealize.ShloMosaic.Lib.ValueIdx
import Idealize.ShloMosaic.Lib.Pipeline.Value
import Idealize.ShloMosaic.Lib.ValueLayout

/-! Layer 5, bias and ReLU: the array the region leaves is, index by index, the maximum of zero and the
    aggregated array plus the bias row.  The body adds the one bias row to every row of its block and takes
    the maximum with zero; the ten row blocks of 5000 rows tile the 50000 rows. -/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The body's offsets, all zero. -/
theorem zero_offsets5 : (![0, 0] : Fin 2 → Nat) = fun _ => 0 := funext fun a => by fin_cases a <;> rfl

/-- The bias row's index under an index of the array: row 0, the same column. -/
abbrev brow5 (i : S50000x32.Idx) : S1x32.Idx :=
  fun a => match a with | ⟨0, _⟩ => ⟨0, Nat.one_pos⟩ | ⟨1, _⟩ => ⟨(i 1).val, (i 1).isLt⟩

/-- The body's value at row `p`, column `q` of its block: the block's element plus the bias row's element of
    that column, or zero if that is larger. -/
theorem pay5_apply (x0 : Vec Ideal S5000x32 .f32) (x1 : Vec Ideal S1x32 .f32) (p : Fin 5000) (q : Fin 32) :
    k9_pay1 (F := Ideal) x0 x1 (ix2 p q)
      = FloatOps.maximumf (FloatOps.addf (x0 (ix2 p q)) (x1 (ix2 (0 : Fin 1) q))) (FloatOps.ofBits .f32 0x00000000#32) := by
  unfold k9_pay1
  show FloatOps.maximumf (FloatOps.addf (shapeCast (α := Ideal .f32) S5000x32 x0 shapeCasts_S5000x32_S5000x32 (ix2 p q))
      (broadcastTo (α := Ideal .f32) S5000x32 (shapeCast (α := Ideal .f32) S1x32 x1 shapeCasts_S1x32_S1x32) broadcasts_S1x32_S5000x32 (ix2 p q))) _ = _
  rw [shapeCast_self, shapeCast_self, broadcastTo_1b_ab_apply]
  rfl

/-- The same at any index `y` of the block, once the two blocks' elements are known as elements `A0 i` and
    `A1 (brow5 i)` of two arrays. -/
theorem pay5_value (x0 : Vec Ideal S5000x32 .f32) (x1 : Vec Ideal S1x32 .f32)
    (A0 : S50000x32.Idx → Ideal .f32) (A1 : S1x32.Idx → Ideal .f32) (y : S5000x32.Idx) (i : S50000x32.Idx)
    (h0 : x0 y = A0 i) (h1 : x1 (ix2 (0 : Fin 1) (⟨(y 1).val, (y 1).isLt⟩ : Fin 32)) = A1 (brow5 i)) :
    k9_pay1 (F := Ideal) x0 x1 y
      = FloatOps.maximumf (FloatOps.addf (A0 i) (A1 (brow5 i))) (FloatOps.ofBits .f32 0x00000000#32) := by
  have hy : y = ix2 (⟨(y 0).val, (y 0).isLt⟩ : Fin 5000) (⟨(y 1).val, (y 1).isLt⟩ : Fin 32) := by
    funext a; match a with | ⟨0, _⟩ => rfl | ⟨1, _⟩ => rfl
  rw [← h0, ← h1]
  conv_lhs => rw [hy]
  conv_rhs => rw [hy]
  exact pay5_apply x0 x1 _ _

variable (V : (c : Dev nD) → (b : Ref sig .tc) → Buf (Elt Ideal) ((c : Thread nD τ).loc b))

/-- What the array ends holding: index by index, the aggregated array plus the bias row, or zero if larger. -/
abbrev G5 (c : Dev nD) : S50000x32.Idx → Ideal .f32 := fun i =>
  FloatOps.maximumf (FloatOps.addf ((V c (Pipeline.arrRef spec9 0) : S50000x32.Idx → Ideal .f32) i)
    ((V c (Pipeline.arrRef spec9 1) : S1x32.Idx → Ideal .f32) (brow5 i))) (FloatOps.ofBits .f32 0x00000000#32)

/-- The index maps over the ten grid points: the input rows move with the output rows, every other block index
    is zero, and the output's row-block index is at most 9. -/
theorem index_facts5 : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (1 : Fin 2) = 0
    ∧ win9_2.index t (0 : Fin 2) ≤ 9 :=
  (by decide +kernel : ∀ t : Fin grid9.N, _)

/-- Every one of the ten row blocks is some grid point's. -/
theorem index_onto5 : ∀ q : Fin 10, ∃ t : Fin cfg9.N, win9_2.index t = ![q.val, 0] :=
  (by decide +kernel : ∀ q : Fin 10, ∃ t : Fin grid9.N, win9_2.index t = ![q.val, 0])

/-- The rows block at point `t`, at `y`, is the aggregated array at row `5000 · (block index) + y 0`, column `y 1`. -/
theorem rows_block5 (c : Dev nD) (t : Fin cfg9.N) (y : S5000x32.Idx) (i : S50000x32.Idx)
    (h0 : (i 0).val = win9_2.index t (0 : Fin 2) * 5000 + (y 0).val) (h1 : (i 1).val = (y 1).val) :
    (iblk9 V c 0 t : Vec Ideal S5000x32 .f32) y = (V c (Pipeline.arrRef spec9 0) : S50000x32.Idx → Ideal .f32) i := by
  obtain ⟨e0, e1, e2, e3, e4, e5⟩ := index_facts5 t
  unfold iblk9
  rw [View.read_apply]
  show (V c (Pipeline.arrRef spec9 0) : S50000x32.Idx → Ideal .f32) (((cfg9.win 0).blk t).view.emb y) = _
  refine congrArg _ ?_
  funext a; apply Fin.ext
  match a with
  | ⟨0, _⟩ => show win9_0.index t (0 : Fin 2) * 5000 + 1 * (y 0).val = (i 0).val; omega
  | ⟨1, _⟩ => show win9_0.index t (1 : Fin 2) * 32 + 1 * (y 1).val = (i 1).val; omega

/-- The bias block at any point is the whole bias row. -/
theorem bias_block5 (c : Dev nD) (t : Fin cfg9.N) (y : S1x32.Idx) (k : S1x32.Idx)
    (h0 : (k 0).val = (y 0).val) (h1 : (k 1).val = (y 1).val) :
    (iblk9 V c 1 t : Vec Ideal S1x32 .f32) y = (V c (Pipeline.arrRef spec9 1) : S1x32.Idx → Ideal .f32) k := by
  obtain ⟨e0, e1, e2, e3, e4, e5⟩ := index_facts5 t
  unfold iblk9
  rw [View.read_apply]
  show (V c (Pipeline.arrRef spec9 1) : S1x32.Idx → Ideal .f32) (((cfg9.win 1).blk t).view.emb y) = _
  refine congrArg _ ?_
  funext a; apply Fin.ext
  match a with
  | ⟨0, _⟩ => show win9_1.index t (0 : Fin 2) * 1 + 1 * (y 0).val = (k 0).val; omega
  | ⟨1, _⟩ => show win9_1.index t (1 : Fin 2) * 32 + 1 * (y 1).val = (k 1).val; omega

/-- What point `t` writes back is block `t` of `G5`. -/
theorem flushed5_eq (c : Dev nD) (t : Fin cfg9.N) :
    (dat9 (F := Ideal) V c).flushed 2 t = ((cfg9.win 2).blk t).view.read (Elt Ideal) (G5 V c) := by
  show (cfg9.win 2).cut (grid9.coords t) ((dat9 V c).after 2 t) = _
  rw [after9_2]
  unfold out9_2
  rw [View.canon_unit_zero zero_offsets5]
  simp only [View.ld_unit_zero (S := S5000x32) zero_offsets5, View.ld_unit_zero (S := S1x32) zero_offsets5]
  funext j
  rw [View.read_apply]
  show k9_pay1 (F := Ideal) (iblk9 V c 0 t) (iblk9 V c 1 t) ((cfg9.win 2).xinj (grid9.coords t) j)
    = G5 V c (((cfg9.win 2).blk t).view.emb j)
  refine pay5_value (iblk9 V c 0 t) (iblk9 V c 1 t) (V c (Pipeline.arrRef spec9 0)) (V c (Pipeline.arrRef spec9 1))
    ((cfg9.win 2).xinj (grid9.coords t) j) (((cfg9.win 2).blk t).view.emb j) ?_ ?_
  · refine rows_block5 V c t _ _ ?_ ?_
    · show win9_2.index t (0 : Fin 2) * 5000 + 1 * (j 0).val = win9_2.index t (0 : Fin 2) * 5000 + (j 0).val; omega
    · obtain ⟨e0, e1, e2, e3, e4, e5⟩ := index_facts5 t
      show win9_2.index t (1 : Fin 2) * 32 + 1 * (j 1).val = (j 1).val; omega
  · refine bias_block5 V c t _ _ ?_ ?_
    · rfl
    · obtain ⟨e0, e1, e2, e3, e4, e5⟩ := index_facts5 t
      show win9_2.index t (1 : Fin 2) * 32 + 1 * (j 1).val = (j 1).val; omega

/-- An index of the array is in point `t`'s block iff each coordinate is in the block's range on its axis. -/
theorem mem_block5 (t : Fin cfg9.N) (i : S50000x32.Idx) :
    i ∈ ((cfg9.win 2).blk t).view.set ↔ ∀ a : Fin 2, win9_2.index t a * S5000x32.size a ≤ (i a).val
      ∧ (i a).val < win9_2.index t a * S5000x32.size a + S5000x32.size a := by
  show i ∈ ((View.whole main_v111).slice (win9_2.rect t)).set ↔ _
  rw [View.set_slice_whole, Rect.mem_set_unit]
  exact Iff.rfl

/-- Row `r` lies in the block of the point whose row-block index is `r / 5000`: the ten blocks cover the array. -/
theorem covered5 (i : S50000x32.Idx) :
    ∃ t : Fin cfg9.N, (cfg9.win 2).flush t = true ∧ i ∈ ((cfg9.win 2).blk t).view.set := by
  have hi0 : (i 0).val < 50000 := (i 0).isLt
  have hi1 : (i 1).val < 32 := (i 1).isLt
  obtain ⟨t, ht⟩ := index_onto5 ⟨(i 0).val / 5000, by omega⟩
  have q0 : win9_2.index t (0 : Fin 2) = (i 0).val / 5000 := congrFun ht 0
  have q1 : win9_2.index t (1 : Fin 2) = 0 := congrFun ht 1
  refine ⟨t, flush9_2 t, ?_⟩
  rw [mem_block5]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 32 ≤ (i 1).val ∧ (i 1).val < win9_2.index t (1 : Fin 2) * 32 + 32; omega

/-- The array after the region: the aggregated array plus the bias row, or zero if larger, at every index. -/
theorem layer5_bias_relu (c : Dev nD) :
    (dat9 (F := Ideal) V c).arrAt 2 cfg9.N
      = (fun i => FloatOps.maximumf (FloatOps.addf ((V c (Pipeline.arrRef spec9 0) : S50000x32.Idx → Ideal .f32) i)
          ((V c (Pipeline.arrRef spec9 1) : S1x32.Idx → Ideal .f32) (brow5 i))) (FloatOps.ofBits .f32 0x00000000#32)
        : S50000x32.Idx → Ideal .f32) :=
  (dat9 (F := Ideal) V c).arrAt_eq_of_cover 2 (G5 V c) (fun t _ => flushed5_eq V c t) covered5

end Cert.KernelIdeal.Rows

end
-- ==== Proof.Layer5BiasRef.lean ====
import proofs.«114307_j63015760166989_1_alg».proof.Proof.ReferenceStages
import Idealize.ShloMosaic.Lib.ValueIdx
import Idealize.ShloMosaic.Lib.Pipeline.Value

/-! Layer 5 of the reference, bias and ReLU: its value at an index is the maximum of zero and the aggregated
    array plus the bias vector's entry of that column — the bias vector written as the one-row array the
    kernel's program reshapes it to. -/

noncomputable section

namespace Cert.ReferenceIdeal.Rows

open Cert.ReferenceIdeal Idealize.ShloMosaic

/-- The bias vector viewed as one row of 32: at `(0, q)` it reads the vector at `q`, as the broadcast to one
    row does. -/
theorem bias_row5_apply (x12 : (⟨S32, .f32⟩ : BufTy).Contents (Elt Ideal)) (h : S32.ShapeCasts S1x32) (k : S1x32.Idx) :
    shapeCast (α := Ideal .f32) S1x32 x12 h k = x12 (Read.idx_main_v230 k) :=
  shapeCast_apply (α := Ideal .f32) x12 h k (Read.idx_main_v230 k) (by
    have h0 : (k 0).val < 1 := (k 0).isLt
    rw [Shape.rowMajor_val_one, Shape.rowMajor_val_two]
    show (k 1).val = (k 0).val * 32 + (k 1).val
    omega)

/-- The reference's layer 5 after its ReLU, index by index. -/
theorem ref_layer5_bias_relu (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S64x32, .f32⟩ : BufTy).Contents (Elt Ideal))
    (x12 : (⟨S32, .f32⟩ : BufTy).Contents (Elt Ideal))
    (h : S32.ShapeCasts S1x32) :
    Read.val_main_v233 (F := Ideal) x0 x1 x2 x3 x4 x5 x6 x7 x8 x9 x10 x11 x12
      = fun i => FloatOps.maximumf (FloatOps.addf (Read.val_main_v229 (F := Ideal) x0 x1 x2 x3 x4 x5 x6 x7 x8 x9 x10 x11 i)
          (shapeCast (α := Ideal .f32) S1x32 x12 h (Read.idx_main_v231 i))) (FloatOps.ofBits .f32 0x00000000#32) := by
  funext i
  rw [Read.val_main_v233_apply, Read.val_main_v232_apply, Read.val_main_v231_apply, Read.val_main_v230_apply,
    Read.val_main_call9_v0_apply, Read.val_main_call9_cst_apply, bias_row5_apply]

end Cert.ReferenceIdeal.Rows

end
-- ==== Proof.Boundary5.lean ====
/-
  Layer 5 of the network, followed along the kernel's chain of segments.

  On entry the layer's input array h is the reference's value of the previous layer (the node features, for the first
  layer). The matrix-product region leaves h · W, row block by row block, which is the reference's product, entry by
  entry the same sum over the contracted axis. The host stretch gathers the rows of h · W at the edges' sources, scales
  row e by the edge's normalisation n[e] and adds it into row d[e] of a zero array: the same operations, in the same
  order, of the same arrays as the reference's, so the aggregate is the reference's aggregate. The bias region adds the
  bias row to every row and takes the maximum with zero, which is the reference's add and relu read entry by entry.
  The arrays s, d, n and the arguments still to be read are written by no segment of the layer.
-/
import proofs.«114307_j63015760166989_1_alg».proof.Proof.Boundary4
import proofs.«114307_j63015760166989_1_alg».proof.Proof.Host5
import proofs.«114307_j63015760166989_1_alg».proof.Proof.Layer5Matmul
import proofs.«114307_j63015760166989_1_alg».proof.Proof.Layer5BiasRelu
import proofs.«114307_j63015760166989_1_alg».proof.Proof.Layer5BiasRef
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the matrix-product region -/
theorem at16_main_v5 : W16 m ρ c (Proc.devRef .tc main_v5) = (val_main_v5 (F := Ideal) (m ((c.tc : Thread nD τ).loc main_arg1))) :=
  (W16_of_ne m ρ c main_v5 (by decide)).trans (at15_main_v5 m ρ c)
theorem at16_main_v6 : W16 m ρ c (Proc.devRef .tc main_v6) = (val_main_v6 (F := Ideal) (m ((c.tc : Thread nD τ).loc main_arg1))) :=
  (W16_of_ne m ρ c main_v6 (by decide)).trans (at15_main_v6 m ρ c)
theorem at16_main_v31 : W16 m ρ c (Proc.devRef .tc main_v31) = (val_main_v31 (F := Ideal) (m ((c.tc : Thread nD τ).loc main_arg1)) (m ((c.tc : Thread nD τ).loc main_arg2))) :=
  (W16_of_ne m ρ c main_v31 (by decide)).trans (at15_main_v31 m ρ c)
theorem at16_main_arg12 : W16 m ρ c (Proc.devRef .tc main_arg12) = (m ((c.tc : Thread nD τ).loc main_arg12)) :=
  (W16_of_ne m ρ c main_arg12 (by decide)).trans (at15_main_arg12 m ρ c)
theorem at16_main_arg13 : W16 m ρ c (Proc.devRef .tc main_arg13) = (m ((c.tc : Thread nD τ).loc main_arg13)) :=
  (W16_of_ne m ρ c main_arg13 (by decide)).trans (at15_main_arg13 m ρ c)
theorem at16_main_arg14 : W16 m ρ c (Proc.devRef .tc main_arg14) = (m ((c.tc : Thread nD τ).loc main_arg14)) :=
  (W16_of_ne m ρ c main_arg14 (by decide)).trans (at15_main_arg14 m ρ c)
theorem at16_main_arg15 : W16 m ρ c (Proc.devRef .tc main_arg15) = (m ((c.tc : Thread nD τ).loc main_arg15)) :=
  (W16_of_ne m ρ c main_arg15 (by decide)).trans (at15_main_arg15 m ρ c)
theorem at16_main_arg16 : W16 m ρ c (Proc.devRef .tc main_arg16) = (m ((c.tc : Thread nD τ).loc main_arg16)) :=
  (W16_of_ne m ρ c main_arg16 (by decide)).trans (at15_main_arg16 m ρ c)

/-- The region's output array is the reference's product of the layer's input and its weight matrix. -/
theorem at16_main_v96 : W16 m ρ c (Proc.devRef .tc main_v96) = (val_main_v216 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  refine (W16_arr m ρ c 2).trans ?_
  have hX : V15 m ρ c (Pipeline.arrRef spec8 0) = (val_main_v187 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := at15_main_v95 m ρ c
  have hW : V15 m ρ c (Pipeline.arrRef spec8 1) = (m ((c.tc : Thread nD τ).loc main_arg11)) := at15_main_arg11 m ρ c
  rw [layer5_matmul (V15 m ρ) c, hX, hW]
  funext i
  exact (val_main_v216_apply _ _ _ _ _ _ _ _ _ _ _ _ i).symm

/-! ## After the host stretch -/
theorem at17_main_v5 : W17 m ρ c (Proc.devRef .tc main_v5) = (val_main_v5 (F := Ideal) (m ((c.tc : Thread nD τ).loc main_arg1))) :=
  (StableHlo.after_of_forall_not_mem (b := Proc.devRef .tc main_v5) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_v5 m ρ c)
theorem at17_main_v6 : W17 m ρ c (Proc.devRef .tc main_v6) = (val_main_v6 (F := Ideal) (m ((c.tc : Thread nD τ).loc main_arg1))) :=
  (StableHlo.after_of_forall_not_mem (b := Proc.devRef .tc main_v6) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_v6 m ρ c)
theorem at17_main_v31 : W17 m ρ c (Proc.devRef .tc main_v31) = (val_main_v31 (F := Ideal) (m ((c.tc : Thread nD τ).loc main_arg1)) (m ((c.tc : Thread nD τ).loc main_arg2))) :=
  (StableHlo.after_of_forall_not_mem (b := Proc.devRef .tc main_v31) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_v31 m ρ c)
theorem at17_main_arg12 : W17 m ρ c (Proc.devRef .tc main_arg12) = (m ((c.tc : Thread nD τ).loc main_arg12)) :=
  (StableHlo.after_of_forall_not_mem (b := Proc.devRef .tc main_arg12) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_arg12 m ρ c)
theorem at17_main_arg13 : W17 m ρ c (Proc.devRef .tc main_arg13) = (m ((c.tc : Thread nD τ).loc main_arg13)) :=
  (StableHlo.after_of_forall_not_mem (b := Proc.devRef .tc main_arg13) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_arg13 m ρ c)
theorem at17_main_arg14 : W17 m ρ c (Proc.devRef .tc main_arg14) = (m ((c.tc : Thread nD τ).loc main_arg14)) :=
  (StableHlo.after_of_forall_not_mem (b := Proc.devRef .tc main_arg14) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_arg14 m ρ c)
theorem at17_main_arg15 : W17 m ρ c (Proc.devRef .tc main_arg15) = (m ((c.tc : Thread nD τ).loc main_arg15)) :=
  (StableHlo.after_of_forall_not_mem (b := Proc.devRef .tc main_arg15) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_arg15 m ρ c)
theorem at17_main_arg16 : W17 m ρ c (Proc.devRef .tc main_arg16) = (m ((c.tc : Thread nD τ).loc main_arg16)) :=
  (StableHlo.after_of_forall_not_mem (b := Proc.devRef .tc main_arg16) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at16_main_arg16 m ρ c)

/-- The aggregate: the host's gather, scaling and scatter-add of the product, the same operations as the reference's. -/
theorem at17_main_v109 : W17 m ρ c (Proc.devRef .tc main_v109) = (val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (host_agg5 (W16 m ρ c) _ _ _ (at16_main_v96 m ρ c) (at16_main_v5 m ρ c) (at16_main_v6 m ρ c) (at16_main_v31 m ρ c)).trans
    (ref_agg5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).symm

/-- The bias, reshaped to one row. -/
theorem at17_main_v110 : W17 m ρ c (Proc.devRef .tc main_v110) = (shapeCast S1x32 (m ((c.tc : Thread nD τ).loc main_arg12)) shapeCasts_S32_S1x32) :=
  host_bias_row5 (W16 m ρ c) _ (at16_main_arg12 m ρ c)

/-! ## After the bias region -/
theorem at18_main_v5 : W18 m ρ c (Proc.devRef .tc main_v5) = (val_main_v5 (F := Ideal) (m ((c.tc : Thread nD τ).loc main_arg1))) :=
  (W18_of_ne m ρ c main_v5 (by decide)).trans (at17_main_v5 m ρ c)
theorem at18_main_v6 : W18 m ρ c (Proc.devRef .tc main_v6) = (val_main_v6 (F := Ideal) (m ((c.tc : Thread nD τ).loc main_arg1))) :=
  (W18_of_ne m ρ c main_v6 (by decide)).trans (at17_main_v6 m ρ c)
theorem at18_main_v31 : W18 m ρ c (Proc.devRef .tc main_v31) = (val_main_v31 (F := Ideal) (m ((c.tc : Thread nD τ).loc main_arg1)) (m ((c.tc : Thread nD τ).loc main_arg2))) :=
  (W18_of_ne m ρ c main_v31 (by decide)).trans (at17_main_v31 m ρ c)
theorem at18_main_arg13 : W18 m ρ c (Proc.devRef .tc main_arg13) = (m ((c.tc : Thread nD τ).loc main_arg13)) :=
  (W18_of_ne m ρ c main_arg13 (by decide)).trans (at17_main_arg13 m ρ c)
theorem at18_main_arg14 : W18 m ρ c (Proc.devRef .tc main_arg14) = (m ((c.tc : Thread nD τ).loc main_arg14)) :=
  (W18_of_ne m ρ c main_arg14 (by decide)).trans (at17_main_arg14 m ρ c)
theorem at18_main_arg15 : W18 m ρ c (Proc.devRef .tc main_arg15) = (m ((c.tc : Thread nD τ).loc main_arg15)) :=
  (W18_of_ne m ρ c main_arg15 (by decide)).trans (at17_main_arg15 m ρ c)
theorem at18_main_arg16 : W18 m ρ c (Proc.devRef .tc main_arg16) = (m ((c.tc : Thread nD τ).loc main_arg16)) :=
  (W18_of_ne m ρ c main_arg16 (by decide)).trans (at17_main_arg16 m ρ c)

/-- The layer's output array is the reference's value of the layer. -/
theorem at18_main_v111 : W18 m ρ c (Proc.devRef .tc main_v111) = (val_main_v233 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  refine (W18_arr m ρ c 2).trans ?_
  have hA : V17 m ρ c (Pipeline.arrRef spec9 0) = (val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := at17_main_v109 m ρ c
  have hB : V17 m ρ c (Pipeline.arrRef spec9 1) = (shapeCast S1x32 (m ((c.tc : Thread nD τ).loc main_arg12)) shapeCasts_S32_S1x32) := at17_main_v110 m ρ c
  rw [layer5_bias_relu (V17 m ρ) c, hA, hB]
  exact (Cert.ReferenceIdeal.Rows.ref_layer5_bias_relu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) shapeCasts_S32_S1x32).symm

end Cert.KernelIdeal.Rows

end
-- ==== Proof.Host6.lean ====
/-
  Layer 6's host stretch, at any float instance.

  Between the matrix-product region and the bias region the host gathers the rows of the product at the edges'
  sources (an index below zero wraps round by the number of nodes), scales row e by the edge's normalisation and adds it
  into row d[e] of a zero array; it also reshapes the bias to one row. The aggregate is therefore one function of the
  product, the edge list and the edge weights. The reference's aggregate stage is that function of its own product
  stage, and the kernel's stretch computes it from whatever contents it is entered with, provided the product buffer
  and the three shared arrays s, d, n hold what they should. Nothing here depends on what a float is.
-/
import proofs.«114307_j63015760166989_1_alg».proof.Proof.Gen.KernelIdeal.Launch
import proofs.«114307_j63015760166989_1_alg».proof.Proof.ReferenceStages
import Idealize.ShloMosaic.Lib.StableHlo.Run

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The layer's aggregate as a function of the product `xw`, the edge list `x1` and the edge weights `x2`. -/
def agg6 (xw : (⟨Cert.ReferenceIdeal.S50000x32, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x32, .f32⟩ : BufTy).Contents (Elt F) :=
  Host.scatterAdd Cert.ReferenceIdeal.scatter_S50000x32_S850000x1_S850000x32_1_0_0_1 (val_main_v273 (F := F)) (val_main_v274 (F := F) x1)
    (mulf (Host.gather Cert.ReferenceIdeal.gather_S50000x32_S850000x1_S850000x32_1_0_n_n_0_1_132 xw (val_main_v268 (F := F) x1)) (val_main_v271 (F := F) x1 x2))

/-- The reference's aggregate stage is that function of its product stage. -/
theorem ref_agg6 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) (x3 : (⟨Cert.ReferenceIdeal.S128x256, .f32⟩ : BufTy).Contents (Elt F)) (x4 : (⟨Cert.ReferenceIdeal.S256, .f32⟩ : BufTy).Contents (Elt F)) (x5 : (⟨Cert.ReferenceIdeal.S256x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x32, .f32⟩ : BufTy).Contents (Elt F)) (x12 : (⟨Cert.ReferenceIdeal.S32, .f32⟩ : BufTy).Contents (Elt F)) (x13 : (⟨Cert.ReferenceIdeal.S32x32, .f32⟩ : BufTy).Contents (Elt F)) :
    val_main_v275 (F := F) x0 x1 x2 x3 x4 x5 x6 x7 x8 x9 x10 x11 x12 x13 = agg6 (val_main_v262 (F := F) x0 x1 x2 x3 x4 x5 x6 x7 x8 x9 x10 x11 x12 x13) x1 x2 := rfl

/-- The kernel's stretch, entered with the product in its buffer and s, d, n in theirs, leaves the aggregate. -/
theorem host_agg6 (V : Valuation τ sig (Elt F)) (xw : (⟨Cert.ReferenceIdeal.S50000x32, .f32⟩ : BufTy).Contents (Elt F)) (x1 : (⟨Cert.ReferenceIdeal.S2x800000, .i32⟩ : BufTy).Contents (Elt F)) (x2 : (⟨Cert.ReferenceIdeal.S800000, .f32⟩ : BufTy).Contents (Elt F))
    (hxw : V (Proc.devRef .tc main_v112) = xw) (h5 : V (Proc.devRef .tc main_v5) = val_main_v5 (F := F) x1)
    (h6 : V (Proc.devRef .tc main_v6) = val_main_v6 (F := F) x1) (h31 : V (Proc.devRef .tc main_v31) = val_main_v31 (F := F) x1 x2) :
    StableHlo.after hostOps11 V (Proc.devRef .tc main_v125) = agg6 xw x1 x2 := by
  dsimp only [hostOps11]
  after_results_simp
  rw [hxw, h5, h6, h31]
  rfl

/-- The same stretch leaves the bias reshaped to one row. -/
theorem host_bias_row6 (V : Valuation τ sig (Elt F)) (b : (⟨Cert.ReferenceIdeal.S32, .f32⟩ : BufTy).Contents (Elt F)) (hb : V (Proc.devRef .tc main_arg14) = b) :
    StableHlo.after hostOps11 V (Proc.devRef .tc main_v126) = shapeCast S1x32 b shapeCasts_S32_S1x32 := by
  dsimp only [hostOps11]
  after_results_simp
  exact congrArg (fun x => shapeCast S1x32 x shapeCasts_S32_S1x32) hb

end Cert.KernelIdeal.Rows

end
-- ==== Proof.Layer6Matmul.lean ====
/-
  The sixth dense layer's product, read off the pipelined kernel.

  The kernel multiplies the activations A of the layer before (50000 × 32) by the layer's weight matrix W (32 × 32) in ten steps:
  step t stages rows 5000·t … 5000·t + 4999 of the left operand and the whole of W, forms the 5000 × 32
  product of the two staged blocks into a zero accumulator, and writes it back as the same rows of the
  result.  At the exact-real instance the narrowing of the operands before the product is the identity
  and the product of two blocks at (r, c) is the plain sum over the 32 inner positions, so each written
  block is the matching block of the ONE array  i ↦ ∑ₖ A(i₀, k) · W(k, i₁).  The ten row blocks tile the
  50000 rows (row r lies in block r / 5000), hence the result array is that array.
-/
import proofs.«114307_j63015760166989_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.SL.Sem
open Idealize.ShloMosaic.Pipeline (Dat)

/-! ## The index functions of a row-by-column product -/

/-- Entry (i₀, k) of the left operand: row of the result entry `i`, inner position `k`. -/
abbrev lrow6 (i : S50000x32.Idx) (k : Fin 32) : S50000x32.Idx := fun a => match a with
  | ⟨0, _⟩ => ⟨(i 0).val, (i 0).isLt⟩
  | ⟨1, _⟩ => ⟨k.val, k.isLt⟩
/-- Entry (k, i₁) of the right operand: inner position `k`, column of the result entry `i`. -/
abbrev rcol6 (i : S50000x32.Idx) (k : Fin 32) : S32x32.Idx := fun a => match a with
  | ⟨0, _⟩ => ⟨k.val, k.isLt⟩
  | ⟨1, _⟩ => ⟨(i 1).val, (i 1).isLt⟩

/-- The same two inside one step's blocks: entry (j₀, k) of the staged 5000 rows … -/
abbrev blockrow6 (j : S5000x32.Idx) (k : Fin 32) : S5000x32.Idx := fun a => match a with
  | ⟨0, _⟩ => ⟨(j 0).val, (j 0).isLt⟩
  | ⟨1, _⟩ => ⟨k.val, k.isLt⟩
/-- … and entry (k, j₁) of the staged weights. -/
abbrev blockcol6 (j : S5000x32.Idx) (k : Fin 32) : S32x32.Idx := fun a => match a with
  | ⟨0, _⟩ => ⟨k.val, k.isLt⟩
  | ⟨1, _⟩ => ⟨(j 1).val, (j 1).isLt⟩

/-- The product array: entry `i` is the sum over the inner position of row i₀ of `a0` times column i₁ of `a1`. -/
abbrev prod6 (a0 : S50000x32.Idx → EReal) (a1 : S32x32.Idx → EReal) : S50000x32.Idx → EReal :=
  fun i => ∑ k : Fin 32, a0 (lrow6 i k) * a1 (rcol6 i k)

/-- One term of that sum, with the two operand positions free. -/
abbrev term6 (a0 : S50000x32.Idx → EReal) (a1 : S32x32.Idx → EReal) (p : S50000x32.Idx) (q : S32x32.Idx) : EReal := a0 p * a1 q

theorem no_offsets6 : (![0, 0] : Fin 2 → Nat) = fun _ => 0 := funext fun a => by fin_cases a <;> rfl

/-! ## One step's product of blocks, entry by entry -/

/-- The operand positions the block product's dimension numbers name at result entry `j` and inner position `q`:
    the left one keeps the row and runs along the inner axis, the right one runs along it and keeps the column. -/
theorem left_row6 (j : S5000x32.Idx) (q : dot_S5000x32_S32x32_S5000x32_1_0_0_1_n_n.contr.Idx) :
    (dot_S5000x32_S32x32_S5000x32_1_0_0_1_n_n.lhsIdx j q 0).val = (j 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem left_inner6 (j : S5000x32.Idx) (q : dot_S5000x32_S32x32_S5000x32_1_0_0_1_n_n.contr.Idx) :
    (dot_S5000x32_S32x32_S5000x32_1_0_0_1_n_n.lhsIdx j q 1).val = (q ⟨0, by decide⟩).val :=
  dot_S5000x32_S32x32_S5000x32_1_0_0_1_n_n.lhsIdx_val_of_single rfl j q
theorem right_inner6 (j : S5000x32.Idx) (q : dot_S5000x32_S32x32_S5000x32_1_0_0_1_n_n.contr.Idx) :
    (dot_S5000x32_S32x32_S5000x32_1_0_0_1_n_n.rhsIdx j q 0).val = (q ⟨0, by decide⟩).val :=
  dot_S5000x32_S32x32_S5000x32_1_0_0_1_n_n.rhsIdx_val_of_single rfl j q
theorem right_col6 (j : S5000x32.Idx) (q : dot_S5000x32_S32x32_S5000x32_1_0_0_1_n_n.contr.Idx) :
    (dot_S5000x32_S32x32_S5000x32_1_0_0_1_n_n.rhsIdx j q 1).val = (j 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- At the exact reals the step's value at entry `j` is the sum over the inner position of the staged rows times
    the staged weights: narrowing the operands (and re-reading the left block in its own shape) changes nothing and the accumulator starts at zero. -/
theorem block_product6 (x0 : Vec Ideal S5000x32 .f32) (x1 : Vec Ideal S32x32 .f32) (j : S5000x32.Idx) :
    k10_pay1 (F := Ideal) x0 x1 j = ∑ k : Fin 32, x0 (blockrow6 j k) * x1 (blockcol6 j k) := by
  unfold k10_pay1
  refine (Ideal.matmul_constant_zero_apply dot_S5000x32_S32x32_S5000x32_1_0_0_1_n_n none
    (truncf (F := Ideal) .bf16 (shapeCast S5000x32 x0 shapeCasts_S5000x32_S5000x32) bitsLt_bf16_f32) (truncf (F := Ideal) .bf16 x1 bitsLt_bf16_f32) j).trans ?_
  rw [← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx j ((ValueIdx.contrEquiv1 dot_S5000x32_S32x32_S5000x32_1_0_0_1_n_n 32 rfl rfl).symm k) = blockrow6 j k := funext fun a => Fin.ext (by
    match a with
    | ⟨0, _⟩ => exact left_row6 _ _
    | ⟨1, _⟩ => exact (left_inner6 _ _).trans hk)
  have er : dot_S5000x32_S32x32_S5000x32_1_0_0_1_n_n.rhsIdx j ((ValueIdx.contrEquiv1 dot_S5000x32_S32x32_S5000x32_1_0_0_1_n_n 32 rfl rfl).symm k) = blockcol6 j k := funext fun a => Fin.ext (by
    match a with
    | ⟨0, _⟩ => exact (right_inner6 _ _).trans hk
    | ⟨1, _⟩ => exact right_col6 _ _)
  show shapeCast S5000x32 x0 shapeCasts_S5000x32_S5000x32 _ * x1 _ = _
  rw [shapeCast_self, el, er]

/-! ## Where the steps' blocks sit -/

/-- Decided over the ten steps: the staged rows of the left operand are the rows written back, all other block
    positions are zero, and the row-block position stays below ten. -/
theorem block_positions6 : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (1 : Fin 2) = 0
    ∧ win10_2.index t (0 : Fin 2) ≤ 9 :=
  (by decide +kernel : ∀ t : Fin grid10.N, _)

/-- Every one of the ten row blocks is written by some step. -/
theorem block_of_rows6 : ∀ q : Fin 10, ∃ t : Fin cfg10.N, win10_2.index t = ![q.val, 0] :=
  (by decide +kernel : ∀ q : Fin 10, ∃ t : Fin grid10.N, win10_2.index t = ![q.val, 0])

variable (V : (c : Dev nD) → (b : Ref sig .tc) → Buf (Elt Ideal) ((c : Thread nD τ).loc b))

/-- What step `t` writes back is its block of the product array of the two operands as the layer finds them. -/
theorem step_writes6 (c : Dev nD) (t : Fin cfg10.N) :
    (dat10 (F := Ideal) V c).flushed 2 t
      = ((cfg10.win 2).blk t).view.read (Elt Ideal) (prod6 (V c (Pipeline.arrRef spec10 0)) (V c (Pipeline.arrRef spec10 1))) := by
  show (cfg10.win 2).cut (grid10.coords t) ((dat10 (F := Ideal) V c).after 2 t) = _
  rw [after10_2]
  unfold out10_2
  rw [View.canon_unit_zero no_offsets6]
  simp only [View.ld_unit_zero (S := S5000x32) no_offsets6, View.ld_unit_zero (S := S32x32) no_offsets6]
  obtain ⟨e0, e1, e2, e3, e4, e5⟩ := block_positions6 t
  funext j
  show k10_pay1 (F := Ideal) (iblk10 V c 0 t) (iblk10 V c 1 t) j
    = prod6 (V c (Pipeline.arrRef spec10 0)) (V c (Pipeline.arrRef spec10 1)) (((cfg10.win 2).blk t).view.emb j)
  refine (block_product6 (iblk10 V c 0 t) (iblk10 V c 1 t) j).trans ?_
  refine Finset.sum_congr rfl fun k _ => ?_
  have h0 : ((cfg10.win 0).blk t).view.emb (blockrow6 j k) = lrow6 (((cfg10.win 2).blk t).view.emb j) k := by
    funext a; apply Fin.ext
    match a with
    | ⟨0, _⟩ => show win10_0.index t (0 : Fin 2) * 5000 + 1 * (j 0).val = win10_2.index t (0 : Fin 2) * 5000 + 1 * (j 0).val; omega
    | ⟨1, _⟩ => show win10_0.index t (1 : Fin 2) * 32 + 1 * k.val = k.val; omega
  have h1 : ((cfg10.win 1).blk t).view.emb (blockcol6 j k) = rcol6 (((cfg10.win 2).blk t).view.emb j) k := by
    funext a; apply Fin.ext
    match a with
    | ⟨0, _⟩ => show win10_1.index t (0 : Fin 2) * 32 + 1 * k.val = k.val; omega
    | ⟨1, _⟩ => show win10_1.index t (1 : Fin 2) * 32 + 1 * (j 1).val = win10_2.index t (1 : Fin 2) * 32 + 1 * (j 1).val; omega
  show term6 (V c (Pipeline.arrRef spec10 0)) (V c (Pipeline.arrRef spec10 1))
        (((cfg10.win 0).blk t).view.emb (blockrow6 j k)) (((cfg10.win 1).blk t).view.emb (blockcol6 j k))
      = term6 (V c (Pipeline.arrRef spec10 0)) (V c (Pipeline.arrRef spec10 1))
        (lrow6 (((cfg10.win 2).blk t).view.emb j) k) (rcol6 (((cfg10.win 2).blk t).view.emb j) k)
  rw [h0, h1]

/-- A result entry lies in step `t`'s block iff each coordinate lies in the block's range on its axis. -/
theorem mem_step_block6 (t : Fin cfg10.N) (i : S50000x32.Idx) :
    i ∈ ((cfg10.win 2).blk t).view.set ↔ ∀ a : Fin 2, win10_2.index t a * S5000x32.size a ≤ (i a).val ∧ (i a).val < win10_2.index t a * S5000x32.size a + S5000x32.size a := by
  show i ∈ ((View.whole main_v112).slice (win10_2.rect t)).set ↔ _
  rw [View.set_slice_whole, Rect.mem_set_unit]
  exact Iff.rfl

/-- The ten row blocks tile the result: row r lies in block r / 5000. -/
theorem rows_covered6 (i : S50000x32.Idx) :
    ∃ t : Fin cfg10.N, (cfg10.win 2).flush t = true ∧ i ∈ ((cfg10.win 2).blk t).view.set := by
  have hi0 : (i 0).val < 50000 := (i 0).isLt
  have hi1 : (i 1).val < 32 := (i 1).isLt
  obtain ⟨t, ht⟩ := block_of_rows6 ⟨(i 0).val / 5000, by omega⟩
  have q0 : win10_2.index t (0 : Fin 2) = (i 0).val / 5000 := congrFun ht 0
  have q1 : win10_2.index t (1 : Fin 2) = 0 := congrFun ht 1
  refine ⟨t, flush10_2 t, ?_⟩
  rw [mem_step_block6]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 32 ≤ (i 1).val ∧ (i 1).val < win10_2.index t (1 : Fin 2) * 32 + 32; omega

/-- After the layer's ten steps the result array is the product of the two operand arrays as the layer found them. -/
theorem layer6_matmul (c : Dev nD) :
    (dat10 (F := Ideal) V c).arrAt 2 cfg10.N
      = prod6 (V c (Pipeline.arrRef spec10 0)) (V c (Pipeline.arrRef spec10 1)) :=
  (dat10 (F := Ideal) V c).arrAt_eq_of_cover 2 (prod6 (V c (Pipeline.arrRef spec10 0)) (V c (Pipeline.arrRef spec10 1)))
    (fun t _ => step_writes6 V c t) rows_covered6

end Cert.KernelIdeal.Rows

end
-- ==== Proof.Layer6BiasRelu.lean ====
import proofs.«114307_j63015760166989_1_alg».proof.Proof.Gen.KernelIdeal.Frame
import Idealize.ShloMosaic.Lib.ValueIdx
import Idealize.ShloMosaic.Lib.Pipeline.Value
import Idealize.ShloMosaic.Lib.ValueLayout

/-! Layer 6, bias and ReLU: the array the region leaves is, index by index, the maximum of zero and the
    aggregated array plus the bias row.  The body adds the one bias row to every row of its block and takes
    the maximum with zero; the ten row blocks of 5000 rows tile the 50000 rows. -/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The body's offsets, all zero. -/
theorem zero_offsets6 : (![0, 0] : Fin 2 → Nat) = fun _ => 0 := funext fun a => by fin_cases a <;> rfl

/-- The bias row's index under an index of the array: row 0, the same column. -/
abbrev brow6 (i : S50000x32.Idx) : S1x32.Idx :=
  fun a => match a with | ⟨0, _⟩ => ⟨0, Nat.one_pos⟩ | ⟨1, _⟩ => ⟨(i 1).val, (i 1).isLt⟩

/-- The body's value at row `p`, column `q` of its block: the block's element plus the bias row's element of
    that column, or zero if that is larger. -/
theorem pay6_apply (x0 : Vec Ideal S5000x32 .f32) (x1 : Vec Ideal S1x32 .f32) (p : Fin 5000) (q : Fin 32) :
    k11_pay1 (F := Ideal) x0 x1 (ix2 p q)
      = FloatOps.maximumf (FloatOps.addf (x0 (ix2 p q)) (x1 (ix2 (0 : Fin 1) q))) (FloatOps.ofBits .f32 0x00000000#32) := by
  unfold k11_pay1
  show FloatOps.maximumf (FloatOps.addf (shapeCast (α := Ideal .f32) S5000x32 x0 shapeCasts_S5000x32_S5000x32 (ix2 p q))
      (broadcastTo (α := Ideal .f32) S5000x32 (shapeCast (α := Ideal .f32) S1x32 x1 shapeCasts_S1x32_S1x32) broadcasts_S1x32_S5000x32 (ix2 p q))) _ = _
  rw [shapeCast_self, shapeCast_self, broadcastTo_1b_ab_apply]
  rfl

/-- The same at any index `y` of the block, once the two blocks' elements are known as elements `A0 i` and
    `A1 (brow6 i)` of two arrays. -/
theorem pay6_value (x0 : Vec Ideal S5000x32 .f32) (x1 : Vec Ideal S1x32 .f32)
    (A0 : S50000x32.Idx → Ideal .f32) (A1 : S1x32.Idx → Ideal .f32) (y : S5000x32.Idx) (i : S50000x32.Idx)
    (h0 : x0 y = A0 i) (h1 : x1 (ix2 (0 : Fin 1) (⟨(y 1).val, (y 1).isLt⟩ : Fin 32)) = A1 (brow6 i)) :
    k11_pay1 (F := Ideal) x0 x1 y
      = FloatOps.maximumf (FloatOps.addf (A0 i) (A1 (brow6 i))) (FloatOps.ofBits .f32 0x00000000#32) := by
  have hy : y = ix2 (⟨(y 0).val, (y 0).isLt⟩ : Fin 5000) (⟨(y 1).val, (y 1).isLt⟩ : Fin 32) := by
    funext a; match a with | ⟨0, _⟩ => rfl | ⟨1, _⟩ => rfl
  rw [← h0, ← h1]
  conv_lhs => rw [hy]
  conv_rhs => rw [hy]
  exact pay6_apply x0 x1 _ _

variable (V : (c : Dev nD) → (b : Ref sig .tc) → Buf (Elt Ideal) ((c : Thread nD τ).loc b))

/-- What the array ends holding: index by index, the aggregated array plus the bias row, or zero if larger. -/
abbrev G6 (c : Dev nD) : S50000x32.Idx → Ideal .f32 := fun i =>
  FloatOps.maximumf (FloatOps.addf ((V c (Pipeline.arrRef spec11 0) : S50000x32.Idx → Ideal .f32) i)
    ((V c (Pipeline.arrRef spec11 1) : S1x32.Idx → Ideal .f32) (brow6 i))) (FloatOps.ofBits .f32 0x00000000#32)

/-- The index maps over the ten grid points: the input rows move with the output rows, every other block index
    is zero, and the output's row-block index is at most 9. -/
theorem index_facts6 : ∀ t : Fin cfg11.N, win11_0.index t (0 : Fin 2) = win11_2.index t (0 : Fin 2)
    ∧ win11_0.index t (1 : Fin 2) = 0
    ∧ win11_1.index t (0 : Fin 2) = 0
    ∧ win11_1.index t (1 : Fin 2) = 0
    ∧ win11_2.index t (1 : Fin 2) = 0
    ∧ win11_2.index t (0 : Fin 2) ≤ 9 :=
  (by decide +kernel : ∀ t : Fin grid11.N, _)

/-- Every one of the ten row blocks is some grid point's. -/
theorem index_onto6 : ∀ q : Fin 10, ∃ t : Fin cfg11.N, win11_2.index t = ![q.val, 0] :=
  (by decide +kernel : ∀ q : Fin 10, ∃ t : Fin grid11.N, win11_2.index t = ![q.val, 0])

/-- The rows block at point `t`, at `y`, is the aggregated array at row `5000 · (block index) + y 0`, column `y 1`. -/
theorem rows_block6 (c : Dev nD) (t : Fin cfg11.N) (y : S5000x32.Idx) (i : S50000x32.Idx)
    (h0 : (i 0).val = win11_2.index t (0 : Fin 2) * 5000 + (y 0).val) (h1 : (i 1).val = (y 1).val) :
    (iblk11 V c 0 t : Vec Ideal S5000x32 .f32) y = (V c (Pipeline.arrRef spec11 0) : S50000x32.Idx → Ideal .f32) i := by
  obtain ⟨e0, e1, e2, e3, e4, e5⟩ := index_facts6 t
  unfold iblk11
  rw [View.read_apply]
  show (V c (Pipeline.arrRef spec11 0) : S50000x32.Idx → Ideal .f32) (((cfg11.win 0).blk t).view.emb y) = _
  refine congrArg _ ?_
  funext a; apply Fin.ext
  match a with
  | ⟨0, _⟩ => show win11_0.index t (0 : Fin 2) * 5000 + 1 * (y 0).val = (i 0).val; omega
  | ⟨1, _⟩ => show win11_0.index t (1 : Fin 2) * 32 + 1 * (y 1).val = (i 1).val; omega

/-- The bias block at any point is the whole bias row. -/
theorem bias_block6 (c : Dev nD) (t : Fin cfg11.N) (y : S1x32.Idx) (k : S1x32.Idx)
    (h0 : (k 0).val = (y 0).val) (h1 : (k 1).val = (y 1).val) :
    (iblk11 V c 1 t : Vec Ideal S1x32 .f32) y = (V c (Pipeline.arrRef spec11 1) : S1x32.Idx → Ideal .f32) k := by
  obtain ⟨e0, e1, e2, e3, e4, e5⟩ := index_facts6 t
  unfold iblk11
  rw [View.read_apply]
  show (V c (Pipeline.arrRef spec11 1) : S1x32.Idx → Ideal .f32) (((cfg11.win 1).blk t).view.emb y) = _
  refine congrArg _ ?_
  funext a; apply Fin.ext
  match a with
  | ⟨0, _⟩ => show win11_1.index t (0 : Fin 2) * 1 + 1 * (y 0).val = (k 0).val; omega
  | ⟨1, _⟩ => show win11_1.index t (1 : Fin 2) * 32 + 1 * (y 1).val = (k 1).val; omega

/-- What point `t` writes back is block `t` of `G6`. -/
theorem flushed6_eq (c : Dev nD) (t : Fin cfg11.N) :
    (dat11 (F := Ideal) V c).flushed 2 t = ((cfg11.win 2).blk t).view.read (Elt Ideal) (G6 V c) := by
  show (cfg11.win 2).cut (grid11.coords t) ((dat11 V c).after 2 t) = _
  rw [after11_2]
  unfold out11_2
  rw [View.canon_unit_zero zero_offsets6]
  simp only [View.ld_unit_zero (S := S5000x32) zero_offsets6, View.ld_unit_zero (S := S1x32) zero_offsets6]
  funext j
  rw [View.read_apply]
  show k11_pay1 (F := Ideal) (iblk11 V c 0 t) (iblk11 V c 1 t) ((cfg11.win 2).xinj (grid11.coords t) j)
    = G6 V c (((cfg11.win 2).blk t).view.emb j)
  refine pay6_value (iblk11 V c 0 t) (iblk11 V c 1 t) (V c (Pipeline.arrRef spec11 0)) (V c (Pipeline.arrRef spec11 1))
    ((cfg11.win 2).xinj (grid11.coords t) j) (((cfg11.win 2).blk t).view.emb j) ?_ ?_
  · refine rows_block6 V c t _ _ ?_ ?_
    · show win11_2.index t (0 : Fin 2) * 5000 + 1 * (j 0).val = win11_2.index t (0 : Fin 2) * 5000 + (j 0).val; omega
    · obtain ⟨e0, e1, e2, e3, e4, e5⟩ := index_facts6 t
      show win11_2.index t (1 : Fin 2) * 32 + 1 * (j 1).val = (j 1).val; omega
  · refine bias_block6 V c t _ _ ?_ ?_
    · rfl
    · obtain ⟨e0, e1, e2, e3, e4, e5⟩ := index_facts6 t
      show win11_2.index t (1 : Fin 2) * 32 + 1 * (j 1).val = (j 1).val; omega

/-- An index of the array is in point `t`'s block iff each coordinate is in the block's range on its axis. -/
theorem mem_block6 (t : Fin cfg11.N) (i : S50000x32.Idx) :
    i ∈ ((cfg11.win 2).blk t).view.set ↔ ∀ a : Fin 2, win11_2.index t a * S5000x32.size a ≤ (i a).val
      ∧ (i a).val < win11_2.index t a * S5000x32.size a + S5000x32.size a := by
  show i ∈ ((View.whole main_v127).slice (win11_2.rect t)).set ↔ _
  rw [View.set_slice_whole, Rect.mem_set_unit]
  exact Iff.rfl

/-- Row `r` lies in the block of the point whose row-block index is `r / 5000`: the ten blocks cover the array. -/
theorem covered6 (i : S50000x32.Idx) :
    ∃ t : Fin cfg11.N, (cfg11.win 2).flush t = true ∧ i ∈ ((cfg11.win 2).blk t).view.set := by
  have hi0 : (i 0).val < 50000 := (i 0).isLt
  have hi1 : (i 1).val < 32 := (i 1).isLt
  obtain ⟨t, ht⟩ := index_onto6 ⟨(i 0).val / 5000, by omega⟩
  have q0 : win11_2.index t (0 : Fin 2) = (i 0).val / 5000 := congrFun ht 0
  have q1 : win11_2.index t (1 : Fin 2) = 0 := congrFun ht 1
  refine ⟨t, flush11_2 t, ?_⟩
  rw [mem_block6]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 32 ≤ (i 1).val ∧ (i 1).val < win11_2.index t (1 : Fin 2) * 32 + 32; omega

/-- The array after the region: the aggregated array plus the bias row, or zero if larger, at every index. -/
theorem layer6_bias_relu (c : Dev nD) :
    (dat11 (F := Ideal) V c).arrAt 2 cfg11.N
      = (fun i => FloatOps.maximumf (FloatOps.addf ((V c (Pipeline.arrRef spec11 0) : S50000x32.Idx → Ideal .f32) i)
          ((V c (Pipeline.arrRef spec11 1) : S1x32.Idx → Ideal .f32) (brow6 i))) (FloatOps.ofBits .f32 0x00000000#32)
        : S50000x32.Idx → Ideal .f32) :=
  (dat11 (F := Ideal) V c).arrAt_eq_of_cover 2 (G6 V c) (fun t _ => flushed6_eq V c t) covered6

end Cert.KernelIdeal.Rows

end
-- ==== Proof.Layer6BiasRef.lean ====
import proofs.«114307_j63015760166989_1_alg».proof.Proof.ReferenceStages
import Idealize.ShloMosaic.Lib.ValueIdx
import Idealize.ShloMosaic.Lib.Pipeline.Value

/-! Layer 6 of the reference, bias and ReLU: its value at an index is the maximum of zero and the aggregated
    array plus the bias vector's entry of that column — the bias vector written as the one-row array the
    kernel's program reshapes it to. -/

noncomputable section

namespace Cert.ReferenceIdeal.Rows

open Cert.ReferenceIdeal Idealize.ShloMosaic

/-- The bias vector viewed as one row of 32: at `(0, q)` it reads the vector at `q`, as the broadcast to one
    row does. -/
theorem bias_row6_apply (x14 : (⟨S32, .f32⟩ : BufTy).Contents (Elt Ideal)) (h : S32.ShapeCasts S1x32) (k : S1x32.Idx) :
    shapeCast (α := Ideal .f32) S1x32 x14 h k = x14 (Read.idx_main_v276 k) :=
  shapeCast_apply (α := Ideal .f32) x14 h k (Read.idx_main_v276 k) (by
    have h0 : (k 0).val < 1 := (k 0).isLt
    rw [Shape.rowMajor_val_one, Shape.rowMajor_val_two]
    show (k 1).val = (k 0).val * 32 + (k 1).val
    omega)

/-- The reference's layer 6 after its ReLU, index by index. -/
theorem ref_layer6_bias_relu (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S64x32, .f32⟩ : BufTy).Contents (Elt Ideal))
    (x12 : (⟨S32, .f32⟩ : BufTy).Contents (Elt Ideal)) (x13 : (⟨S32x32, .f32⟩ : BufTy).Contents (Elt Ideal))
    (x14 : (⟨S32, .f32⟩ : BufTy).Contents (Elt Ideal))
    (h : S32.ShapeCasts S1x32) :
    Read.val_main_v279 (F := Ideal) x0 x1 x2 x3 x4 x5 x6 x7 x8 x9 x10 x11 x12 x13 x14
      = fun i => FloatOps.maximumf (FloatOps.addf (Read.val_main_v275 (F := Ideal) x0 x1 x2 x3 x4 x5 x6 x7 x8 x9 x10 x11 x12 x13 i)
          (shapeCast (α := Ideal .f32) S1x32 x14 h (Read.idx_main_v277 i))) (FloatOps.ofBits .f32 0x00000000#32) := by
  funext i
  rw [Read.val_main_v279_apply, Read.val_main_v278_apply, Read.val_main_v277_apply, Read.val_main_v276_apply,
    Read.val_main_call11_v0_apply, Read.val_main_call11_cst_apply, bias_row6_apply]

end Cert.ReferenceIdeal.Rows

end
-- ==== Proof.Boundary6.lean ====
/-
  Layer 6 of the network, followed along the kernel's chain of segments.

  On entry the layer's input array h is the reference's value of the previous layer (the node features, for the first
  layer). The matrix-product region leaves h · W, row block by row block, which is the reference's product, entry by
  entry the same sum over the contracted axis. The host stretch gathers the rows of h · W at the edges' sources, scales
  row e by the edge's normalisation n[e] and adds it into row d[e] of a zero array: the same operations, in the same
  order, of the same arrays as the reference's, so the aggregate is the reference's aggregate. The bias region adds the
  bias row to every row and takes the maximum with zero, which is the reference's add and relu read entry by entry.
  The arrays s, d, n and the arguments still to be read are written by no segment of the layer.
-/
import proofs.«114307_j63015760166989_1_alg».proof.Proof.Boundary5
import proofs.«114307_j63015760166989_1_alg».proof.Proof.Host6
import proofs.«114307_j63015760166989_1_alg».proof.Proof.Layer6Matmul
import proofs.«114307_j63015760166989_1_alg».proof.Proof.Layer6BiasRelu
import proofs.«114307_j63015760166989_1_alg».proof.Proof.Layer6BiasRef
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the matrix-product region -/
theorem at19_main_v5 : W19 m ρ c (Proc.devRef .tc main_v5) = (val_main_v5 (F := Ideal) (m ((c.tc : Thread nD τ).loc main_arg1))) :=
  (W19_of_ne m ρ c main_v5 (by decide)).trans (at18_main_v5 m ρ c)
theorem at19_main_v6 : W19 m ρ c (Proc.devRef .tc main_v6) = (val_main_v6 (F := Ideal) (m ((c.tc : Thread nD τ).loc main_arg1))) :=
  (W19_of_ne m ρ c main_v6 (by decide)).trans (at18_main_v6 m ρ c)
theorem at19_main_v31 : W19 m ρ c (Proc.devRef .tc main_v31) = (val_main_v31 (F := Ideal) (m ((c.tc : Thread nD τ).loc main_arg1)) (m ((c.tc : Thread nD τ).loc main_arg2))) :=
  (W19_of_ne m ρ c main_v31 (by decide)).trans (at18_main_v31 m ρ c)
theorem at19_main_arg14 : W19 m ρ c (Proc.devRef .tc main_arg14) = (m ((c.tc : Thread nD τ).loc main_arg14)) :=
  (W19_of_ne m ρ c main_arg14 (by decide)).trans (at18_main_arg14 m ρ c)
theorem at19_main_arg15 : W19 m ρ c (Proc.devRef .tc main_arg15) = (m ((c.tc : Thread nD τ).loc main_arg15)) :=
  (W19_of_ne m ρ c main_arg15 (by decide)).trans (at18_main_arg15 m ρ c)
theorem at19_main_arg16 : W19 m ρ c (Proc.devRef .tc main_arg16) = (m ((c.tc : Thread nD τ).loc main_arg16)) :=
  (W19_of_ne m ρ c main_arg16 (by decide)).trans (at18_main_arg16 m ρ c)

/-- The region's output array is the reference's product of the layer's input and its weight matrix. -/
theorem at19_main_v112 : W19 m ρ c (Proc.devRef .tc main_v112) = (val_main_v262 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  refine (W19_arr m ρ c 2).trans ?_
  have hX : V18 m ρ c (Pipeline.arrRef spec10 0) = (val_main_v233 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := at18_main_v111 m ρ c
  have hW : V18 m ρ c (Pipeline.arrRef spec10 1) = (m ((c.tc : Thread nD τ).loc main_arg13)) := at18_main_arg13 m ρ c
  rw [layer6_matmul (V18 m ρ) c, hX, hW]
  funext i
  exact (val_main_v262_apply _ _ _ _ _ _ _ _ _ _ _ _ _ _ i).symm

/-! ## After the host stretch -/
theorem at20_main_v5 : W20 m ρ c (Proc.devRef .tc main_v5) = (val_main_v5 (F := Ideal) (m ((c.tc : Thread nD τ).loc main_arg1))) :=
  (StableHlo.after_of_forall_not_mem (b := Proc.devRef .tc main_v5) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at19_main_v5 m ρ c)
theorem at20_main_v6 : W20 m ρ c (Proc.devRef .tc main_v6) = (val_main_v6 (F := Ideal) (m ((c.tc : Thread nD τ).loc main_arg1))) :=
  (StableHlo.after_of_forall_not_mem (b := Proc.devRef .tc main_v6) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at19_main_v6 m ρ c)
theorem at20_main_v31 : W20 m ρ c (Proc.devRef .tc main_v31) = (val_main_v31 (F := Ideal) (m ((c.tc : Thread nD τ).loc main_arg1)) (m ((c.tc : Thread nD τ).loc main_arg2))) :=
  (StableHlo.after_of_forall_not_mem (b := Proc.devRef .tc main_v31) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at19_main_v31 m ρ c)
theorem at20_main_arg14 : W20 m ρ c (Proc.devRef .tc main_arg14) = (m ((c.tc : Thread nD τ).loc main_arg14)) :=
  (StableHlo.after_of_forall_not_mem (b := Proc.devRef .tc main_arg14) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at19_main_arg14 m ρ c)
theorem at20_main_arg15 : W20 m ρ c (Proc.devRef .tc main_arg15) = (m ((c.tc : Thread nD τ).loc main_arg15)) :=
  (StableHlo.after_of_forall_not_mem (b := Proc.devRef .tc main_arg15) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at19_main_arg15 m ρ c)
theorem at20_main_arg16 : W20 m ρ c (Proc.devRef .tc main_arg16) = (m ((c.tc : Thread nD τ).loc main_arg16)) :=
  (StableHlo.after_of_forall_not_mem (b := Proc.devRef .tc main_arg16) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at19_main_arg16 m ρ c)

/-- The aggregate: the host's gather, scaling and scatter-add of the product, the same operations as the reference's. -/
theorem at20_main_v125 : W20 m ρ c (Proc.devRef .tc main_v125) = (val_main_v275 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :=
  (host_agg6 (W19 m ρ c) _ _ _ (at19_main_v112 m ρ c) (at19_main_v5 m ρ c) (at19_main_v6 m ρ c) (at19_main_v31 m ρ c)).trans
    (ref_agg6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))).symm

/-- The bias, reshaped to one row. -/
theorem at20_main_v126 : W20 m ρ c (Proc.devRef .tc main_v126) = (shapeCast S1x32 (m ((c.tc : Thread nD τ).loc main_arg14)) shapeCasts_S32_S1x32) :=
  host_bias_row6 (W19 m ρ c) _ (at19_main_arg14 m ρ c)

/-! ## After the bias region -/
theorem at21_main_v5 : W21 m ρ c (Proc.devRef .tc main_v5) = (val_main_v5 (F := Ideal) (m ((c.tc : Thread nD τ).loc main_arg1))) :=
  (W21_of_ne m ρ c main_v5 (by decide)).trans (at20_main_v5 m ρ c)
theorem at21_main_v6 : W21 m ρ c (Proc.devRef .tc main_v6) = (val_main_v6 (F := Ideal) (m ((c.tc : Thread nD τ).loc main_arg1))) :=
  (W21_of_ne m ρ c main_v6 (by decide)).trans (at20_main_v6 m ρ c)
theorem at21_main_v31 : W21 m ρ c (Proc.devRef .tc main_v31) = (val_main_v31 (F := Ideal) (m ((c.tc : Thread nD τ).loc main_arg1)) (m ((c.tc : Thread nD τ).loc main_arg2))) :=
  (W21_of_ne m ρ c main_v31 (by decide)).trans (at20_main_v31 m ρ c)
theorem at21_main_arg15 : W21 m ρ c (Proc.devRef .tc main_arg15) = (m ((c.tc : Thread nD τ).loc main_arg15)) :=
  (W21_of_ne m ρ c main_arg15 (by decide)).trans (at20_main_arg15 m ρ c)
theorem at21_main_arg16 : W21 m ρ c (Proc.devRef .tc main_arg16) = (m ((c.tc : Thread nD τ).loc main_arg16)) :=
  (W21_of_ne m ρ c main_arg16 (by decide)).trans (at20_main_arg16 m ρ c)

/-- The layer's output array is the reference's value of the layer. -/
theorem at21_main_v127 : W21 m ρ c (Proc.devRef .tc main_v127) = (val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
  refine (W21_arr m ρ c 2).trans ?_
  have hA : V20 m ρ c (Pipeline.arrRef spec11 0) = (val_main_v275 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := at20_main_v125 m ρ c
  have hB : V20 m ρ c (Pipeline.arrRef spec11 1) = (shapeCast S1x32 (m ((c.tc : Thread nD τ).loc main_arg14)) shapeCasts_S32_S1x32) := at20_main_v126 m ρ c
  rw [layer6_bias_relu (V20 m ρ) c, hA, hB]
  exact (Cert.ReferenceIdeal.Rows.ref_layer6_bias_relu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) shapeCasts_S32_S1x32).symm

end Cert.KernelIdeal.Rows

end
-- ==== Proof.Host7.lean ====
/-
  Layer 7's host stretch, at any float instance.

  Between the matrix-product region and the bias region the host gathers the rows of the product at the edges'
  sources (an index below zero wraps round by the number of nodes), scales row e by the edge's normalisation and adds it
  into row d[e] of a zero array; it also reshapes the bias to one row. The aggregate is therefore one function of the
  product, the edge list and the edge weights. The reference's aggregate stage is that function of its own product
  stage, and the kernel's stretch computes it from whatever contents it is entered with, provided the product buffer
  and the three shared arrays s, d, n hold what they should. Nothing here depends on what a float is.
-/
import proofs.«114307_j63015760166989_1_alg».proof.Proof.Gen.KernelIdeal.Launch
import proofs.«114307_j63015760166989_1_alg».proof.Proof.ReferenceStages
import Idealize.ShloMosaic.Lib.StableHlo.Run

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The layer's aggregate as a function of the product `xw`, the edge list `x1` and the edge weights `x2`. -/
def agg7 (xw : (⟨Cert.ReferenceIdeal.S50000x32, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x32, .f32⟩ : BufTy).Contents (Elt F) :=
  Host.scatterAdd Cert.ReferenceIdeal.scatter_S50000x32_S850000x1_S850000x32_1_0_0_1 (val_main_v319 (F := F)) (val_main_v320 (F := F) x1)
    (mulf (Host.gather Cert.ReferenceIdeal.gather_S50000x32_S850000x1_S850000x32_1_0_n_n_0_1_132 xw (val_main_v314 (F := F) x1)) (val_main_v317 (F := F) x1 x2))

/-- The reference's aggregate stage is that function of its product stage. -/
theorem ref_agg7 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) (x3 : (⟨Cert.ReferenceIdeal.S128x256, .f32⟩ : BufTy).Contents (Elt F)) (x4 : (⟨Cert.ReferenceIdeal.S256, .f32⟩ : BufTy).Contents (Elt F)) (x5 : (⟨Cert.ReferenceIdeal.S256x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x32, .f32⟩ : BufTy).Contents (Elt F)) (x12 : (⟨Cert.ReferenceIdeal.S32, .f32⟩ : BufTy).Contents (Elt F)) (x13 : (⟨Cert.ReferenceIdeal.S32x32, .f32⟩ : BufTy).Contents (Elt F)) (x14 : (⟨Cert.ReferenceIdeal.S32, .f32⟩ : BufTy).Contents (Elt F)) (x15 : (⟨Cert.ReferenceIdeal.S32x32, .f32⟩ : BufTy).Contents (Elt F)) :
    val_main_v321 (F := F) x0 x1 x2 x3 x4 x5 x6 x7 x8 x9 x10 x11 x12 x13 x14 x15 = agg7 (val_main_v308 (F := F) x0 x1 x2 x3 x4 x5 x6 x7 x8 x9 x10 x11 x12 x13 x14 x15) x1 x2 := rfl

/-- The kernel's stretch, entered with the product in its buffer and s, d, n in theirs, leaves the aggregate. -/
theorem host_agg7 (V : Valuation τ sig (Elt F)) (xw : (⟨Cert.ReferenceIdeal.S50000x32, .f32⟩ : BufTy).Contents (Elt F)) (x1 : (⟨Cert.ReferenceIdeal.S2x800000, .i32⟩ : BufTy).Contents (Elt F)) (x2 : (⟨Cert.ReferenceIdeal.S800000, .f32⟩ : BufTy).Contents (Elt F))
    (hxw : V (Proc.devRef .tc main_v128) = xw) (h5 : V (Proc.devRef .tc main_v5) = val_main_v5 (F := F) x1)
    (h6 : V (Proc.devRef .tc main_v6) = val_main_v6 (F := F) x1) (h31 : V (Proc.devRef .tc main_v31) = val_main_v31 (F := F) x1 x2) :
    StableHlo.after hostOps13 V (Proc.devRef .tc main_v141) = agg7 xw x1 x2 := by
  dsimp only [hostOps13]
  after_results_simp
  rw [hxw, h5, h6, h31]
  rfl

/-- The same stretch leaves the bias reshaped to one row. -/
theorem host_bias_row7 (V : Valuation τ sig (Elt F)) (b : (⟨Cert.ReferenceIdeal.S32, .f32⟩ : BufTy).Contents (Elt F)) (hb : V (Proc.devRef .tc main_arg16) = b) :
    StableHlo.after hostOps13 V (Proc.devRef .tc main_v142) = shapeCast S1x32 b shapeCasts_S32_S1x32 := by
  dsimp only [hostOps13]
  after_results_simp
  exact congrArg (fun x => shapeCast S1x32 x shapeCasts_S32_S1x32) hb

end Cert.KernelIdeal.Rows

end
-- ==== Proof.Layer7Matmul.lean ====
/-
  The seventh dense layer's product, read off the pipelined kernel.

  The kernel multiplies the activations A of the layer before (50000 × 32) by the layer's weight matrix W (32 × 32) in ten steps:
  step t stages rows 5000·t … 5000·t + 4999 of the left operand and the whole of W, forms the 5000 × 32
  product of the two staged blocks into a zero accumulator, and writes it back as the same rows of the
  result.  At the exact-real instance the narrowing of the operands before the product is the identity
  and the product of two blocks at (r, c) is the plain sum over the 32 inner positions, so each written
  block is the matching block of the ONE array  i ↦ ∑ₖ A(i₀, k) · W(k, i₁).  The ten row blocks tile the
  50000 rows (row r lies in block r / 5000), hence the result array is that array.
-/
import proofs.«114307_j63015760166989_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.SL.Sem
open Idealize.ShloMosaic.Pipeline (Dat)

/-! ## The index functions of a row-by-column product -/

/-- Entry (i₀, k) of the left operand: row of the result entry `i`, inner position `k`. -/
abbrev lrow7 (i : S50000x32.Idx) (k : Fin 32) : S50000x32.Idx := fun a => match a with
  | ⟨0, _⟩ => ⟨(i 0).val, (i 0).isLt⟩
  | ⟨1, _⟩ => ⟨k.val, k.isLt⟩
/-- Entry (k, i₁) of the right operand: inner position `k`, column of the result entry `i`. -/
abbrev rcol7 (i : S50000x32.Idx) (k : Fin 32) : S32x32.Idx := fun a => match a with
  | ⟨0, _⟩ => ⟨k.val, k.isLt⟩
  | ⟨1, _⟩ => ⟨(i 1).val, (i 1).isLt⟩

/-- The same two inside one step's blocks: entry (j₀, k) of the staged 5000 rows … -/
abbrev blockrow7 (j : S5000x32.Idx) (k : Fin 32) : S5000x32.Idx := fun a => match a with
  | ⟨0, _⟩ => ⟨(j 0).val, (j 0).isLt⟩
  | ⟨1, _⟩ => ⟨k.val, k.isLt⟩
/-- … and entry (k, j₁) of the staged weights. -/
abbrev blockcol7 (j : S5000x32.Idx) (k : Fin 32) : S32x32.Idx := fun a => match a with
  | ⟨0, _⟩ => ⟨k.val, k.isLt⟩
  | ⟨1, _⟩ => ⟨(j 1).val, (j 1).isLt⟩

/-- The product array: entry `i` is the sum over the inner position of row i₀ of `a0` times column i₁ of `a1`. -/
abbrev prod7 (a0 : S50000x32.Idx → EReal) (a1 : S32x32.Idx → EReal) : S50000x32.Idx → EReal :=
  fun i => ∑ k : Fin 32, a0 (lrow7 i k) * a1 (rcol7 i k)

/-- One term of that sum, with the two operand positions free. -/
abbrev term7 (a0 : S50000x32.Idx → EReal) (a1 : S32x32.Idx → EReal) (p : S50000x32.Idx) (q : S32x32.Idx) : EReal := a0 p * a1 q

theorem no_offsets7 : (![0, 0] : Fin 2 → Nat) = fun _ => 0 := funext fun a => by fin_cases a <;> rfl

/-! ## One step's product of blocks, entry by entry -/

/-- The operand positions the block product's dimension numbers name at result entry `j` and inner position `q`:
    the left one keeps the row and runs along the inner axis, the right one runs along it and keeps the column. -/
theorem left_row7 (j : S5000x32.Idx) (q : dot_S5000x32_S32x32_S5000x32_1_0_0_1_n_n.contr.Idx) :
    (dot_S5000x32_S32x32_S5000x32_1_0_0_1_n_n.lhsIdx j q 0).val = (j 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem left_inner7 (j : S5000x32.Idx) (q : dot_S5000x32_S32x32_S5000x32_1_0_0_1_n_n.contr.Idx) :
    (dot_S5000x32_S32x32_S5000x32_1_0_0_1_n_n.lhsIdx j q 1).val = (q ⟨0, by decide⟩).val :=
  dot_S5000x32_S32x32_S5000x32_1_0_0_1_n_n.lhsIdx_val_of_single rfl j q
theorem right_inner7 (j : S5000x32.Idx) (q : dot_S5000x32_S32x32_S5000x32_1_0_0_1_n_n.contr.Idx) :
    (dot_S5000x32_S32x32_S5000x32_1_0_0_1_n_n.rhsIdx j q 0).val = (q ⟨0, by decide⟩).val :=
  dot_S5000x32_S32x32_S5000x32_1_0_0_1_n_n.rhsIdx_val_of_single rfl j q
theorem right_col7 (j : S5000x32.Idx) (q : dot_S5000x32_S32x32_S5000x32_1_0_0_1_n_n.contr.Idx) :
    (dot_S5000x32_S32x32_S5000x32_1_0_0_1_n_n.rhsIdx j q 1).val = (j 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- At the exact reals the step's value at entry `j` is the sum over the inner position of the staged rows times
    the staged weights: narrowing the operands (and re-reading the left block in its own shape) changes nothing and the accumulator starts at zero. -/
theorem block_product7 (x0 : Vec Ideal S5000x32 .f32) (x1 : Vec Ideal S32x32 .f32) (j : S5000x32.Idx) :
    k12_pay1 (F := Ideal) x0 x1 j = ∑ k : Fin 32, x0 (blockrow7 j k) * x1 (blockcol7 j k) := by
  unfold k12_pay1
  refine (Ideal.matmul_constant_zero_apply dot_S5000x32_S32x32_S5000x32_1_0_0_1_n_n none
    (truncf (F := Ideal) .bf16 (shapeCast S5000x32 x0 shapeCasts_S5000x32_S5000x32) bitsLt_bf16_f32) (truncf (F := Ideal) .bf16 x1 bitsLt_bf16_f32) j).trans ?_
  rw [← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx j ((ValueIdx.contrEquiv1 dot_S5000x32_S32x32_S5000x32_1_0_0_1_n_n 32 rfl rfl).symm k) = blockrow7 j k := funext fun a => Fin.ext (by
    match a with
    | ⟨0, _⟩ => exact left_row7 _ _
    | ⟨1, _⟩ => exact (left_inner7 _ _).trans hk)
  have er : dot_S5000x32_S32x32_S5000x32_1_0_0_1_n_n.rhsIdx j ((ValueIdx.contrEquiv1 dot_S5000x32_S32x32_S5000x32_1_0_0_1_n_n 32 rfl rfl).symm k) = blockcol7 j k := funext fun a => Fin.ext (by
    match a with
    | ⟨0, _⟩ => exact (right_inner7 _ _).trans hk
    | ⟨1, _⟩ => exact right_col7 _ _)
  show shapeCast S5000x32 x0 shapeCasts_S5000x32_S5000x32 _ * x1 _ = _
  rw [shapeCast_self, el, er]

/-! ## Where the steps' blocks sit -/

/-- Decided over the ten steps: the staged rows of the left operand are the rows written back, all other block
    positions are zero, and the row-block position stays below ten. -/
theorem block_positions7 : ∀ t : Fin cfg12.N, win12_0.index t (0 : Fin 2) = win12_2.index t (0 : Fin 2)
    ∧ win12_0.index t (1 : Fin 2) = 0
    ∧ win12_1.index t (0 : Fin 2) = 0
    ∧ win12_1.index t (1 : Fin 2) = 0
    ∧ win12_2.index t (1 : Fin 2) = 0
    ∧ win12_2.index t (0 : Fin 2) ≤ 9 :=
  (by decide +kernel : ∀ t : Fin grid12.N, _)

/-- Every one of the ten row blocks is written by some step. -/
theorem block_of_rows7 : ∀ q : Fin 10, ∃ t : Fin cfg12.N, win12_2.index t = ![q.val, 0] :=
  (by decide +kernel : ∀ q : Fin 10, ∃ t : Fin grid12.N, win12_2.index t = ![q.val, 0])

variable (V : (c : Dev nD) → (b : Ref sig .tc) → Buf (Elt Ideal) ((c : Thread nD τ).loc b))

/-- What step `t` writes back is its block of the product array of the two operands as the layer finds them. -/
theorem step_writes7 (c : Dev nD) (t : Fin cfg12.N) :
    (dat12 (F := Ideal) V c).flushed 2 t
      = ((cfg12.win 2).blk t).view.read (Elt Ideal) (prod7 (V c (Pipeline.arrRef spec12 0)) (V c (Pipeline.arrRef spec12 1))) := by
  show (cfg12.win 2).cut (grid12.coords t) ((dat12 (F := Ideal) V c).after 2 t) = _
  rw [after12_2]
  unfold out12_2
  rw [View.canon_unit_zero no_offsets7]
  simp only [View.ld_unit_zero (S := S5000x32) no_offsets7, View.ld_unit_zero (S := S32x32) no_offsets7]
  obtain ⟨e0, e1, e2, e3, e4, e5⟩ := block_positions7 t
  funext j
  show k12_pay1 (F := Ideal) (iblk12 V c 0 t) (iblk12 V c 1 t) j
    = prod7 (V c (Pipeline.arrRef spec12 0)) (V c (Pipeline.arrRef spec12 1)) (((cfg12.win 2).blk t).view.emb j)
  refine (block_product7 (iblk12 V c 0 t) (iblk12 V c 1 t) j).trans ?_
  refine Finset.sum_congr rfl fun k _ => ?_
  have h0 : ((cfg12.win 0).blk t).view.emb (blockrow7 j k) = lrow7 (((cfg12.win 2).blk t).view.emb j) k := by
    funext a; apply Fin.ext
    match a with
    | ⟨0, _⟩ => show win12_0.index t (0 : Fin 2) * 5000 + 1 * (j 0).val = win12_2.index t (0 : Fin 2) * 5000 + 1 * (j 0).val; omega
    | ⟨1, _⟩ => show win12_0.index t (1 : Fin 2) * 32 + 1 * k.val = k.val; omega
  have h1 : ((cfg12.win 1).blk t).view.emb (blockcol7 j k) = rcol7 (((cfg12.win 2).blk t).view.emb j) k := by
    funext a; apply Fin.ext
    match a with
    | ⟨0, _⟩ => show win12_1.index t (0 : Fin 2) * 32 + 1 * k.val = k.val; omega
    | ⟨1, _⟩ => show win12_1.index t (1 : Fin 2) * 32 + 1 * (j 1).val = win12_2.index t (1 : Fin 2) * 32 + 1 * (j 1).val; omega
  show term7 (V c (Pipeline.arrRef spec12 0)) (V c (Pipeline.arrRef spec12 1))
        (((cfg12.win 0).blk t).view.emb (blockrow7 j k)) (((cfg12.win 1).blk t).view.emb (blockcol7 j k))
      = term7 (V c (Pipeline.arrRef spec12 0)) (V c (Pipeline.arrRef spec12 1))
        (lrow7 (((cfg12.win 2).blk t).view.emb j) k) (rcol7 (((cfg12.win 2).blk t).view.emb j) k)
  rw [h0, h1]

/-- A result entry lies in step `t`'s block iff each coordinate lies in the block's range on its axis. -/
theorem mem_step_block7 (t : Fin cfg12.N) (i : S50000x32.Idx) :
    i ∈ ((cfg12.win 2).blk t).view.set ↔ ∀ a : Fin 2, win12_2.index t a * S5000x32.size a ≤ (i a).val ∧ (i a).val < win12_2.index t a * S5000x32.size a + S5000x32.size a := by
  show i ∈ ((View.whole main_v128).slice (win12_2.rect t)).set ↔ _
  rw [View.set_slice_whole, Rect.mem_set_unit]
  exact Iff.rfl

/-- The ten row blocks tile the result: row r lies in block r / 5000. -/
theorem rows_covered7 (i : S50000x32.Idx) :
    ∃ t : Fin cfg12.N, (cfg12.win 2).flush t = true ∧ i ∈ ((cfg12.win 2).blk t).view.set := by
  have hi0 : (i 0).val < 50000 := (i 0).isLt
  have hi1 : (i 1).val < 32 := (i 1).isLt
  obtain ⟨t, ht⟩ := block_of_rows7 ⟨(i 0).val / 5000, by omega⟩
  have q0 : win12_2.index t (0 : Fin 2) = (i 0).val / 5000 := congrFun ht 0
  have q1 : win12_2.index t (1 : Fin 2) = 0 := congrFun ht 1
  refine ⟨t, flush12_2 t, ?_⟩
  rw [mem_step_block7]
  intro a
  match a with
  | ⟨0, _⟩ => show win12_2.index t (0 : Fin 2) * 5000 ≤ (i 0).val ∧ (i 0).val < win12_2.index t (0 : Fin 2) * 5000 + 5000; omega
  | ⟨1, _⟩ => show win12_2.index t (1 : Fin 2) * 32 ≤ (i 1).val ∧ (i 1).val < win12_2.index t (1 : Fin 2) * 32 + 32; omega

/-- After the layer's ten steps the result array is the product of the two operand arrays as the layer found them. -/
theorem layer7_matmul (c : Dev nD) :
    (dat12 (F := Ideal) V c).arrAt 2 cfg12.N
      = prod7 (V c (Pipeline.arrRef spec12 0)) (V c (Pipeline.arrRef spec12 1)) :=
  (dat12 (F := Ideal) V c).arrAt_eq_of_cover 2 (prod7 (V c (Pipeline.arrRef spec12 0)) (V c (Pipeline.arrRef spec12 1)))
    (fun t _ => step_writes7 V c t) rows_covered7

end Cert.KernelIdeal.Rows

end
-- ==== Proof.Layer7BiasRelu.lean ====
import proofs.«114307_j63015760166989_1_alg».proof.Proof.Gen.KernelIdeal.Frame
import Idealize.ShloMosaic.Lib.ValueIdx
import Idealize.ShloMosaic.Lib.Pipeline.Value
import Idealize.ShloMosaic.Lib.ValueLayout

/-! Layer 7, bias and ReLU: the array the region leaves is, index by index, the maximum of zero and the
    aggregated array plus the bias row.  The body adds the one bias row to every row of its block and takes
    the maximum with zero; the ten row blocks of 5000 rows tile the 50000 rows. -/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The body's offsets, all zero. -/
theorem zero_offsets7 : (![0, 0] : Fin 2 → Nat) = fun _ => 0 := funext fun a => by fin_cases a <;> rfl

/-- The bias row's index under an index of the array: row 0, the same column. -/
abbrev brow7 (i : S50000x32.Idx) : S1x32.Idx :=
  fun a => match a with | ⟨0, _⟩ => ⟨0, Nat.one_pos⟩ | ⟨1, _⟩ => ⟨(i 1).val, (i 1).isLt⟩

/-- The body's value at row `p`, column `q` of its block: the block's element plus the bias row's element of
    that column, or zero if that is larger. -/
theorem pay7_apply (x0 : Vec Ideal S5000x32 .f32) (x1 : Vec Ideal S1x32 .f32) (p : Fin 5000) (q : Fin 32) :
    k13_pay1 (F := Ideal) x0 x1 (ix2 p q)
      = FloatOps.maximumf (FloatOps.addf (x0 (ix2 p q)) (x1 (ix2 (0 : Fin 1) q))) (FloatOps.ofBits .f32 0x00000000#32) := by
  unfold k13_pay1
  show FloatOps.maximumf (FloatOps.addf (shapeCast (α := Ideal .f32) S5000x32 x0 shapeCasts_S5000x32_S5000x32 (ix2 p q))
      (broadcastTo (α := Ideal .f32) S5000x32 (shapeCast (α := Ideal .f32) S1x32 x1 shapeCasts_S1x32_S1x32) broadcasts_S1x32_S5000x32 (ix2 p q))) _ = _
  rw [shapeCast_self, shapeCast_self, broadcastTo_1b_ab_apply]
  rfl

/-- The same at any index `y` of the block, once the two blocks' elements are known as elements `A0 i` and
    `A1 (brow7 i)` of two arrays. -/
theorem pay7_value (x0 : Vec Ideal S5000x32 .f32) (x1 : Vec Ideal S1x32 .f32)
    (A0 : S50000x32.Idx → Ideal .f32) (A1 : S1x32.Idx → Ideal .f32) (y : S5000x32.Idx) (i : S50000x32.Idx)
    (h0 : x0 y = A0 i) (h1 : x1 (ix2 (0 : Fin 1) (⟨(y 1).val, (y 1).isLt⟩ : Fin 32)) = A1 (brow7 i)) :
    k13_pay1 (F := Ideal) x0 x1 y
      = FloatOps.maximumf (FloatOps.addf (A0 i) (A1 (brow7 i))) (FloatOps.ofBits .f32 0x00000000#32) := by
  have hy : y = ix2 (⟨(y 0).val, (y 0).isLt⟩ : Fin 5000) (⟨(y 1).val, (y 1).isLt⟩ : Fin 32) := by
    funext a; match a with | ⟨0, _⟩ => rfl | ⟨1, _⟩ => rfl
  rw [← h0, ← h1]
  conv_lhs => rw [hy]
  conv_rhs => rw [hy]
  exact pay7_apply x0 x1 _ _

variable (V : (c : Dev nD) → (b : Ref sig .tc) → Buf (Elt Ideal) ((c : Thread nD τ).loc b))

/-- What the array ends holding: index by index, the aggregated array plus the bias row, or zero if larger. -/
abbrev G7 (c : Dev nD) : S50000x32.Idx → Ideal .f32 := fun i =>
  FloatOps.maximumf (FloatOps.addf ((V c (Pipeline.arrRef spec13 0) : S50000x32.Idx → Ideal .f32) i)
    ((V c (Pipeline.arrRef spec13 1) : S1x32.Idx → Ideal .f32) (brow7 i))) (FloatOps.ofBits .f32 0x00000000#32)

/-- The index maps over the ten grid points: the input rows move with the output rows, every other block index
    is zero, and the output's row-block index is at most 9. -/
theorem index_facts7 : ∀ t : Fin cfg13.N, win13_0.index t (0 : Fin 2) = win13_2.index t (0 : Fin 2)
    ∧ win13_0.index t (1 : Fin 2) = 0
    ∧ win13_1.index t (0 : Fin 2) = 0
    ∧ win13_1.index t (1 : Fin 2) = 0
    ∧ win13_2.index t (1 : Fin 2) = 0
    ∧ win13_2.index t (0 : Fin 2) ≤ 9 :=
  (by decide +kernel : ∀ t : Fin grid13.N, _)

/-- Every one of the ten row blocks is some grid point's. -/
theorem index_onto7 : ∀ q : Fin 10, ∃ t : Fin cfg13.N, win13_2.index t = ![q.val, 0] :=
  (by decide +kernel : ∀ q : Fin 10, ∃ t : Fin grid13.N, win13_2.index t = ![q.val, 0])

/-- The rows block at point `t`, at `y`, is the aggregated array at row `5000 · (block index) + y 0`, column `y 1`. -/
theorem rows_block7 (c : Dev nD) (t : Fin cfg13.N) (y : S5000x32.Idx) (i : S50000x32.Idx)
    (h0 : (i 0).val = win13_2.index t (0 : Fin 2) * 5000 + (y 0).val) (h1 : (i 1).val = (y 1).val) :
    (iblk13 V c 0 t : Vec Ideal S5000x32 .f32) y = (V c (Pipeline.arrRef spec13 0) : S50000x32.Idx → Ideal .f32) i := by
  obtain ⟨e0, e1, e2, e3, e4, e5⟩ := index_facts7 t
  unfold iblk13
  rw [View.read_apply]
  show (V c (Pipeline.arrRef spec13 0) : S50000x32.Idx → Ideal .f32) (((cfg13.win 0).blk t).view.emb y) = _
  refine congrArg _ ?_
  funext a; apply Fin.ext
  match a with
  | ⟨0, _⟩ => show win13_0.index t (0 : Fin 2) * 5000 + 1 * (y 0).val = (i 0).val; omega
  | ⟨1, _⟩ => show win13_0.index t (1 : Fin 2) * 32 + 1 * (y 1).val = (i 1).val; omega

/-- The bias block at any point is the whole bias row. -/
theorem bias_block7 (c : Dev nD) (t : Fin cfg13.N) (y : S1x32.Idx) (k : S1x32.Idx)
    (h0 : (k 0).val = (y 0).val) (h1 : (k 1).val = (y 1).val) :
    (iblk13 V c 1 t : Vec Ideal S1x32 .f32) y = (V c (Pipeline.arrRef spec13 1) : S1x32.Idx → Ideal .f32) k := by
  obtain ⟨e0, e1, e2, e3, e4, e5⟩ := index_facts7 t
  unfold iblk13
  rw [View.read_apply]
  show (V c (Pipeline.arrRef spec13 1) : S1x32.Idx → Ideal .f32) (((cfg13.win 1).blk t).view.emb y) = _
  refine congrArg _ ?_
  funext a; apply Fin.ext
  match a with
  | ⟨0, _⟩ => show win13_1.index t (0 : Fin 2) * 1 + 1 * (y 0).val = (k 0).val; omega
  | ⟨1, _⟩ => show win13_1.index t (1 : Fin 2) * 32 + 1 * (y 1).val = (k 1).val; omega

/-- What point `t` writes back is block `t` of `G7`. -/
theorem flushed7_eq (c : Dev nD) (t : Fin cfg13.N) :
    (dat13 (F := Ideal) V c).flushed 2 t = ((cfg13.win 2).blk t).view.read (Elt Ideal) (G7 V c) := by
  show (cfg13.win 2).cut (grid13.coords t) ((dat13 V c).after 2 t) = _
  rw [after13_2]
  unfold out13_2
  rw [View.canon_unit_zero zero_offsets7]
  simp only [View.ld_unit_zero (S := S5000x32) zero_offsets7, View.ld_unit_zero (S := S1x32) zero_offsets7]
  funext j
  rw [View.read_apply]
  show k13_pay1 (F := Ideal) (iblk13 V c 0 t) (iblk13 V c 1 t) ((cfg13.win 2).xinj (grid13.coords t) j)
    = G7 V c (((cfg13.win 2).blk t).view.emb j)
  refine pay7_value (iblk13 V c 0 t) (iblk13 V c 1 t) (V c (Pipeline.arrRef spec13 0)) (V c (Pipeline.arrRef spec13 1))
    ((cfg13.win 2).xinj (grid13.coords t) j) (((cfg13.win 2).blk t).view.emb j) ?_ ?_
  · refine rows_block7 V c t _ _ ?_ ?_
    · show win13_2.index t (0 : Fin 2) * 5000 + 1 * (j 0).val = win13_2.index t (0 : Fin 2) * 5000 + (j 0).val; omega
    · obtain ⟨e0, e1, e2, e3, e4, e5⟩ := index_facts7 t
      show win13_2.index t (1 : Fin 2) * 32 + 1 * (j 1).val = (j 1).val; omega
  · refine bias_block7 V c t _ _ ?_ ?_
    · rfl
    · obtain ⟨e0, e1, e2, e3, e4, e5⟩ := index_facts7 t
      show win13_2.index t (1 : Fin 2) * 32 + 1 * (j 1).val = (j 1).val; omega

/-- An index of the array is in point `t`'s block iff each coordinate is in the block's range on its axis. -/
theorem mem_block7 (t : Fin cfg13.N) (i : S50000x32.Idx) :
    i ∈ ((cfg13.win 2).blk t).view.set ↔ ∀ a : Fin 2, win13_2.index t a * S5000x32.size a ≤ (i a).val
      ∧ (i a).val < win13_2.index t a * S5000x32.size a + S5000x32.size a := by
  show i ∈ ((View.whole main_v143).slice (win13_2.rect t)).set ↔ _
  rw [View.set_slice_whole, Rect.mem_set_unit]
  exact Iff.rfl

/-- Row `r` lies in the block of the point whose row-block index is `r / 5000`: the ten blocks cover the array. -/
theorem covered7 (i : S50000x32.Idx) :
    ∃ t : Fin cfg13.N, (cfg13.win 2).flush t = true ∧ i ∈ ((cfg13.win 2).blk t).view.set := by
  have hi0 : (i 0).val < 50000 := (i 0).isLt
  have hi1 : (i 1).val < 32 := (i 1).isLt
  obtain ⟨t, ht⟩ := index_onto7 ⟨(i 0).val / 5000, by omega⟩
  have q0 : win13_2.index t (0 : Fin 2) = (i 0).val / 5000 := congrFun ht 0
  have q1 : win13_2.index t (1 : Fin 2) = 0 := congrFun ht 1
  refine ⟨t, flush13_2 t, ?_⟩
  rw [mem_block7]
  intro a
  match a with
  | ⟨0, _⟩ => show win13_2.index t (0 : Fin 2) * 5000 ≤ (i 0).val ∧ (i 0).val < win13_2.index t (0 : Fin 2) * 5000 + 5000; omega
  | ⟨1, _⟩ => show win13_2.index t (1 : Fin 2) * 32 ≤ (i 1).val ∧ (i 1).val < win13_2.index t (1 : Fin 2) * 32 + 32; omega

/-- The array after the region: the aggregated array plus the bias row, or zero if larger, at every index. -/
theorem layer7_bias_relu (c : Dev nD) :
    (dat13 (F := Ideal) V c).arrAt 2 cfg13.N
      = (fun i => FloatOps.maximumf (FloatOps.addf ((V c (Pipeline.arrRef spec13 0) : S50000x32.Idx → Ideal .f32) i)
          ((V c (Pipeline.arrRef spec13 1) : S1x32.Idx → Ideal .f32) (brow7 i))) (FloatOps.ofBits .f32 0x00000000#32)
        : S50000x32.Idx → Ideal .f32) :=
  (dat13 (F := Ideal) V c).arrAt_eq_of_cover 2 (G7 V c) (fun t _ => flushed7_eq V c t) covered7

end Cert.KernelIdeal.Rows

end
-- ==== Proof.Layer7BiasRef.lean ====
import proofs.«114307_j63015760166989_1_alg».proof.Proof.ReferenceStages
import Idealize.ShloMosaic.Lib.ValueIdx
import Idealize.ShloMosaic.Lib.Pipeline.Value

/-! Layer 7 of the reference, bias and ReLU: its value at an index is the maximum of zero and the aggregated
    array plus the bias vector's entry of that column — the bias vector written as the one-row array the
    kernel's program reshapes it to. -/

noncomputable section

namespace Cert.ReferenceIdeal.Rows

open Cert.ReferenceIdeal Idealize.ShloMosaic

/-- The bias vector viewed as one row of 32: at `(0, q)` it reads the vector at `q`, as the broadcast to one
    row does. -/
theorem bias_row7_apply (x16 : (⟨S32, .f32⟩ : BufTy).Contents (Elt Ideal)) (h : S32.ShapeCasts S1x32) (k : S1x32.Idx) :
    shapeCast (α := Ideal .f32) S1x32 x16 h k = x16 (Read.idx_main_v322 k) :=
  shapeCast_apply (α := Ideal .f32) x16 h k (Read.idx_main_v322 k) (by
    have h0 : (k 0).val < 1 := (k 0).isLt
    rw [Shape.rowMajor_val_one, Shape.rowMajor_val_two]
    show (k 1).val = (k 0).val * 32 + (k 1).val
    omega)

/-- The reference's layer 7 after its ReLU, index by index. -/
theorem ref_layer7_bias_relu (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S64x32, .f32⟩ : BufTy).Contents (Elt Ideal))
    (x12 : (⟨S32, .f32⟩ : BufTy).Contents (Elt Ideal)) (x13 : (⟨S32x32, .f32⟩ : BufTy).Contents (Elt Ideal))
    (x14 : (⟨S32, .f32⟩ : BufTy).Contents (Elt Ideal)) (x15 : (⟨S32x32, .f32⟩ : BufTy).Contents (Elt Ideal))
    (x16 : (⟨S32, .f32⟩ : BufTy).Contents (Elt Ideal))
    (h : S32.ShapeCasts S1x32) :
    Read.val_main_v325 (F := Ideal) x0 x1 x2 x3 x4 x5 x6 x7 x8 x9 x10 x11 x12 x13 x14 x15 x16
      = fun i => FloatOps.maximumf (FloatOps.addf (Read.val_main_v321 (F := Ideal) x0 x1 x2 x3 x4 x5 x6 x7 x8 x9 x10 x11 x12 x13 x14 x15 i)
          (shapeCast (α := Ideal .f32) S1x32 x16 h (Read.idx_main_v323 i))) (FloatOps.ofBits .f32 0x00000000#32) := by
  funext i
  rw [Read.val_main_v325_apply, Read.val_main_v324_apply, Read.val_main_v323_apply, Read.val_main_v322_apply,
    Read.val_main_call13_v0_apply, Read.val_main_call13_cst_apply, bias_row7_apply]

end Cert.ReferenceIdeal.Rows

end
-- ==== Proof.Boundary7.lean ====
/-
  Layer 7 of the network, followed along the kernel's chain of segments.

  On entry the layer's input array h is the reference's value of the previous layer (the node features, for the first
  layer). The matrix-product region leaves h · W, row block by row block, which is the reference's product, entry by
  entry the same sum over the contracted axis. The host stretch gathers the rows of h · W at the edges' sources, scales
  row e by the edge's normalisation n[e] and adds it into row d[e] of a zero array: the same operations, in the same
  order, of the same arrays as the reference's, so the aggregate is the reference's aggregate. The bias region adds the
  bias row to every row and takes the maximum with zero, which is the reference's add and relu read entry by entry.
  The arrays s, d, n and the arguments still to be read are written by no segment of the layer.
-/
import proofs.«114307_j63015760166989_1_alg».proof.Proof.Boundary6
import proofs.«114307_j63015760166989_1_alg».proof.Proof.Host7
import proofs.«114307_j63015760166989_1_alg».proof.Proof.Layer7Matmul
import proofs.«114307_j63015760166989_1_alg».proof.Proof.Layer7BiasRelu
import proofs.«114307_j63015760166989_1_alg».proof.Proof.Layer7BiasRef
import Idealize.ShloMosaic.PureOps.Ideal

set_option maxRecDepth 16384

noncomputable section

namespace Cert.KernelIdeal.Rows

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the matrix-product region -/
theorem at22_main_v5 : W22 m ρ c (Proc.devRef .tc main_v5) = (val_main_v5 (F := Ideal) (m ((c.tc : Thread nD τ).loc main_arg1))) :=
  (W22_of_ne m ρ c main_v5 (by decide)).trans (at21_main_v5 m ρ c)
theorem at22_main_v6 : W22 m ρ c (Proc.devRef .tc main_v6) = (val_main_v6 (F := Ideal) (m ((c.tc : Thread nD τ).loc main_arg1))) :=
  (W22_of_ne m ρ c main_v6 (by decide)).trans (at21_main_v6 m ρ c)
theorem at22_main_v31 : W22 m ρ c (Proc.devRef .tc main_v31) = (val_main_v31 (F := Ideal) (m ((c.tc : Thread nD τ).loc main_arg1)) (m ((c.tc : Thread nD τ).loc main_arg2))) :=
  (W22_of_ne m ρ c main_v31 (by decide)).trans (at21_main_v31 m ρ c)
theorem at22_main_arg16 : W22 m ρ c (Proc.devRef .tc main_arg16) = (m ((c.tc : Thread nD τ).loc main_arg16)) :=
  (W22_of_ne m ρ c main_arg16 (by decide)).trans (at21_main_arg16 m ρ c)

/-- The region's output array is the reference's product of the layer's input and its weight matrix. -/
theorem at22_main_v128 : W22 m ρ c (Proc.devRef .tc main_v128) = (val_main_v308 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine (W22_arr m ρ c 2).trans ?_
  have hX : V21 m ρ c (Pipeline.arrRef spec12 0) = (val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := at21_main_v127 m ρ c
  have hW : V21 m ρ c (Pipeline.arrRef spec12 1) = (m ((c.tc : Thread nD τ).loc main_arg15)) := at21_main_arg15 m ρ c
  rw [layer7_matmul (V21 m ρ) c, hX, hW]
  funext i
  exact (val_main_v308_apply _ _ _ _ _ _ _ _ _ _ _ _ _ _ _ _ i).symm

/-! ## After the host stretch -/
theorem at23_main_v5 : W23 m ρ c (Proc.devRef .tc main_v5) = (val_main_v5 (F := Ideal) (m ((c.tc : Thread nD τ).loc main_arg1))) :=
  (StableHlo.after_of_forall_not_mem (b := Proc.devRef .tc main_v5) _ _ (List.forall_iff_forall_mem.mp (by
    simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at22_main_v5 m ρ c)
theorem at23_main_v6 : W23 m ρ c (Proc.devRef .tc main_v6) = (val_main_v6 (F := Ideal) (m ((c.tc : Thread nD τ).loc main_arg1))) :=
  (StableHlo.after_of_forall_not_mem (b := Proc.devRef .tc main_v6) _ _ (List.forall_iff_forall_mem.mp (by
    simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at22_main_v6 m ρ c)
theorem at23_main_v31 : W23 m ρ c (Proc.devRef .tc main_v31) = (val_main_v31 (F := Ideal) (m ((c.tc : Thread nD τ).loc main_arg1)) (m ((c.tc : Thread nD τ).loc main_arg2))) :=
  (StableHlo.after_of_forall_not_mem (b := Proc.devRef .tc main_v31) _ _ (List.forall_iff_forall_mem.mp (by
    simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at22_main_v31 m ρ c)
theorem at23_main_arg16 : W23 m ρ c (Proc.devRef .tc main_arg16) = (m ((c.tc : Thread nD τ).loc main_arg16)) :=
  (StableHlo.after_of_forall_not_mem (b := Proc.devRef .tc main_arg16) _ _ (List.forall_iff_forall_mem.mp (by
    simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (at22_main_arg16 m ρ c)

/-- The aggregate: the host's gather, scaling and scatter-add of the product, the same operations as the reference's. -/
theorem at23_main_v141 : W23 m ρ c (Proc.devRef .tc main_v141) = (val_main_v321 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :=
  (host_agg7 (W22 m ρ c) _ _ _ (at22_main_v128 m ρ c) (at22_main_v5 m ρ c) (at22_main_v6 m ρ c) (at22_main_v31 m ρ c)).trans
    (ref_agg7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).symm

/-- The bias, reshaped to one row. -/
theorem at23_main_v142 : W23 m ρ c (Proc.devRef .tc main_v142) = (shapeCast S1x32 (m ((c.tc : Thread nD τ).loc main_arg16)) shapeCasts_S32_S1x32) :=
  host_bias_row7 (W22 m ρ c) _ (at22_main_arg16 m ρ c)

/-! ## After the bias region -/
theorem at24_main_v5 : W24 m ρ c (Proc.devRef .tc main_v5) = (val_main_v5 (F := Ideal) (m ((c.tc : Thread nD τ).loc main_arg1))) :=
  (W24_of_ne m ρ c main_v5 (by decide)).trans (at23_main_v5 m ρ c)
theorem at24_main_v6 : W24 m ρ c (Proc.devRef .tc main_v6) = (val_main_v6 (F := Ideal) (m ((c.tc : Thread nD τ).loc main_arg1))) :=
  (W24_of_ne m ρ c main_v6 (by decide)).trans (at23_main_v6 m ρ c)
theorem at24_main_v31 : W24 m ρ c (Proc.devRef .tc main_v31) = (val_main_v31 (F := Ideal) (m ((c.tc : Thread nD τ).loc main_arg1)) (m ((c.tc : Thread nD τ).loc main_arg2))) :=
  (W24_of_ne m ρ c main_v31 (by decide)).trans (at23_main_v31 m ρ c)

/-- The layer's output array is the reference's value of the layer. -/
theorem at24_main_v143 : W24 m ρ c (Proc.devRef .tc main_v143) = (val_main_v325 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := by
  refine (W24_arr m ρ c 2).trans ?_
  have hA : V23 m ρ c (Pipeline.arrRef spec13 0) = (val_main_v321 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := at23_main_v141 m ρ c
  have hB : V23 m ρ c (Pipeline.arrRef spec13 1) = (shapeCast S1x32 (m ((c.tc : Thread nD τ).loc main_arg16)) shapeCasts_S32_S1x32) := at23_main_v142 m ρ c
  rw [layer7_bias_relu (V23 m ρ) c, hA, hB]
  exact (Cert.ReferenceIdeal.Rows.ref_layer7_bias_relu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) shapeCasts_S32_S1x32).symm

end Cert.KernelIdeal.Rows

end
-- ==== Proof.lean ====
/-
  The certificate of the seven-layer graph network: the kernel's pipelined matrix products and bias/relu regions,
  with the host's gather and scatter-add between them, against the plain reference.

  Both idealized programs compute, layer by layer, relu(A · (h W) + b), where A is the normalised adjacency operator
  "gather the rows at the edges' sources, scale row e by n[e], add it into row d[e]". The kernel computes h W one row
  block at a time, which entry by entry is the reference's sum over the contracted axis; its bias region adds the bias
  row and takes the maximum with zero entry by entry, which is the reference's add and relu; the host operations
  between the regions are the reference's own, applied to the same arrays. So the kernel's last output array is the
  reference's last stage of the same arguments (followed boundary by boundary along the kernel's chain of segments),
  and no law beyond that identification is used: the inputs' finiteness is never opened.

  The three frames are the generated ones (the reference's is its generated run with the result dropped); the
  idealization rewrote no operation, so the preservation claim is trivial.
-/
import proofs.«114307_j63015760166989_1_alg».proof.Defs
import proofs.«114307_j63015760166989_1_alg».proof.Proof.Gen.Kernel
import proofs.«114307_j63015760166989_1_alg».proof.Proof.Gen.Kernel.Frame
import proofs.«114307_j63015760166989_1_alg».proof.Proof.Gen.KernelIdeal
import proofs.«114307_j63015760166989_1_alg».proof.Proof.Gen.KernelIdeal.Frame
import proofs.«114307_j63015760166989_1_alg».proof.Proof.Gen.ReferenceIdeal
import proofs.«114307_j63015760166989_1_alg».proof.Proof.ReferenceRun
import proofs.«114307_j63015760166989_1_alg».proof.Proof.ReferenceStages
import proofs.«114307_j63015760166989_1_alg».proof.Proof.Gen.Pre_finite_inputs
import proofs.«114307_j63015760166989_1_alg».proof.Proof.KernelRun
import proofs.«114307_j63015760166989_1_alg».proof.Proof.Boundary7
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result, as its run names it, is the last stage of its arguments: the run's term and the stages are
    the same composition of the program's operations. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v325 (F := Ideal) m' c
      = Cert.ReferenceIdeal.Read.val_main_v325 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) := by
  unfold Cert.ReferenceIdeal.Value.res_main_v325; rfl

/-- From memories that agree on the arguments both programs run to the end, the kernel's result array at the contents
    of the last boundary of its chain, which is the reference's last stage of the arguments. -/
theorem algebraic : Cert.algebraic_KernelIdeal_ReferenceIdeal := by
  intro m ρ m' ρ' _ hagree
  refine ⟨fun c => Cert.KernelIdeal.Gen.W24 m ρ c (Proc.devRef .tc Cert.KernelIdeal.main_v143),
    Cert.KernelIdeal.Rows.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [ref_result, h0, h1, h2, h3, h4, h5, h6, h7, h8, h9, h10, h11, h12, h13, h14, h15, h16]
  exact (Cert.KernelIdeal.Rows.at24_main_v143 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
